-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S256 .f32) (main_arg7 : FVec F S256x40 .f32) (main_arg8 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x40 .f32 := Host.absf main_arg7
  let main_cst_8 : FVec F S_ .f32 := constant S_ .f32 0x7F800000#32
  let main_v25 : FVec F S256x40 .f32 := broadcastInDim S256x40 ![] bcast_S_S256x40 main_cst_8
  let main_v26 : IVec S256x40 1 := cmpf .olt main_v24 main_v25
  let main_c_9 : IVec S_ 1 := constantI S_ 1 1#1
  let main_v27 : IVec S_ 1 := (fun x v => Host.reduce IntOp.andi x v reducesTo_S256x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1000000 32) (main_arg2 : IVec S1000000 32) (main_arg3 : FVec F S128x256 .f32) (main_arg4 : FVec F S256 .f32) (main_arg5 : FVec F S256x256 .f32) (main_arg6 : FVec F S256 .f32) (main_arg7 : FVec F S256x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S100000x128 : Shape := ⟨2, ![100000, 128]⟩
abbrev S1000000 : Shape := ⟨1, ![1000000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩
abbrev S100000 : Shape := ⟨1, ![100000]⟩
abbrev S1000000x1 : Shape := ⟨2, ![1000000, 1]⟩
abbrev S20000 : Shape := ⟨1, ![20000]⟩
abbrev S100000x256 : Shape := ⟨2, ![100000, 256]⟩
abbrev S5000x128 : Shape := ⟨2, ![5000, 128]⟩
abbrev S5000x256 : Shape := ⟨2, ![5000, 256]⟩
abbrev S1000000x256 : Shape := ⟨2, ![1000000, 256]⟩
abbrev S20000x256 : Shape := ⟨2, ![20000, 256]⟩
abbrev S20000x1 : Shape := ⟨2, ![20000, 1]⟩
abbrev S100000x1 : Shape := ⟨2, ![100000, 1]⟩
abbrev S1x256 : Shape := ⟨2, ![1, 256]⟩
abbrev S5000x1 : Shape := ⟨2, ![5000, 1]⟩
abbrev S100000x40 : Shape := ⟨2, ![100000, 40]⟩
abbrev S5000x40 : Shape := ⟨2, ![5000, 40]⟩
abbrev S1000000x40 : Shape := ⟨2, ![1000000, 40]⟩
abbrev S20000x40 : Shape := ⟨2, ![20000, 40]⟩
abbrev S1x40 : Shape := ⟨2, ![1, 40]⟩

abbrev nBuf : Space → Nat
  | .hbm => 138
  | .vmem => 36
  | .smem => 0
  | _ => 0

abbrev hbmTy0_0 (i : Nat) : BufTy := match i % 128 with
  | 0 => ⟨S100000x128, .f32⟩
  | 1 => ⟨S1000000, .i32⟩
  | 2 => ⟨S1000000, .i32⟩
  | 3 => ⟨S128x256, .f32⟩
  | 4 => ⟨S256, .f32⟩
  | 5 => ⟨S256x256, .f32⟩
  | 6 => ⟨S256, .f32⟩
  | 7 => ⟨S256x40, .f32⟩
  | 8 => ⟨S40, .f32⟩
  | 9 => ⟨S_, .f32⟩
  | 10 => ⟨S1000000, .f32⟩
  | 11 => ⟨S_, .f32⟩
  | 12 => ⟨S100000, .f32⟩
  | 13 => ⟨S1000000x1, .i32⟩
  | 14 => ⟨S100000, .f32⟩
  | 15 => ⟨S_, .f32⟩
  | 16 => ⟨S20000, .f32⟩
  | 17 => ⟨S1000000x1, .i32⟩
  | 18 => ⟨S20000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S20000, .f32⟩
  | 31 => ⟨S20000, .i1⟩
  | 32 => ⟨S_, .f32⟩
  | 33 => ⟨S20000, .f32⟩
  | 34 => ⟨S20000, .f32⟩
  | 35 => ⟨S_, .f32⟩
  | 36 => ⟨S_, .f32⟩
  | 37 => ⟨S20000, .f32⟩
  | 38 => ⟨S20000, .f32⟩
  | 39 => ⟨S100000x256, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x256, .f32⟩
  | 49 => ⟨S_, .f32⟩
  | 50 => ⟨S20000x256, .f32⟩
  | 51 => ⟨S1000000x1, .i32⟩
  | 52 => ⟨S20000x256, .f32⟩
  | 53 => ⟨S20000x1, .f32⟩
  | 54 => ⟨S20000x256, .f32⟩
  | 55 => ⟨S20000x256, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x256, .f32⟩
  | 65 => ⟨S_, .f32⟩
  | 66 => ⟨S100000x256, .f32⟩
  | 67 => ⟨S1000000x1, .i32⟩
  | 68 => ⟨S100000x256, .f32⟩
  | 69 => ⟨S100000x1, .f32⟩
  | 70 => ⟨S1x256, .f32⟩
  | 71 => ⟨S100000x256, .f32⟩
  | 72 => ⟨S100000x256, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x256, .f32⟩
  | 82 => ⟨S_, .f32⟩
  | 83 => ⟨S20000x256, .f32⟩
  | 84 => ⟨S1000000x1, .i32⟩
  | 85 => ⟨S20000x256, .f32⟩
  | 86 => ⟨S20000x1, .f32⟩
  | 87 => ⟨S20000x256, .f32⟩
  | 88 => ⟨S20000x256, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x256, .f32⟩
  | 98 => ⟨S_, .f32⟩
  | 99 => ⟨S100000x256, .f32⟩
  | 100 => ⟨S1000000x1, .i32⟩
  | 101 => ⟨S100000x256, .f32⟩
  | 102 => ⟨S100000x1, .f32⟩
  | 103 => ⟨S1x256, .f32⟩
  | 104 => ⟨S100000x256, .f32⟩
  | 105 => ⟨S100000x40, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x40, .f32⟩
  | 115 => ⟨S_, .f32⟩
  | 116 => ⟨S20000x40, .f32⟩
  | 117 => ⟨S1000000x1, .i32⟩
  | 118 => ⟨S20000x40, .f32⟩
  | 119 => ⟨S20000x1, .f32⟩
  | 120 => ⟨S20000x40, .f32⟩
  | 121 => ⟨S20000x40, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x128, .f32⟩

abbrev hbmTy0_1 (i : Nat) : BufTy := match i % 128 with
  | 0 => ⟨S1000000, .i32⟩
  | 1 => ⟨S1000000x1, .i32⟩
  | 2 => ⟨S1000000x40, .f32⟩
  | 3 => ⟨S_, .f32⟩
  | 4 => ⟨S100000x40, .f32⟩
  | 5 => ⟨S1000000x1, .i32⟩
  | 6 => ⟨S100000x40, .f32⟩
  | 7 => ⟨S100000x1, .f32⟩
  | 8 => ⟨S1x40, .f32⟩
  | 9 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x1, .f32⟩
  | .local _ .vmem, ⟨8, _⟩ => ⟨S5000x1, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x1, .f32⟩
  | .local _ .vmem, ⟨20, _⟩ => ⟨S5000x1, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S256x40, .f32⟩
  | .local _ .vmem, ⟨27, _⟩ => ⟨S5000x40, .f32⟩
  | .local _ .vmem, ⟨28, _⟩ => ⟨S5000x40, .f32⟩
  | .local _ .vmem, ⟨29, _⟩ => ⟨S5000x40, .f32⟩
  | .local _ .vmem, ⟨30, _⟩ => ⟨S5000x40, .f32⟩
  | .local _ .vmem, ⟨31, _⟩ => ⟨S5000x1, .f32⟩
  | .local _ .vmem, ⟨32, _⟩ => ⟨S5000x1, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_8 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_13 : Ref sig .tc := ⟨.hbm, 73, rfl⟩
abbrev main_v45 : Ref sig .tc := ⟨.hbm, 74, rfl⟩
abbrev main_v46 : Ref sig .tc := ⟨.hbm, 75, rfl⟩
abbrev main_c_14 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_16 : Ref sig .tc := ⟨.hbm, 89, rfl⟩
abbrev main_v58 : Ref sig .tc := ⟨.hbm, 90, rfl⟩
abbrev main_v59 : Ref sig .tc := ⟨.hbm, 91, rfl⟩
abbrev main_c_17 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_19 : Ref sig .tc := ⟨.hbm, 106, rfl⟩
abbrev main_v72 : Ref sig .tc := ⟨.hbm, 107, rfl⟩
abbrev main_v73 : Ref sig .tc := ⟨.hbm, 108, rfl⟩
abbrev main_c_20 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_21 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_22 : Ref sig .tc := ⟨.hbm, 122, rfl⟩
abbrev main_v85 : Ref sig .tc := ⟨.hbm, 123, rfl⟩
abbrev main_v86 : Ref sig .tc := ⟨.hbm, 124, rfl⟩
abbrev main_c_23 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S20000 : S_.BroadcastsInDim S20000 (![] : Fin 0 → Fin S20000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  shapeCasts_S100000_S100000x1 : S100000.ShapeCasts S100000x1
  shapeCasts_S256_S1x256 : S256.ShapeCasts S1x256
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S_S20000x40 : S_.BroadcastsInDim S20000x40 (![] : Fin 0 → Fin S20000x40.rank)
  bcast_S20000x1_S20000x40_0_1 : S20000x1.BroadcastsInDim S20000x40 (![0, 1] : Fin 2 → Fin S20000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1000000x1_S1000000_n_0_0_1_wf : ScatterDims.WF S100000 S1000000x1 S1000000 [] [0] [0] 1
  scatter_S20000_S1000000x1_S1000000_n_0_0_1_wf : ScatterDims.WF S20000 S1000000x1 S1000000 [] [0] [0] 1
  dot_S5000x128_S128x256_S5000x256_1_0_0_1_n_n_wf : DotDims.WF S5000x128 S128x256 S5000x256 [1] [0] [0] [1] [] []
  gather_S100000x256_S1000000x1_S1000000x256_1_0_n_n_0_1_1256_wf : GatherDims.WF S100000x256 S1000000x1 S1000000x256 [1] [0] [] [0] [] 1 ![1, 256]
  scatter_S20000x256_S1000000x1_S1000000x256_1_0_0_1_wf : ScatterDims.WF S20000x256 S1000000x1 S1000000x256 [1] [0] [0] 1
  gather_S20000x256_S1000000x1_S1000000x256_1_0_n_n_0_1_1256_wf : GatherDims.WF S20000x256 S1000000x1 S1000000x256 [1] [0] [] [0] [] 1 ![1, 256]
  scatter_S100000x256_S1000000x1_S1000000x256_1_0_0_1_wf : ScatterDims.WF S100000x256 S1000000x1 S1000000x256 [1] [0] [0] 1
  dot_S5000x256_S256x256_S5000x256_1_0_0_1_n_n_wf : DotDims.WF S5000x256 S256x256 S5000x256 [1] [0] [0] [1] [] []
  dot_S5000x256_S256x40_S5000x40_1_0_0_1_n_n_wf : DotDims.WF S5000x256 S256x40 S5000x40 [1] [0] [0] [1] [] []
  gather_S100000x40_S1000000x1_S1000000x40_1_0_n_n_0_1_140_wf : GatherDims.WF S100000x40 S1000000x1 S1000000x40 [1] [0] [] [0] [] 1 ![1, 40]
  scatter_S20000x40_S1000000x1_S1000000x40_1_0_0_1_wf : ScatterDims.WF S20000x40 S1000000x1 S1000000x40 [1] [0] [0] 1
  gather_S20000x40_S1000000x1_S1000000x40_1_0_n_n_0_1_140_wf : GatherDims.WF S20000x40 S1000000x1 S1000000x40 [1] [0] [] [0] [] 1 ![1, 40]
  scatter_S100000x40_S1000000x1_S1000000x40_1_0_0_1_wf : ScatterDims.WF S100000x40 S1000000x1 S1000000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S100000x256.size a
  hwx3_3 : ∀ i : grid3.Coords, EltTy.bits .f32 = 32 ∨ (Rect.block (s := S100000x256) S5000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .f32 = 32 ∨ (Rect.block (s := S256x40) S256x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S100000x40.size a
  hwx5_3 : ∀ i : grid5.Coords, EltTy.bits .f32 = 32 ∨ (Rect.block (s := S100000x40) S5000x40.size (cc5_transform_3 i) (hinb5_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S20000x256_S1000000x1_S1000000x256_1_0_0_1 : ScatterDims S20000x256 S1000000x1 S1000000x256 where
  updateWindowDims := [1]
  insertedWindowDims := [0]
  scatterDimsToOperandDims := [0]
  indexVectorDim := 1
  wf := scatter_S20000x256_S1000000x1_S1000000x256_1_0_0_1_wf
def gather_S20000x256_S1000000x1_S1000000x256_1_0_n_n_0_1_1256 : GatherDims S20000x256 S1000000x1 S1000000x256 where
  offsetDims := [1]
  collapsedSliceDims := [0]
  operandBatchingDims := []
  startIndicesBatchingDims := []
  startIndexMap := [0]
  indexVectorDim := 1
  sliceSizes := ![1, 256]
  wf := gather_S20000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S100000x40_S1000000x1_S1000000x40_1_0_n_n_0_1_140 : GatherDims S100000x40 S1000000x1 S1000000x40 where
  offsetDims := [1]
  collapsedSliceDims := [0]
  operandBatchingDims := []
  startIndicesBatchingDims := []
  startIndexMap := [0]
  indexVectorDim := 1
  sliceSizes := ![1, 40]
  wf := gather_S100000x40_S1000000x1_S1000000x40_1_0_n_n_0_1_140_wf
def scatter_S20000x40_S1000000x1_S1000000x40_1_0_0_1 : ScatterDims S20000x40 S1000000x1 S1000000x40 where
  updateWindowDims := [1]
  insertedWindowDims := [0]
  scatterDimsToOperandDims := [0]
  indexVectorDim := 1
  wf := scatter_S20000x40_S1000000x1_S1000000x40_1_0_0_1_wf
def gather_S20000x40_S1000000x1_S1000000x40_1_0_n_n_0_1_140 : GatherDims S20000x40 S1000000x1 S1000000x40 where
  offsetDims := [1]
  collapsedSliceDims := [0]
  operandBatchingDims := []
  startIndicesBatchingDims := []
  startIndexMap := [0]
  indexVectorDim := 1
  sliceSizes := ![1, 40]
  wf := gather_S20000x40_S1000000x1_S1000000x40_1_0_n_n_0_1_140_wf
def scatter_S100000x40_S1000000x1_S1000000x40_1_0_0_1 : ScatterDims S100000x40 S1000000x1 S1000000x40 where
  updateWindowDims := [1]
  insertedWindowDims := [0]
  scatterDimsToOperandDims := [0]
  indexVectorDim := 1
  wf := scatter_S100000x40_S1000000x1_S1000000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v70) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v94) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v96) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩
abbrev S100000 : Shape := ⟨1, ![100000]⟩
abbrev S1000000x1 : Shape := ⟨2, ![1000000, 1]⟩
abbrev S20000 : Shape := ⟨1, ![20000]⟩
abbrev S100000x256 : Shape := ⟨2, ![100000, 256]⟩
abbrev S1000000x256 : Shape := ⟨2, ![1000000, 256]⟩
abbrev S20000x256 : Shape := ⟨2, ![20000, 256]⟩
abbrev S20000x1 : Shape := ⟨2, ![20000, 1]⟩
abbrev S100000x1 : Shape := ⟨2, ![100000, 1]⟩
abbrev S1x256 : Shape := ⟨2, ![1, 256]⟩
abbrev S100000x40 : Shape := ⟨2, ![100000, 40]⟩
abbrev S1000000x40 : Shape := ⟨2, ![1000000, 40]⟩
abbrev S20000x40 : Shape := ⟨2, ![20000, 40]⟩
abbrev S1x40 : Shape := ⟨2, ![1, 40]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S1000000, .i32⟩
  | 2 => ⟨S1000000, .i32⟩
  | 3 => ⟨S128x256, .f32⟩
  | 4 => ⟨S256, .f32⟩
  | 5 => ⟨S256x256, .f32⟩
  | 6 => ⟨S256, .f32⟩
  | 7 => ⟨S256x40, .f32⟩
  | 8 => ⟨S40, .f32⟩
  | 9 => ⟨S_, .f32⟩
  | 10 => ⟨S1000000, .f32⟩
  | 11 => ⟨S_, .f32⟩
  | 12 => ⟨S100000, .f32⟩
  | 13 => ⟨S1000000x1, .i32⟩
  | 14 => ⟨S100000, .f32⟩
  | 15 => ⟨S_, .f32⟩
  | 16 => ⟨S20000, .f32⟩
  | 17 => ⟨S1000000x1, .i32⟩
  | 18 => ⟨S20000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S20000, .f32⟩
  | 31 => ⟨S20000, .i1⟩
  | 32 => ⟨S_, .f32⟩
  | 33 => ⟨S20000, .f32⟩
  | 34 => ⟨S20000, .f32⟩
  | 35 => ⟨S_, .f32⟩
  | 36 => ⟨S_, .f32⟩
  | 37 => ⟨S20000, .f32⟩
  | 38 => ⟨S20000, .f32⟩
  | 39 => ⟨S100000x256, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x256, .f32⟩
  | 49 => ⟨S_, .f32⟩
  | 50 => ⟨S20000x256, .f32⟩
  | 51 => ⟨S1000000x1, .i32⟩
  | 52 => ⟨S20000x256, .f32⟩
  | 53 => ⟨S20000x1, .f32⟩
  | 54 => ⟨S20000x256, .f32⟩
  | 55 => ⟨S20000x256, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x256, .f32⟩
  | 65 => ⟨S_, .f32⟩
  | 66 => ⟨S100000x256, .f32⟩
  | 67 => ⟨S1000000x1, .i32⟩
  | 68 => ⟨S100000x256, .f32⟩
  | 69 => ⟨S100000x1, .f32⟩
  | 70 => ⟨S100000x256, .f32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S100000x256, .f32⟩
  | 77 => ⟨S100000x256, .i1⟩
  | 78 => ⟨S_, .f32⟩
  | 79 => ⟨S100000x256, .f32⟩
  | 80 => ⟨S100000x256, .i1⟩
  | 81 => ⟨S_, .f32⟩
  | 82 => ⟨S_, .f32⟩
  | 83 => ⟨S100000x256, .f32⟩
  | 84 => ⟨S100000x256, .f32⟩
  | 85 => ⟨S100000x256, .f32⟩
  | 86 => ⟨S_, .f32⟩
  | 87 => ⟨S100000x256, .f32⟩
  | 88 => ⟨S100000x256, .f32⟩
  | 89 => ⟨S100000x256, .f32⟩
  | 90 => ⟨S100000x256, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x256, .f32⟩
  | 100 => ⟨S_, .f32⟩
  | 101 => ⟨S20000x256, .f32⟩
  | 102 => ⟨S1000000x1, .i32⟩
  | 103 => ⟨S20000x256, .f32⟩
  | 104 => ⟨S20000x1, .f32⟩
  | 105 => ⟨S20000x256, .f32⟩
  | 106 => ⟨S20000x256, .f32⟩
  | 107 => ⟨S_, .i32⟩
  | 108 => ⟨S1000000, .i32⟩
  | 109 => ⟨S1000000, .i1⟩
  | 110 => ⟨S_, .i32⟩
  | 111 => ⟨S1000000, .i32⟩
  | 112 => ⟨S1000000, .i32⟩
  | 113 => ⟨S1000000, .i32⟩
  | 114 => ⟨S1000000x1, .i32⟩
  | 115 => ⟨S1000000x256, .f32⟩
  | 116 => ⟨S_, .f32⟩
  | 117 => ⟨S100000x256, .f32⟩
  | 118 => ⟨S1000000x1, .i32⟩
  | 119 => ⟨S100000x256, .f32⟩
  | 120 => ⟨S100000x1, .f32⟩
  | 121 => ⟨S100000x256, .f32⟩
  | 122 => ⟨S100000x256, .f32⟩
  | 123 => ⟨S1x256, .f32⟩
  | 124 => ⟨S100000x256, .f32⟩
  | 125 => ⟨S100000x256, .f32⟩
  | 126 => ⟨S_, .f32⟩
  | 127 => ⟨S100000x256, .f32⟩
  | _ => ⟨S100000x128, .f32⟩

abbrev hbmTy0_1 (i : Nat) : BufTy := match i % 128 with
  | 0 => ⟨S100000x256, .i1⟩
  | 1 => ⟨S_, .f32⟩
  | 2 => ⟨S100000x256, .f32⟩
  | 3 => ⟨S100000x256, .i1⟩
  | 4 => ⟨S_, .f32⟩
  | 5 => ⟨S_, .f32⟩
  | 6 => ⟨S100000x256, .f32⟩
  | 7 => ⟨S100000x256, .f32⟩
  | 8 => ⟨S100000x256, .f32⟩
  | 9 => ⟨S_, .f32⟩
  | 10 => ⟨S100000x256, .f32⟩
  | 11 => ⟨S100000x256, .f32⟩
  | 12 => ⟨S100000x256, .f32⟩
  | 13 => ⟨S100000x40, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x40, .f32⟩
  | 23 => ⟨S_, .f32⟩
  | 24 => ⟨S20000x40, .f32⟩
  | 25 => ⟨S1000000x1, .i32⟩
  | 26 => ⟨S20000x40, .f32⟩
  | 27 => ⟨S20000x1, .f32⟩
  | 28 => ⟨S20000x40, .f32⟩
  | 29 => ⟨S20000x40, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x40, .f32⟩
  | 39 => ⟨S_, .f32⟩
  | 40 => ⟨S100000x40, .f32⟩
  | 41 => ⟨S1000000x1, .i32⟩
  | 42 => ⟨S100000x40, .f32⟩
  | 43 => ⟨S100000x1, .f32⟩
  | 44 => ⟨S100000x40, .f32⟩
  | 45 => ⟨S100000x40, .f32⟩
  | 46 => ⟨S1x40, .f32⟩
  | 47 => ⟨S100000x40, .f32⟩
  | 48 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_8 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_cst_1 : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_v4 : Ref sig .tc := ⟨.hbm, 84, rfl⟩
abbrev main_call2_v5 : Ref sig .tc := ⟨.hbm, 85, rfl⟩
abbrev main_call2_cst_2 : Ref sig .tc := ⟨.hbm, 86, rfl⟩
abbrev main_call2_v6 : Ref sig .tc := ⟨.hbm, 87, rfl⟩
abbrev main_call2_v7 : Ref sig .tc := ⟨.hbm, 88, rfl⟩
abbrev main_v47 : Ref sig .tc := ⟨.hbm, 89, rfl⟩
abbrev main_v48 : Ref sig .tc := ⟨.hbm, 90, rfl⟩
abbrev main_c_13 : Ref sig .tc := ⟨.hbm, 91, rfl⟩
abbrev main_v49 : Ref sig .tc := ⟨.hbm, 92, rfl⟩
abbrev main_v50 : Ref sig .tc := ⟨.hbm, 93, rfl⟩
abbrev main_c_14 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_15 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_16 : Ref sig .tc := ⟨.hbm, 107, rfl⟩
abbrev main_v62 : Ref sig .tc := ⟨.hbm, 108, rfl⟩
abbrev main_v63 : Ref sig .tc := ⟨.hbm, 109, rfl⟩
abbrev main_c_17 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_18 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_call3_cst : Ref sig .tc := ⟨.hbm, 126, rfl⟩
abbrev main_call3_v0 : Ref sig .tc := ⟨.hbm, 127, rfl⟩
abbrev main_call3_v1 : Ref sig .tc := ⟨.hbm, 128, rfl⟩
abbrev main_call3_cst_0 : Ref sig .tc := ⟨.hbm, 129, rfl⟩
abbrev main_call3_v2 : Ref sig .tc := ⟨.hbm, 130, rfl⟩
abbrev main_call3_v3 : Ref sig .tc := ⟨.hbm, 131, rfl⟩
abbrev main_call3_cst_1 : Ref sig .tc := ⟨.hbm, 132, rfl⟩
abbrev main_call3_call0_v0 : Ref sig .tc := ⟨.hbm, 133, rfl⟩
abbrev main_call3_call0_v1 : Ref sig .tc := ⟨.hbm, 134, rfl⟩
abbrev main_call3_v4 : Ref sig .tc := ⟨.hbm, 135, rfl⟩
abbrev main_call3_v5 : Ref sig .tc := ⟨.hbm, 136, rfl⟩
abbrev main_call3_cst_2 : Ref sig .tc := ⟨.hbm, 137, rfl⟩
abbrev main_call3_v6 : Ref sig .tc := ⟨.hbm, 138, rfl⟩
abbrev main_call3_v7 : Ref sig .tc := ⟨.hbm, 139, rfl⟩
abbrev main_v78 : Ref sig .tc := ⟨.hbm, 140, rfl⟩
abbrev main_v79 : Ref sig .tc := ⟨.hbm, 141, rfl⟩
abbrev main_c_19 : Ref sig .tc := ⟨.hbm, 142, rfl⟩
abbrev main_v80 : Ref sig .tc := ⟨.hbm, 143, rfl⟩
abbrev main_v81 : Ref sig .tc := ⟨.hbm, 144, rfl⟩
abbrev main_c_20 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_21 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_c_22 : Ref sig .tc := ⟨.hbm, 158, rfl⟩
abbrev main_v93 : Ref sig .tc := ⟨.hbm, 159, rfl⟩
abbrev main_v94 : Ref sig .tc := ⟨.hbm, 160, rfl⟩
abbrev main_c_23 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_24 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S20000 : S_.BroadcastsInDim S20000 (![] : Fin 0 → Fin S20000.rank)
  bcast_S_S20000x256 : S_.BroadcastsInDim S20000x256 (![] : Fin 0 → Fin S20000x256.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S20000x40 : S_.BroadcastsInDim S20000x40 (![] : Fin 0 → Fin S20000x40.rank)
  bcast_S20000x1_S20000x40_0_1 : S20000x1.BroadcastsInDim S20000x40 (![0, 1] : Fin 2 → Fin S20000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1000000x1_S1000000_n_0_0_1_wf : ScatterDims.WF S100000 S1000000x1 S1000000 [] [0] [0] 1
  scatter_S20000_S1000000x1_S1000000_n_0_0_1_wf : ScatterDims.WF S20000 S1000000x1 S1000000 [] [0] [0] 1
  dot_S100000x128_S128x256_S100000x256_1_0_0_1_n_n_wf : DotDims.WF S100000x128 S128x256 S100000x256 [1] [0] [0] [1] [] []
  gather_S100000x256_S1000000x1_S1000000x256_1_0_n_n_0_1_1256_wf : GatherDims.WF S100000x256 S1000000x1 S1000000x256 [1] [0] [] [0] [] 1 ![1, 256]
  scatter_S20000x256_S1000000x1_S1000000x256_1_0_0_1_wf : ScatterDims.WF S20000x256 S1000000x1 S1000000x256 [1] [0] [0] 1
  gather_S20000x256_S1000000x1_S1000000x256_1_0_n_n_0_1_1256_wf : GatherDims.WF S20000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x256_S256x256_S100000x256_1_0_0_1_n_n_wf : DotDims.WF S100000x256 S256x256 S100000x256 [1] [0] [0] [1] [] []
  dot_S100000x256_S256x40_S100000x40_1_0_0_1_n_n_wf : DotDims.WF S100000x256 S256x40 S100000x40 [1] [0] [0] [1] [] []
  gather_S100000x40_S1000000x1_S1000000x40_1_0_n_n_0_1_140_wf : GatherDims.WF S100000x40 S1000000x1 S1000000x40 [1] [0] [] [0] [] 1 ![1, 40]
  scatter_S20000x40_S1000000x1_S1000000x40_1_0_0_1_wf : ScatterDims.WF S20000x40 S1000000x1 S1000000x40 [1] [0] [0] 1
  gather_S20000x40_S1000000x1_S1000000x40_1_0_n_n_0_1_140_wf : GatherDims.WF S20000x40 S1000000x1 S1000000x40 [1] [0] [] [0] [] 1 ![1, 40]
  scatter_S100000x40_S1000000x1_S1000000x40_1_0_0_1_wf : ScatterDims.WF S100000x40 S1000000x1 S1000000x40 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S20000x256_S1000000x1_S1000000x256_1_0_0_1 : ScatterDims S20000x256 S1000000x1 S1000000x256 where
  updateWindowDims := [1]
  insertedWindowDims := [0]
  scatterDimsToOperandDims := [0]
  indexVectorDim := 1
  wf := scatter_S20000x256_S1000000x1_S1000000x256_1_0_0_1_wf
def gather_S20000x256_S1000000x1_S1000000x256_1_0_n_n_0_1_1256 : GatherDims S20000x256 S1000000x1 S1000000x256 where
  offsetDims := [1]
  collapsedSliceDims := [0]
  operandBatchingDims := []
  startIndicesBatchingDims := []
  startIndexMap := [0]
  indexVectorDim := 1
  sliceSizes := ![1, 256]
  wf := gather_S20000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def gather_S100000x40_S1000000x1_S1000000x40_1_0_n_n_0_1_140 : GatherDims S100000x40 S1000000x1 S1000000x40 where
  offsetDims := [1]
  collapsedSliceDims := [0]
  operandBatchingDims := []
  startIndicesBatchingDims := []
  startIndexMap := [0]
  indexVectorDim := 1
  sliceSizes := ![1, 40]
  wf := gather_S100000x40_S1000000x1_S1000000x40_1_0_n_n_0_1_140_wf
def scatter_S20000x40_S1000000x1_S1000000x40_1_0_0_1 : ScatterDims S20000x40 S1000000x1 S1000000x40 where
  updateWindowDims := [1]
  insertedWindowDims := [0]
  scatterDimsToOperandDims := [0]
  indexVectorDim := 1
  wf := scatter_S20000x40_S1000000x1_S1000000x40_1_0_0_1_wf
def gather_S20000x40_S1000000x1_S1000000x40_1_0_n_n_0_1_140 : GatherDims S20000x40 S1000000x1 S1000000x40 where
  offsetDims := [1]
  collapsedSliceDims := [0]
  operandBatchingDims := []
  startIndicesBatchingDims := []
  startIndexMap := [0]
  indexVectorDim := 1
  sliceSizes := ![1, 40]
  wf := gather_S20000x40_S1000000x1_S1000000x40_1_0_n_n_0_1_140_wf
def scatter_S100000x40_S1000000x1_S1000000x40_1_0_0_1 : ScatterDims S100000x40 S1000000x1 S1000000x40 where
  updateWindowDims := [1]
  insertedWindowDims := [0]
  scatterDimsToOperandDims := [0]
  indexVectorDim := 1
  wf := scatter_S100000x40_S1000000x1_S1000000x40_1_0_0_1_wf

class Facts : Prop extends Facts₀ where

variable [Facts]
-- ==== Proof.KernelRun.lean ====
/-
  The kernel program's run with its result named. The program is six kernel regions among stretches of host operations;
  its run is the launch over those thirteen segments, after which every buffer the program does not scope holds the
  contents of the last boundary, `W13`: the fold, from the launch memory, of each host stretch's operations and of each
  region's write-backs. Read at the result buffer that is the network's output as the last region leaves it; read at an
  argument it is the launch memory, no segment writing one.
-/
import proofs.«178120_j2594160246969_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v97) = W13 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v97 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.ValueRun

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.RefRun.lean ====
/-
  The reference program's @main as ONE line of host operations, and its run.
  @main calls four outlined functions (two selects against a broadcast scalar, and twice an ELU that itself calls two
  selects); a call executes the callee's body on the operands, so the line lists, at each call site, the callee's
  operations over that call's own buffers. With the calls unfolded @main is a straight line of 168 operations in
  single-assignment form: `dsts` lists, in order, the buffer each operation writes. Every weakly fair execution of
  @main terminates with each buffer at the fold of the operations over the launch contents.
-/
import proofs.«178120_j2594160246969_1_alg».proof.Proof.Gen.ReferenceIdeal
import proofs.«178120_j2594160246969_1_alg».proof.Proof.LibStageRead
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 168 operations, in order, the calls unfolded: each select-against-a-scalar is three (the scalar converted
    to its own type, broadcast, the select); each ELU is fifteen (two comparisons with a broadcast zero, the inner
    select of zero or the argument — three —, `expm1`, the product with a broadcast one, the outer select). -/
abbrev ops : List (HloOp τ sig (Elt F)) :=
  [ StableHlo.nullary main_cst (constant S_ .f32 0x3F800000#32),
    StableHlo.unary main_cst main_v0 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_1 (constant S_ .f32 0x00000000#32),
    StableHlo.unary main_cst_1 main_v4 (broadcastInDim S20000 ![] bcast_S_S20000 : (⟨S_, .f32⟩ : BufTy).Contents (Elt F) → (⟨S20000, .f32⟩ : BufTy).Contents (Elt F)),
    StableHlo.unary main_arg2 main_v5 (broadcastInDim S1000000x1 ![0] bcast_S1000000_S1000000x1_0 : (⟨S1000000, .i32⟩ : BufTy).Contents (Elt F) → (⟨S1000000x1, .i32⟩ : BufTy).Contents (Elt F)),
    StableHlo.ternary main_v4 main_v5 main_v0 main_v6 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_2 (constant S_ .f32 0x00000000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v3 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v9 main_v3 main_v10 (Host.divf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    TRef.unary (.of main_cst_4 : TRef sig ⟨S_, .f32⟩) main_call0.v0 id,
    TRef.unary main_call0.v0 main_call0.v1 (broadcastInDim S100000 ![] bcast_S_S100000),
    TRef.ternary (.of main_v8 : TRef sig ⟨S100000, .i1⟩) (.of main_v10 : TRef sig ⟨S100000, .f32⟩) main_call0.v1 main_call0.v2 select,
    StableHlo.nullary main_cst_5 (constant S_ .f32 0x00000000#32),
    StableHlo.unary main_cst_5 main_v12 (broadcastInDim S20000 ![] bcast_S_S20000 : (⟨S_, .f32⟩ : BufTy).Contents (Elt F) → (⟨S20000, .f32⟩ : BufTy).Contents (Elt F)),
    StableHlo.binary main_v6 main_v12 main_v13 (cmpf .ogt : (⟨S20000, .f32⟩ : BufTy).Contents (Elt F) → (⟨S20000, .f32⟩ : BufTy).Contents (Elt F) → (⟨S20000, .i1⟩ : BufTy).Contents (Elt F)),
    StableHlo.nullary main_cst_6 (constant S_ .f32 0x3F800000#32),
    StableHlo.unary main_cst_6 main_v14 (broadcastInDim S20000 ![] bcast_S_S20000 : (⟨S_, .f32⟩ : BufTy).Contents (Elt F) → (⟨S20000, .f32⟩ : BufTy).Contents (Elt F)),
    StableHlo.binary main_v14 main_v6 main_v15 (Host.divf : (⟨S20000, .f32⟩ : BufTy).Contents (Elt F) → (⟨S20000, .f32⟩ : BufTy).Contents (Elt F) → (⟨S20000, .f32⟩ : BufTy).Contents (Elt F)),
    StableHlo.nullary main_cst_7 (constant S_ .f32 0x00000000#32),
    TRef.unary (.of main_cst_7 : TRef sig ⟨S_, .f32⟩) main_call1.v0 id,
    TRef.unary main_call1.v0 main_call1.v1 (broadcastInDim S20000 ![] bcast_S_S20000),
    TRef.ternary (.of main_v13 : TRef sig ⟨S20000, .i1⟩) (.of main_v15 : TRef sig ⟨S20000, .f32⟩) main_call1.v1 main_call1.v2 select,
    StableHlo.binary main_arg0 main_arg3 main_v17 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.nullary main_c (constantI S_ 32 0#32),
    StableHlo.unary main_c main_v18 (broadcastInDim S1000000 ![] bcast_S_S1000000 : (⟨S_, .i32⟩ : BufTy).Contents (Elt F) → (⟨S1000000, .i32⟩ : BufTy).Contents (Elt F)),
    StableHlo.binary main_arg1 main_v18 main_v19 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v20 (broadcastInDim S1000000 ![] bcast_S_S1000000 : (⟨S_, .i32⟩ : BufTy).Contents (Elt F) → (⟨S1000000, .i32⟩ : BufTy).Contents (Elt F)),
    StableHlo.binary main_arg1 main_v20 main_v21 (addi : (⟨S1000000, .i32⟩ : BufTy).Contents (Elt F) → (⟨S1000000, .i32⟩ : BufTy).Contents (Elt F) → (⟨S1000000, .i32⟩ : BufTy).Contents (Elt F)),
    StableHlo.ternary main_v19 main_v21 main_arg1 main_v22 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v22 main_v23 (broadcastInDim S1000000x1 ![0] bcast_S1000000_S1000000x1_0 : (⟨S1000000, .i32⟩ : BufTy).Contents (Elt F) → (⟨S1000000x1, .i32⟩ : BufTy).Contents (Elt F)),
    StableHlo.binary main_v17 main_v23 main_v24 ((fun x i => Host.gather gather_S100000x256_S1000000x1_S1000000x256_1_0_n_n_0_1_1256 x i) : (⟨S100000x256, .f32⟩ : BufTy).Contents (Elt F) → (⟨S1000000x1, .i32⟩ : BufTy).Contents (Elt F) → (⟨S1000000x256, .f32⟩ : BufTy).Contents (Elt F)),
    StableHlo.nullary main_cst_9 (constant S_ .f32 0x00000000#32),
    StableHlo.unary main_cst_9 main_v25 (broadcastInDim S20000x256 ![] bcast_S_S20000x256 : (⟨S_, .f32⟩ : BufTy).Contents (Elt F) → (⟨S20000x256, .f32⟩ : BufTy).Contents (Elt F)),
    StableHlo.unary main_arg2 main_v26 (broadcastInDim S1000000x1 ![0] bcast_S1000000_S1000000x1_0 : (⟨S1000000, .i32⟩ : BufTy).Contents (Elt F) → (⟨S1000000x1, .i32⟩ : BufTy).Contents (Elt F)),
    StableHlo.ternary main_v25 main_v26 main_v24 main_v27 ((fun x i u => Host.scatterAdd scatter_S20000x256_S1000000x1_S1000000x256_1_0_0_1 x i u) : (⟨S20000x256, .f32⟩ : BufTy).Contents (Elt F) → (⟨S1000000x1, .i32⟩ : BufTy).Contents (Elt F) → (⟨S1000000x256, .f32⟩ : BufTy).Contents (Elt F) → (⟨S20000x256, .f32⟩ : BufTy).Contents (Elt F)),
    StableHlo.unary main_v16 main_v28 (broadcastInDim S20000x1 ![0] bcast_S20000_S20000x1_0 : (⟨S20000, .f32⟩ : BufTy).Contents (Elt F) → (⟨S20000x1, .f32⟩ : BufTy).Contents (Elt F)),
    StableHlo.unary main_v28 main_v29 (broadcastInDim S20000x256 ![0, 1] bcast_S20000x1_S20000x256_0_1 : (⟨S20000x1, .f32⟩ : BufTy).Contents (Elt F) → (⟨S20000x256, .f32⟩ : BufTy).Contents (Elt F)),
    StableHlo.binary main_v29 main_v27 main_v30 (mulf : (⟨S20000x256, .f32⟩ : BufTy).Contents (Elt F) → (⟨S20000x256, .f32⟩ : BufTy).Contents (Elt F) → (⟨S20000x256, .f32⟩ : BufTy).Contents (Elt F)),
    StableHlo.nullary main_c_10 (constantI S_ 32 0#32),
    StableHlo.unary main_c_10 main_v31 (broadcastInDim S1000000 ![] bcast_S_S1000000 : (⟨S_, .i32⟩ : BufTy).Contents (Elt F) → (⟨S1000000, .i32⟩ : BufTy).Contents (Elt F)),
    StableHlo.binary main_arg2 main_v31 main_v32 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 20000#32),
    StableHlo.unary main_c_11 main_v33 (broadcastInDim S1000000 ![] bcast_S_S1000000 : (⟨S_, .i32⟩ : BufTy).Contents (Elt F) → (⟨S1000000, .i32⟩ : BufTy).Contents (Elt F)),
    StableHlo.binary main_arg2 main_v33 main_v34 (addi : (⟨S1000000, .i32⟩ : BufTy).Contents (Elt F) → (⟨S1000000, .i32⟩ : BufTy).Contents (Elt F) → (⟨S1000000, .i32⟩ : BufTy).Contents (Elt F)),
    StableHlo.ternary main_v32 main_v34 main_arg2 main_v35 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v35 main_v36 (broadcastInDim S1000000x1 ![0] bcast_S1000000_S1000000x1_0 : (⟨S1000000, .i32⟩ : BufTy).Contents (Elt F) → (⟨S1000000x1, .i32⟩ : BufTy).Contents (Elt F)),
    StableHlo.binary main_v30 main_v36 main_v37 ((fun x i => Host.gather gather_S20000x256_S1000000x1_S1000000x256_1_0_n_n_0_1_1256 x i) : (⟨S20000x256, .f32⟩ : BufTy).Contents (Elt F) → (⟨S1000000x1, .i32⟩ : BufTy).Contents (Elt F) → (⟨S1000000x256, .f32⟩ : BufTy).Contents (Elt F)),
    StableHlo.nullary main_cst_12 (constant S_ .f32 0x00000000#32),
    StableHlo.unary main_cst_12 main_v38 (broadcastInDim S100000x256 ![] bcast_S_S100000x256 : (⟨S_, .f32⟩ : BufTy).Contents (Elt F) → (⟨S100000x256, .f32⟩ : BufTy).Contents (Elt F)),
    StableHlo.unary main_arg1 main_v39 (broadcastInDim S1000000x1 ![0] bcast_S1000000_S1000000x1_0 : (⟨S1000000, .i32⟩ : BufTy).Contents (Elt F) → (⟨S1000000x1, .i32⟩ : BufTy).Contents (Elt F)),
    StableHlo.ternary main_v38 main_v39 main_v37 main_v40 ((fun x i u => Host.scatterAdd scatter_S100000x256_S1000000x1_S1000000x256_1_0_0_1 x i u) : (⟨S100000x256, .f32⟩ : BufTy).Contents (Elt F) → (⟨S1000000x1, .i32⟩ : BufTy).Contents (Elt F) → (⟨S1000000x256, .f32⟩ : BufTy).Contents (Elt F) → (⟨S100000x256, .f32⟩ : BufTy).Contents (Elt F)),
    StableHlo.unary main_v11 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x256 ![0, 1] bcast_S100000x1_S100000x256_0_1 : (⟨S100000x1, .f32⟩ : BufTy).Contents (Elt F) → (⟨S100000x256, .f32⟩ : BufTy).Contents (Elt F)),
    StableHlo.binary main_v42 main_v40 main_v43 (mulf : (⟨S100000x256, .f32⟩ : BufTy).Contents (Elt F) → (⟨S100000x256, .f32⟩ : BufTy).Contents (Elt F) → (⟨S100000x256, .f32⟩ : BufTy).Contents (Elt F)),
    StableHlo.unary main_arg4 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S100000x256 ![0, 1] bcast_S1x256_S100000x256_0_1 : (⟨S1x256, .f32⟩ : BufTy).Contents (Elt F) → (⟨S100000x256, .f32⟩ : BufTy).Contents (Elt F)),
    StableHlo.binary main_v43 main_v45 main_v46 (addf : (⟨S100000x256, .f32⟩ : BufTy).Contents (Elt F) → (⟨S100000x256, .f32⟩ : BufTy).Contents (Elt F) → (⟨S100000x256, .f32⟩ : BufTy).Contents (Elt F)),
    TRef.nullary main_call2.cst (constant S_ .f32 0x00000000#32),
    TRef.unary main_call2.cst main_call2.v0 (broadcastInDim S100000x256 ![] bcast_S_S100000x256),
    TRef.binary (.of main_v46 : TRef sig ⟨S100000x256, .f32⟩) main_call2.v0 main_call2.v1 (cmpf .ogt),
    TRef.nullary main_call2.cst_0 (constant S_ .f32 0x00000000#32),
    TRef.unary main_call2.cst_0 main_call2.v2 (broadcastInDim S100000x256 ![] bcast_S_S100000x256),
    TRef.binary (.of main_v46 : TRef sig ⟨S100000x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x256 ![] bcast_S_S100000x256),
    TRef.ternary main_call2.v3 main_call2.call0.v1 (.of main_v46 : TRef sig ⟨S100000x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x256 ![] bcast_S_S100000x256),
    TRef.binary main_call2.v6 main_call2.v5 main_call2.v7 mulf,
    TRef.ternary main_call2.v1 (.of main_v46 : TRef sig ⟨S100000x256, .f32⟩) main_call2.v7 main_call2.call1.v0 select,
    StableHlo.binary main_v47 main_arg5 main_v48 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.nullary main_c_13 (constantI S_ 32 0#32),
    StableHlo.unary main_c_13 main_v49 (broadcastInDim S1000000 ![] bcast_S_S1000000 : (⟨S_, .i32⟩ : BufTy).Contents (Elt F) → (⟨S1000000, .i32⟩ : BufTy).Contents (Elt F)),
    StableHlo.binary main_arg1 main_v49 main_v50 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 100000#32),
    StableHlo.unary main_c_14 main_v51 (broadcastInDim S1000000 ![] bcast_S_S1000000 : (⟨S_, .i32⟩ : BufTy).Contents (Elt F) → (⟨S1000000, .i32⟩ : BufTy).Contents (Elt F)),
    StableHlo.binary main_arg1 main_v51 main_v52 (addi : (⟨S1000000, .i32⟩ : BufTy).Contents (Elt F) → (⟨S1000000, .i32⟩ : BufTy).Contents (Elt F) → (⟨S1000000, .i32⟩ : BufTy).Contents (Elt F)),
    StableHlo.ternary main_v50 main_v52 main_arg1 main_v53 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v53 main_v54 (broadcastInDim S1000000x1 ![0] bcast_S1000000_S1000000x1_0 : (⟨S1000000, .i32⟩ : BufTy).Contents (Elt F) → (⟨S1000000x1, .i32⟩ : BufTy).Contents (Elt F)),
    StableHlo.binary main_v48 main_v54 main_v55 ((fun x i => Host.gather gather_S100000x256_S1000000x1_S1000000x256_1_0_n_n_0_1_1256 x i) : (⟨S100000x256, .f32⟩ : BufTy).Contents (Elt F) → (⟨S1000000x1, .i32⟩ : BufTy).Contents (Elt F) → (⟨S1000000x256, .f32⟩ : BufTy).Contents (Elt F)),
    StableHlo.nullary main_cst_15 (constant S_ .f32 0x00000000#32),
    StableHlo.unary main_cst_15 main_v56 (broadcastInDim S20000x256 ![] bcast_S_S20000x256 : (⟨S_, .f32⟩ : BufTy).Contents (Elt F) → (⟨S20000x256, .f32⟩ : BufTy).Contents (Elt F)),
    StableHlo.unary main_arg2 main_v57 (broadcastInDim S1000000x1 ![0] bcast_S1000000_S1000000x1_0 : (⟨S1000000, .i32⟩ : BufTy).Contents (Elt F) → (⟨S1000000x1, .i32⟩ : BufTy).Contents (Elt F)),
    StableHlo.ternary main_v56 main_v57 main_v55 main_v58 ((fun x i u => Host.scatterAdd scatter_S20000x256_S1000000x1_S1000000x256_1_0_0_1 x i u) : (⟨S20000x256, .f32⟩ : BufTy).Contents (Elt F) → (⟨S1000000x1, .i32⟩ : BufTy).Contents (Elt F) → (⟨S1000000x256, .f32⟩ : BufTy).Contents (Elt F) → (⟨S20000x256, .f32⟩ : BufTy).Contents (Elt F)),
    StableHlo.unary main_v16 main_v59 (broadcastInDim S20000x1 ![0] bcast_S20000_S20000x1_0 : (⟨S20000, .f32⟩ : BufTy).Contents (Elt F) → (⟨S20000x1, .f32⟩ : BufTy).Contents (Elt F)),
    StableHlo.unary main_v59 main_v60 (broadcastInDim S20000x256 ![0, 1] bcast_S20000x1_S20000x256_0_1 : (⟨S20000x1, .f32⟩ : BufTy).Contents (Elt F) → (⟨S20000x256, .f32⟩ : BufTy).Contents (Elt F)),
    StableHlo.binary main_v60 main_v58 main_v61 (mulf : (⟨S20000x256, .f32⟩ : BufTy).Contents (Elt F) → (⟨S20000x256, .f32⟩ : BufTy).Contents (Elt F) → (⟨S20000x256, .f32⟩ : BufTy).Contents (Elt F)),
    StableHlo.nullary main_c_16 (constantI S_ 32 0#32),
    StableHlo.unary main_c_16 main_v62 (broadcastInDim S1000000 ![] bcast_S_S1000000 : (⟨S_, .i32⟩ : BufTy).Contents (Elt F) → (⟨S1000000, .i32⟩ : BufTy).Contents (Elt F)),
    StableHlo.binary main_arg2 main_v62 main_v63 (cmpi .slt : (⟨S1000000, .i32⟩ : BufTy).Contents (Elt F) → (⟨S1000000, .i32⟩ : BufTy).Contents (Elt F) → (⟨S1000000, .i1⟩ : BufTy).Contents (Elt F)),
    StableHlo.nullary main_c_17 (constantI S_ 32 20000#32),
    StableHlo.unary main_c_17 main_v64 (broadcastInDim S1000000 ![] bcast_S_S1000000 : (⟨S_, .i32⟩ : BufTy).Contents (Elt F) → (⟨S1000000, .i32⟩ : BufTy).Contents (Elt F)),
    StableHlo.binary main_arg2 main_v64 main_v65 (addi : (⟨S1000000, .i32⟩ : BufTy).Contents (Elt F) → (⟨S1000000, .i32⟩ : BufTy).Contents (Elt F) → (⟨S1000000, .i32⟩ : BufTy).Contents (Elt F)),
    StableHlo.ternary main_v63 main_v65 main_arg2 main_v66 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v66 main_v67 (broadcastInDim S1000000x1 ![0] bcast_S1000000_S1000000x1_0 : (⟨S1000000, .i32⟩ : BufTy).Contents (Elt F) → (⟨S1000000x1, .i32⟩ : BufTy).Contents (Elt F)),
    StableHlo.binary main_v61 main_v67 main_v68 ((fun x i => Host.gather gather_S20000x256_S1000000x1_S1000000x256_1_0_n_n_0_1_1256 x i) : (⟨S20000x256, .f32⟩ : BufTy).Contents (Elt F) → (⟨S1000000x1, .i32⟩ : BufTy).Contents (Elt F) → (⟨S1000000x256, .f32⟩ : BufTy).Contents (Elt F)),
    StableHlo.nullary main_cst_18 (constant S_ .f32 0x00000000#32),
    StableHlo.unary main_cst_18 main_v69 (broadcastInDim S100000x256 ![] bcast_S_S100000x256 : (⟨S_, .f32⟩ : BufTy).Contents (Elt F) → (⟨S100000x256, .f32⟩ : BufTy).Contents (Elt F)),
    StableHlo.unary main_arg1 main_v70 (broadcastInDim S1000000x1 ![0] bcast_S1000000_S1000000x1_0 : (⟨S1000000, .i32⟩ : BufTy).Contents (Elt F) → (⟨S1000000x1, .i32⟩ : BufTy).Contents (Elt F)),
    StableHlo.ternary main_v69 main_v70 main_v68 main_v71 ((fun x i u => Host.scatterAdd scatter_S100000x256_S1000000x1_S1000000x256_1_0_0_1 x i u) : (⟨S100000x256, .f32⟩ : BufTy).Contents (Elt F) → (⟨S1000000x1, .i32⟩ : BufTy).Contents (Elt F) → (⟨S1000000x256, .f32⟩ : BufTy).Contents (Elt F) → (⟨S100000x256, .f32⟩ : BufTy).Contents (Elt F)),
    StableHlo.unary main_v11 main_v72 (broadcastInDim S100000x1 ![0] bcast_S100000_S100000x1_0 : (⟨S100000, .f32⟩ : BufTy).Contents (Elt F) → (⟨S100000x1, .f32⟩ : BufTy).Contents (Elt F)),
    StableHlo.unary main_v72 main_v73 (broadcastInDim S100000x256 ![0, 1] bcast_S100000x1_S100000x256_0_1 : (⟨S100000x1, .f32⟩ : BufTy).Contents (Elt F) → (⟨S100000x256, .f32⟩ : BufTy).Contents (Elt F)),
    StableHlo.binary main_v73 main_v71 main_v74 (mulf : (⟨S100000x256, .f32⟩ : BufTy).Contents (Elt F) → (⟨S100000x256, .f32⟩ : BufTy).Contents (Elt F) → (⟨S100000x256, .f32⟩ : BufTy).Contents (Elt F)),
    StableHlo.unary main_arg6 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S100000x256 ![0, 1] bcast_S1x256_S100000x256_0_1 : (⟨S1x256, .f32⟩ : BufTy).Contents (Elt F) → (⟨S100000x256, .f32⟩ : BufTy).Contents (Elt F)),
    StableHlo.binary main_v74 main_v76 main_v77 (addf : (⟨S100000x256, .f32⟩ : BufTy).Contents (Elt F) → (⟨S100000x256, .f32⟩ : BufTy).Contents (Elt F) → (⟨S100000x256, .f32⟩ : BufTy).Contents (Elt F)),
    TRef.nullary main_call3.cst (constant S_ .f32 0x00000000#32),
    TRef.unary main_call3.cst main_call3.v0 (broadcastInDim S100000x256 ![] bcast_S_S100000x256),
    TRef.binary (.of main_v77 : TRef sig ⟨S100000x256, .f32⟩) main_call3.v0 main_call3.v1 (cmpf .ogt),
    TRef.nullary main_call3.cst_0 (constant S_ .f32 0x00000000#32),
    TRef.unary main_call3.cst_0 main_call3.v2 (broadcastInDim S100000x256 ![] bcast_S_S100000x256),
    TRef.binary (.of main_v77 : TRef sig ⟨S100000x256, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x256 ![] bcast_S_S100000x256),
    TRef.ternary main_call3.v3 main_call3.call0.v1 (.of main_v77 : TRef sig ⟨S100000x256, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S100000x256 ![] bcast_S_S100000x256),
    TRef.binary main_call3.v6 main_call3.v5 main_call3.v7 mulf,
    TRef.ternary main_call3.v1 (.of main_v77 : TRef sig ⟨S100000x256, .f32⟩) main_call3.v7 main_call3.call1.v0 select,
    StableHlo.binary main_v78 main_arg7 main_v79 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    StableHlo.nullary main_c_19 (constantI S_ 32 0#32),
    StableHlo.unary main_c_19 main_v80 (broadcastInDim S1000000 ![] bcast_S_S1000000 : (⟨S_, .i32⟩ : BufTy).Contents (Elt F) → (⟨S1000000, .i32⟩ : BufTy).Contents (Elt F)),
    StableHlo.binary main_arg1 main_v80 main_v81 (cmpi .slt : (⟨S1000000, .i32⟩ : BufTy).Contents (Elt F) → (⟨S1000000, .i32⟩ : BufTy).Contents (Elt F) → (⟨S1000000, .i1⟩ : BufTy).Contents (Elt F)),
    StableHlo.nullary main_c_20 (constantI S_ 32 100000#32),
    StableHlo.unary main_c_20 main_v82 (broadcastInDim S1000000 ![] bcast_S_S1000000 : (⟨S_, .i32⟩ : BufTy).Contents (Elt F) → (⟨S1000000, .i32⟩ : BufTy).Contents (Elt F)),
    StableHlo.binary main_arg1 main_v82 main_v83 (addi : (⟨S1000000, .i32⟩ : BufTy).Contents (Elt F) → (⟨S1000000, .i32⟩ : BufTy).Contents (Elt F) → (⟨S1000000, .i32⟩ : BufTy).Contents (Elt F)),
    StableHlo.ternary main_v81 main_v83 main_arg1 main_v84 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v84 main_v85 (broadcastInDim S1000000x1 ![0] bcast_S1000000_S1000000x1_0 : (⟨S1000000, .i32⟩ : BufTy).Contents (Elt F) → (⟨S1000000x1, .i32⟩ : BufTy).Contents (Elt F)),
    StableHlo.binary main_v79 main_v85 main_v86 ((fun x i => Host.gather gather_S100000x40_S1000000x1_S1000000x40_1_0_n_n_0_1_140 x i) : (⟨S100000x40, .f32⟩ : BufTy).Contents (Elt F) → (⟨S1000000x1, .i32⟩ : BufTy).Contents (Elt F) → (⟨S1000000x40, .f32⟩ : BufTy).Contents (Elt F)),
    StableHlo.nullary main_cst_21 (constant S_ .f32 0x00000000#32),
    StableHlo.unary main_cst_21 main_v87 (broadcastInDim S20000x40 ![] bcast_S_S20000x40 : (⟨S_, .f32⟩ : BufTy).Contents (Elt F) → (⟨S20000x40, .f32⟩ : BufTy).Contents (Elt F)),
    StableHlo.unary main_arg2 main_v88 (broadcastInDim S1000000x1 ![0] bcast_S1000000_S1000000x1_0 : (⟨S1000000, .i32⟩ : BufTy).Contents (Elt F) → (⟨S1000000x1, .i32⟩ : BufTy).Contents (Elt F)),
    StableHlo.ternary main_v87 main_v88 main_v86 main_v89 ((fun x i u => Host.scatterAdd scatter_S20000x40_S1000000x1_S1000000x40_1_0_0_1 x i u) : (⟨S20000x40, .f32⟩ : BufTy).Contents (Elt F) → (⟨S1000000x1, .i32⟩ : BufTy).Contents (Elt F) → (⟨S1000000x40, .f32⟩ : BufTy).Contents (Elt F) → (⟨S20000x40, .f32⟩ : BufTy).Contents (Elt F)),
    StableHlo.unary main_v16 main_v90 (broadcastInDim S20000x1 ![0] bcast_S20000_S20000x1_0 : (⟨S20000, .f32⟩ : BufTy).Contents (Elt F) → (⟨S20000x1, .f32⟩ : BufTy).Contents (Elt F)),
    StableHlo.unary main_v90 main_v91 (broadcastInDim S20000x40 ![0, 1] bcast_S20000x1_S20000x40_0_1 : (⟨S20000x1, .f32⟩ : BufTy).Contents (Elt F) → (⟨S20000x40, .f32⟩ : BufTy).Contents (Elt F)),
    StableHlo.binary main_v91 main_v89 main_v92 (mulf : (⟨S20000x40, .f32⟩ : BufTy).Contents (Elt F) → (⟨S20000x40, .f32⟩ : BufTy).Contents (Elt F) → (⟨S20000x40, .f32⟩ : BufTy).Contents (Elt F)),
    StableHlo.nullary main_c_22 (constantI S_ 32 0#32),
    StableHlo.unary main_c_22 main_v93 (broadcastInDim S1000000 ![] bcast_S_S1000000 : (⟨S_, .i32⟩ : BufTy).Contents (Elt F) → (⟨S1000000, .i32⟩ : BufTy).Contents (Elt F)),
    StableHlo.binary main_arg2 main_v93 main_v94 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 20000#32),
    StableHlo.unary main_c_23 main_v95 (broadcastInDim S1000000 ![] bcast_S_S1000000 : (⟨S_, .i32⟩ : BufTy).Contents (Elt F) → (⟨S1000000, .i32⟩ : BufTy).Contents (Elt F)),
    StableHlo.binary main_arg2 main_v95 main_v96 (addi : (⟨S1000000, .i32⟩ : BufTy).Contents (Elt F) → (⟨S1000000, .i32⟩ : BufTy).Contents (Elt F) → (⟨S1000000, .i32⟩ : BufTy).Contents (Elt F)),
    StableHlo.ternary main_v94 main_v96 main_arg2 main_v97 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v97 main_v98 (broadcastInDim S1000000x1 ![0] bcast_S1000000_S1000000x1_0 : (⟨S1000000, .i32⟩ : BufTy).Contents (Elt F) → (⟨S1000000x1, .i32⟩ : BufTy).Contents (Elt F)),
    StableHlo.binary main_v92 main_v98 main_v99 ((fun x i => Host.gather gather_S20000x40_S1000000x1_S1000000x40_1_0_n_n_0_1_140 x i) : (⟨S20000x40, .f32⟩ : BufTy).Contents (Elt F) → (⟨S1000000x1, .i32⟩ : BufTy).Contents (Elt F) → (⟨S1000000x40, .f32⟩ : BufTy).Contents (Elt F)),
    StableHlo.nullary main_cst_24 (constant S_ .f32 0x00000000#32),
    StableHlo.unary main_cst_24 main_v100 (broadcastInDim S100000x40 ![] bcast_S_S100000x40 : (⟨S_, .f32⟩ : BufTy).Contents (Elt F) → (⟨S100000x40, .f32⟩ : BufTy).Contents (Elt F)),
    StableHlo.unary main_arg1 main_v101 (broadcastInDim S1000000x1 ![0] bcast_S1000000_S1000000x1_0 : (⟨S1000000, .i32⟩ : BufTy).Contents (Elt F) → (⟨S1000000x1, .i32⟩ : BufTy).Contents (Elt F)),
    StableHlo.ternary main_v100 main_v101 main_v99 main_v102 ((fun x i u => Host.scatterAdd scatter_S100000x40_S1000000x1_S1000000x40_1_0_0_1 x i u) : (⟨S100000x40, .f32⟩ : BufTy).Contents (Elt F) → (⟨S1000000x1, .i32⟩ : BufTy).Contents (Elt F) → (⟨S1000000x40, .f32⟩ : BufTy).Contents (Elt F) → (⟨S100000x40, .f32⟩ : BufTy).Contents (Elt F)),
    StableHlo.unary main_v11 main_v103 (broadcastInDim S100000x1 ![0] bcast_S100000_S100000x1_0 : (⟨S100000, .f32⟩ : BufTy).Contents (Elt F) → (⟨S100000x1, .f32⟩ : BufTy).Contents (Elt F)),
    StableHlo.unary main_v103 main_v104 (broadcastInDim S100000x40 ![0, 1] bcast_S100000x1_S100000x40_0_1 : (⟨S100000x1, .f32⟩ : BufTy).Contents (Elt F) → (⟨S100000x40, .f32⟩ : BufTy).Contents (Elt F)),
    StableHlo.binary main_v104 main_v102 main_v105 (mulf : (⟨S100000x40, .f32⟩ : BufTy).Contents (Elt F) → (⟨S100000x40, .f32⟩ : BufTy).Contents (Elt F) → (⟨S100000x40, .f32⟩ : BufTy).Contents (Elt F)),
    StableHlo.unary main_arg8 main_v106 (broadcastInDim S1x40 ![1] bcast_S40_S1x40_1 : (⟨S40, .f32⟩ : BufTy).Contents (Elt F) → (⟨S1x40, .f32⟩ : BufTy).Contents (Elt F)),
    StableHlo.unary main_v106 main_v107 (broadcastInDim S100000x40 ![0, 1] bcast_S1x40_S100000x40_0_1 : (⟨S1x40, .f32⟩ : BufTy).Contents (Elt F) → (⟨S100000x40, .f32⟩ : BufTy).Contents (Elt F)),
    StableHlo.binary main_v105 main_v107 main_v108 (addf : (⟨S100000x40, .f32⟩ : BufTy).Contents (Elt F) → (⟨S100000x40, .f32⟩ : BufTy).Contents (Elt F) → (⟨S100000x40, .f32⟩ : BufTy).Contents (Elt F)) ]

/-- The buffer each operation writes, in order. -/
abbrev dsts : List (Ref sig .tc) :=
  [ main_cst, main_v0, main_cst_0, main_v1, main_v2, main_v3, main_cst_1, main_v4,
    main_v5, main_v6, main_cst_2, main_v7, main_v8, main_cst_3, main_v9, main_v10,
    main_cst_4, main_call0_v0, main_call0_v1, main_v11, main_cst_5, main_v12, main_v13, main_cst_6,
    main_v14, main_v15, main_cst_7, main_call1_v0, main_call1_v1, main_v16, main_v17, main_c,
    main_v18, main_v19, main_c_8, main_v20, main_v21, main_v22, main_v23, main_v24,
    main_cst_9, main_v25, main_v26, main_v27, main_v28, main_v29, main_v30, main_c_10,
    main_v31, main_v32, main_c_11, main_v33, main_v34, main_v35, main_v36, main_v37,
    main_cst_12, main_v38, main_v39, main_v40, main_v41, main_v42, main_v43, main_v44,
    main_v45, main_v46, main_call2_cst, main_call2_v0, main_call2_v1, main_call2_cst_0, main_call2_v2, main_call2_v3,
    main_call2_cst_1, main_call2_call0_v0, main_call2_call0_v1, main_call2_v4, main_call2_v5, main_call2_cst_2, main_call2_v6, main_call2_v7,
    main_v47, main_v48, main_c_13, main_v49, main_v50, main_c_14, main_v51, main_v52,
    main_v53, main_v54, main_v55, main_cst_15, main_v56, main_v57, main_v58, main_v59,
    main_v60, main_v61, main_c_16, main_v62, main_v63, main_c_17, main_v64, main_v65,
    main_v66, main_v67, main_v68, main_cst_18, main_v69, main_v70, main_v71, main_v72,
    main_v73, main_v74, main_v75, main_v76, main_v77, main_call3_cst, main_call3_v0, main_call3_v1,
    main_call3_cst_0, main_call3_v2, main_call3_v3, main_call3_cst_1, main_call3_call0_v0, main_call3_call0_v1, main_call3_v4, main_call3_v5,
    main_call3_cst_2, main_call3_v6, main_call3_v7, main_v78, main_v79, main_c_19, main_v80, main_v81,
    main_c_20, main_v82, main_v83, main_v84, main_v85, main_v86, main_cst_21, main_v87,
    main_v88, main_v89, main_v90, main_v91, main_v92, main_c_22, main_v93, main_v94,
    main_c_23, main_v95, main_v96, main_v97, main_v98, main_v99, main_cst_24, main_v100,
    main_v101, main_v102, main_v103, main_v104, main_v105, main_v106, main_v107, main_v108 ]

set_option maxRecDepth 65536 in
set_option maxHeartbeats 4000000 in
/-- @main is that straight line: the three windows and the functions' definitions unfolded at their calls, both sides
    are one chain of `hlo` steps once sequencing is reassociated. -/
theorem main_eq (c : Dev nD) : main (F := F) c = seq ops := by
  simp only [main, main_part0, main_part1, main_part2, fn_elu.body, fn_where.body, fn_where_0.body, fn_where_1.body,
    fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..⟩

/-- Operation by operation, the line writes the buffer `dsts` lists. -/
theorem writesAre : StableHlo.WritesAre (ops (F := F)) dsts := by
  unfold StableHlo.WritesAre
  repeat first | exact List.Forall₂.nil | refine List.Forall₂.cons (Finset.Subset.refl _) ?_

/-- On every device, for any float values, from any memory with zero counters: every weakly fair execution of @main
    terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStagesA.lean ====
/-
  The reference line read one operation at a time, at the extended reals: after the whole line, the buffer an operation
  writes holds that operation's function of what its operands' buffers hold after the whole line (the line is in
  single-assignment form), and an argument's buffer holds what it held.
-/
import proofs.«178120_j2594160246969_1_alg».proof.Proof.RefRun
import Idealize.ShloMosaic.PureOps.Ideal

noncomputable section

namespace Cert.ReferenceIdeal.HandRead

open Cert.ReferenceIdeal Cert.ReferenceIdeal.Gen Idealize.ShloMosaic Idealize.ShloMosaic.TcCoe Idealize.SL.Sem Idealize.ShloMosaic.StableHlo
open Cert.ReferenceIdeal.HandRun

local notation "R" => after (HandRun.ops (F := Ideal))

theorem st_main_cst (V : Valuation τ sig (Elt Ideal)) :
    R V (Proc.devRef .tc main_cst) = (constant (F := Ideal) S_ .f32 0x3F800000#32 : FVec Ideal S_ .f32) :=
  read_nullary writesAre 0 V rfl (by decide)

theorem st_main_v0 (V : Valuation τ sig (Elt Ideal)) :
    R V (Proc.devRef .tc main_v0) = (broadcastInDim S1000000 ![] bcast_S_S1000000 : (FVec Ideal S_ .f32) → (FVec Ideal S1000000 .f32)) (R V (Proc.devRef .tc main_cst)) :=
  read_unary writesAre 1 V rfl (by decide) (by decide)

theorem st_main_cst_0 (V : Valuation τ sig (Elt Ideal)) :
    R V (Proc.devRef .tc main_cst_0) = (constant (F := Ideal) S_ .f32 0x00000000#32 : FVec Ideal S_ .f32) :=
  read_nullary writesAre 2 V rfl (by decide)

theorem st_main_v1 (V : Valuation τ sig (Elt Ideal)) :
    R V (Proc.devRef .tc main_v1) = (broadcastInDim S100000 ![] bcast_S_S100000 : (FVec Ideal S_ .f32) → (FVec Ideal S100000 .f32)) (R V (Proc.devRef .tc main_cst_0)) :=
  read_unary writesAre 3 V rfl (by decide) (by decide)

theorem st_main_v2 (V : Valuation τ sig (Elt Ideal)) :
    R V (Proc.devRef .tc main_v2) = (broadcastInDim S1000000x1 ![0] bcast_S1000000_S1000000x1_0 : (IVec S1000000 32) → (IVec S1000000x1 32)) (R V (Proc.devRef .tc main_arg1)) :=
  read_unary writesAre 4 V rfl (by decide) (by decide)

theorem st_main_v3 (V : Valuation τ sig (Elt Ideal)) :
    R V (Proc.devRef .tc main_v3) = ((fun x i u => Host.scatterAdd (F := Ideal) scatter_S100000_S1000000x1_S1000000_n_0_0_1 x i u) : (FVec Ideal S100000 .f32) → (IVec S1000000x1 32) → (FVec Ideal S1000000 .f32) → (FVec Ideal S100000 .f32)) (R V (Proc.devRef .tc main_v1)) (R V (Proc.devRef .tc main_v2)) (R V (Proc.devRef .tc main_v0)) :=
  read_ternary writesAre 5 V rfl (by decide) (by decide) (by decide) (by decide)

theorem st_main_cst_1 (V : Valuation τ sig (Elt Ideal)) :
    R V (Proc.devRef .tc main_cst_1) = (constant (F := Ideal) S_ .f32 0x00000000#32 : FVec Ideal S_ .f32) :=
  read_nullary writesAre 6 V rfl (by decide)

theorem st_main_v4 (V : Valuation τ sig (Elt Ideal)) :
    R V (Proc.devRef .tc main_v4) = (broadcastInDim S20000 ![] bcast_S_S20000 : (FVec Ideal S_ .f32) → (FVec Ideal S20000 .f32)) (R V (Proc.devRef .tc main_cst_1)) :=
  read_unary writesAre 7 V rfl (by decide) (by decide)

theorem st_main_v5 (V : Valuation τ sig (Elt Ideal)) :
    R V (Proc.devRef .tc main_v5) = (broadcastInDim S1000000x1 ![0] bcast_S1000000_S1000000x1_0 : (IVec S1000000 32) → (IVec S1000000x1 32)) (R V (Proc.devRef .tc main_arg2)) :=
  read_unary writesAre 8 V rfl (by decide) (by decide)

theorem st_main_v6 (V : Valuation τ sig (Elt Ideal)) :
    R V (Proc.devRef .tc main_v6) = ((fun x i u => Host.scatterAdd (F := Ideal) scatter_S20000_S1000000x1_S1000000_n_0_0_1 x i u) : (FVec Ideal S20000 .f32) → (IVec S1000000x1 32) → (FVec Ideal S1000000 .f32) → (FVec Ideal S20000 .f32)) (R V (Proc.devRef .tc main_v4)) (R V (Proc.devRef .tc main_v5)) (R V (Proc.devRef .tc main_v0)) :=
  read_ternary writesAre 9 V rfl (by decide) (by decide) (by decide) (by decide)

theorem st_main_cst_2 (V : Valuation τ sig (Elt Ideal)) :
    R V (Proc.devRef .tc main_cst_2) = (constant (F := Ideal) S_ .f32 0x00000000#32 : FVec Ideal S_ .f32) :=
  read_nullary writesAre 10 V rfl (by decide)

theorem st_main_v7 (V : Valuation τ sig (Elt Ideal)) :
    R V (Proc.devRef .tc main_v7) = (broadcastInDim S100000 ![] bcast_S_S100000 : (FVec Ideal S_ .f32) → (FVec Ideal S100000 .f32)) (R V (Proc.devRef .tc main_cst_2)) :=
  read_unary writesAre 11 V rfl (by decide) (by decide)

theorem st_main_v8 (V : Valuation τ sig (Elt Ideal)) :
    R V (Proc.devRef .tc main_v8) = (cmpf (F := Ideal) .ogt : (FVec Ideal S100000 .f32) → (FVec Ideal S100000 .f32) → (IVec S100000 1)) (R V (Proc.devRef .tc main_v3)) (R V (Proc.devRef .tc main_v7)) :=
  read_binary writesAre 12 V rfl (by decide) (by decide) (by decide)

theorem st_main_cst_3 (V : Valuation τ sig (Elt Ideal)) :
    R V (Proc.devRef .tc main_cst_3) = (constant (F := Ideal) S_ .f32 0x3F800000#32 : FVec Ideal S_ .f32) :=
  read_nullary writesAre 13 V rfl (by decide)

theorem st_main_v9 (V : Valuation τ sig (Elt Ideal)) :
    R V (Proc.devRef .tc main_v9) = (broadcastInDim S100000 ![] bcast_S_S100000 : (FVec Ideal S_ .f32) → (FVec Ideal S100000 .f32)) (R V (Proc.devRef .tc main_cst_3)) :=
  read_unary writesAre 14 V rfl (by decide) (by decide)

theorem st_main_v10 (V : Valuation τ sig (Elt Ideal)) :
    R V (Proc.devRef .tc main_v10) = (Host.divf (F := Ideal) : (FVec Ideal S100000 .f32) → (FVec Ideal S100000 .f32) → (FVec Ideal S100000 .f32)) (R V (Proc.devRef .tc main_v9)) (R V (Proc.devRef .tc main_v3)) :=
  read_binary writesAre 15 V rfl (by decide) (by decide) (by decide)

theorem st_main_cst_4 (V : Valuation τ sig (Elt Ideal)) :
    R V (Proc.devRef .tc main_cst_4) = (constant (F := Ideal) S_ .f32 0x00000000#32 : FVec Ideal S_ .f32) :=
  read_nullary writesAre 16 V rfl (by decide)

theorem st_main_call0_v0 (V : Valuation τ sig (Elt Ideal)) :
    R V (Proc.devRef .tc main_call0_v0) = (id : FVec Ideal S_ .f32 → FVec Ideal S_ .f32) (R V (Proc.devRef .tc main_cst_4)) :=
  read_unary writesAre 17 V rfl (by decide) (by decide)

theorem st_main_call0_v1 (V : Valuation τ sig (Elt Ideal)) :
    R V (Proc.devRef .tc main_call0_v1) = (broadcastInDim S100000 ![] bcast_S_S100000 : FVec Ideal S_ .f32 → FVec Ideal S100000 .f32) (R V (Proc.devRef .tc main_call0_v0)) :=
  read_unary writesAre 18 V rfl (by decide) (by decide)

theorem st_main_v11 (V : Valuation τ sig (Elt Ideal)) :
    R V (Proc.devRef .tc main_v11) = (select : IVec S100000 1 → FVec Ideal S100000 .f32 → FVec Ideal S100000 .f32 → FVec Ideal S100000 .f32) (R V (Proc.devRef .tc main_v8)) (R V (Proc.devRef .tc main_v10)) (R V (Proc.devRef .tc main_call0_v1)) :=
  read_ternary writesAre 19 V rfl (by decide) (by decide) (by decide) (by decide)

theorem st_main_cst_5 (V : Valuation τ sig (Elt Ideal)) :
    R V (Proc.devRef .tc main_cst_5) = (constant (F := Ideal) S_ .f32 0x00000000#32 : FVec Ideal S_ .f32) :=
  read_nullary writesAre 20 V rfl (by decide)

theorem st_main_v12 (V : Valuation τ sig (Elt Ideal)) :
    R V (Proc.devRef .tc main_v12) = (broadcastInDim S20000 ![] bcast_S_S20000 : (FVec Ideal S_ .f32) → (FVec Ideal S20000 .f32)) (R V (Proc.devRef .tc main_cst_5)) :=
  read_unary writesAre 21 V rfl (by decide) (by decide)

theorem st_main_v13 (V : Valuation τ sig (Elt Ideal)) :
    R V (Proc.devRef .tc main_v13) = (cmpf (F := Ideal) .ogt : (FVec Ideal S20000 .f32) → (FVec Ideal S20000 .f32) → (IVec S20000 1)) (R V (Proc.devRef .tc main_v6)) (R V (Proc.devRef .tc main_v12)) :=
  read_binary writesAre 22 V rfl (by decide) (by decide) (by decide)

theorem st_main_cst_6 (V : Valuation τ sig (Elt Ideal)) :
    R V (Proc.devRef .tc main_cst_6) = (constant (F := Ideal) S_ .f32 0x3F800000#32 : FVec Ideal S_ .f32) :=
  read_nullary writesAre 23 V rfl (by decide)

theorem st_main_v14 (V : Valuation τ sig (Elt Ideal)) :
    R V (Proc.devRef .tc main_v14) = (broadcastInDim S20000 ![] bcast_S_S20000 : (FVec Ideal S_ .f32) → (FVec Ideal S20000 .f32)) (R V (Proc.devRef .tc main_cst_6)) :=
  read_unary writesAre 24 V rfl (by decide) (by decide)

theorem st_main_v15 (V : Valuation τ sig (Elt Ideal)) :
    R V (Proc.devRef .tc main_v15) = (Host.divf (F := Ideal) : (FVec Ideal S20000 .f32) → (FVec Ideal S20000 .f32) → (FVec Ideal S20000 .f32)) (R V (Proc.devRef .tc main_v14)) (R V (Proc.devRef .tc main_v6)) :=
  read_binary writesAre 25 V rfl (by decide) (by decide) (by decide)

theorem st_main_cst_7 (V : Valuation τ sig (Elt Ideal)) :
    R V (Proc.devRef .tc main_cst_7) = (constant (F := Ideal) S_ .f32 0x00000000#32 : FVec Ideal S_ .f32) :=
  read_nullary writesAre 26 V rfl (by decide)

theorem st_main_call1_v0 (V : Valuation τ sig (Elt Ideal)) :
    R V (Proc.devRef .tc main_call1_v0) = (id : FVec Ideal S_ .f32 → FVec Ideal S_ .f32) (R V (Proc.devRef .tc main_cst_7)) :=
  read_unary writesAre 27 V rfl (by decide) (by decide)

theorem st_main_call1_v1 (V : Valuation τ sig (Elt Ideal)) :
    R V (Proc.devRef .tc main_call1_v1) = (broadcastInDim S20000 ![] bcast_S_S20000 : FVec Ideal S_ .f32 → FVec Ideal S20000 .f32) (R V (Proc.devRef .tc main_call1_v0)) :=
  read_unary writesAre 28 V rfl (by decide) (by decide)

theorem st_main_v16 (V : Valuation τ sig (Elt Ideal)) :
    R V (Proc.devRef .tc main_v16) = (select : IVec S20000 1 → FVec Ideal S20000 .f32 → FVec Ideal S20000 .f32 → FVec Ideal S20000 .f32) (R V (Proc.devRef .tc main_v13)) (R V (Proc.devRef .tc main_v15)) (R V (Proc.devRef .tc main_call1_v1)) :=
  read_ternary writesAre 29 V rfl (by decide) (by decide) (by decide) (by decide)

theorem st_main_v17 (V : Valuation τ sig (Elt Ideal)) :
    R V (Proc.devRef .tc main_v17) = ((fun l r => Host.dotGeneral (F := Ideal) dot_S100000x128_S128x256_S100000x256_1_0_0_1_n_n none l r) : (FVec Ideal S100000x128 .f32) → (FVec Ideal S128x256 .f32) → (FVec Ideal S100000x256 .f32)) (R V (Proc.devRef .tc main_arg0)) (R V (Proc.devRef .tc main_arg3)) :=
  read_binary writesAre 30 V rfl (by decide) (by decide) (by decide)

theorem st_main_c (V : Valuation τ sig (Elt Ideal)) :
    R V (Proc.devRef .tc main_c) = (constantI S_ 32 0#32 : IVec S_ 32) :=
  read_nullary writesAre 31 V rfl (by decide)

theorem st_main_v18 (V : Valuation τ sig (Elt Ideal)) :
    R V (Proc.devRef .tc main_v18) = (broadcastInDim S1000000 ![] bcast_S_S1000000 : (IVec S_ 32) → (IVec S1000000 32)) (R V (Proc.devRef .tc main_c)) :=
  read_unary writesAre 32 V rfl (by decide) (by decide)

theorem st_main_v19 (V : Valuation τ sig (Elt Ideal)) :
    R V (Proc.devRef .tc main_v19) = (cmpi .slt : (IVec S1000000 32) → (IVec S1000000 32) → (IVec S1000000 1)) (R V (Proc.devRef .tc main_arg1)) (R V (Proc.devRef .tc main_v18)) :=
  read_binary writesAre 33 V rfl (by decide) (by decide) (by decide)

theorem st_main_c_8 (V : Valuation τ sig (Elt Ideal)) :
    R V (Proc.devRef .tc main_c_8) = (constantI S_ 32 100000#32 : IVec S_ 32) :=
  read_nullary writesAre 34 V rfl (by decide)

theorem st_main_v20 (V : Valuation τ sig (Elt Ideal)) :
    R V (Proc.devRef .tc main_v20) = (broadcastInDim S1000000 ![] bcast_S_S1000000 : (IVec S_ 32) → (IVec S1000000 32)) (R V (Proc.devRef .tc main_c_8)) :=
  read_unary writesAre 35 V rfl (by decide) (by decide)

theorem st_main_v21 (V : Valuation τ sig (Elt Ideal)) :
    R V (Proc.devRef .tc main_v21) = (addi : (IVec S1000000 32) → (IVec S1000000 32) → (IVec S1000000 32)) (R V (Proc.devRef .tc main_arg1)) (R V (Proc.devRef .tc main_v20)) :=
  read_binary writesAre 36 V rfl (by decide) (by decide) (by decide)

theorem st_main_v22 (V : Valuation τ sig (Elt Ideal)) :
    R V (Proc.devRef .tc main_v22) = (select : (IVec S1000000 1) → (IVec S1000000 32) → (IVec S1000000 32) → (IVec S1000000 32)) (R V (Proc.devRef .tc main_v19)) (R V (Proc.devRef .tc main_v21)) (R V (Proc.devRef .tc main_arg1)) :=
  read_ternary writesAre 37 V rfl (by decide) (by decide) (by decide) (by decide)

theorem st_main_v23 (V : Valuation τ sig (Elt Ideal)) :
    R V (Proc.devRef .tc main_v23) = (broadcastInDim S1000000x1 ![0] bcast_S1000000_S1000000x1_0 : (IVec S1000000 32) → (IVec S1000000x1 32)) (R V (Proc.devRef .tc main_v22)) :=
  read_unary writesAre 38 V rfl (by decide) (by decide)

theorem st_main_v24 (V : Valuation τ sig (Elt Ideal)) :
    R V (Proc.devRef .tc main_v24) = ((fun x i => Host.gather gather_S100000x256_S1000000x1_S1000000x256_1_0_n_n_0_1_1256 x i) : (FVec Ideal S100000x256 .f32) → (IVec S1000000x1 32) → (FVec Ideal S1000000x256 .f32)) (R V (Proc.devRef .tc main_v17)) (R V (Proc.devRef .tc main_v23)) :=
  read_binary writesAre 39 V rfl (by decide) (by decide) (by decide)

theorem st_main_cst_9 (V : Valuation τ sig (Elt Ideal)) :
    R V (Proc.devRef .tc main_cst_9) = (constant (F := Ideal) S_ .f32 0x00000000#32 : FVec Ideal S_ .f32) :=
  read_nullary writesAre 40 V rfl (by decide)

theorem st_main_v25 (V : Valuation τ sig (Elt Ideal)) :
    R V (Proc.devRef .tc main_v25) = (broadcastInDim S20000x256 ![] bcast_S_S20000x256 : (FVec Ideal S_ .f32) → (FVec Ideal S20000x256 .f32)) (R V (Proc.devRef .tc main_cst_9)) :=
  read_unary writesAre 41 V rfl (by decide) (by decide)

theorem st_main_v26 (V : Valuation τ sig (Elt Ideal)) :
    R V (Proc.devRef .tc main_v26) = (broadcastInDim S1000000x1 ![0] bcast_S1000000_S1000000x1_0 : (IVec S1000000 32) → (IVec S1000000x1 32)) (R V (Proc.devRef .tc main_arg2)) :=
  read_unary writesAre 42 V rfl (by decide) (by decide)

theorem st_main_v27 (V : Valuation τ sig (Elt Ideal)) :
    R V (Proc.devRef .tc main_v27) = ((fun x i u => Host.scatterAdd (F := Ideal) scatter_S20000x256_S1000000x1_S1000000x256_1_0_0_1 x i u) : (FVec Ideal S20000x256 .f32) → (IVec S1000000x1 32) → (FVec Ideal S1000000x256 .f32) → (FVec Ideal S20000x256 .f32)) (R V (Proc.devRef .tc main_v25)) (R V (Proc.devRef .tc main_v26)) (R V (Proc.devRef .tc main_v24)) :=
  read_ternary writesAre 43 V rfl (by decide) (by decide) (by decide) (by decide)

theorem st_main_v28 (V : Valuation τ sig (Elt Ideal)) :
    R V (Proc.devRef .tc main_v28) = (broadcastInDim S20000x1 ![0] bcast_S20000_S20000x1_0 : (FVec Ideal S20000 .f32) → (FVec Ideal S20000x1 .f32)) (R V (Proc.devRef .tc main_v16)) :=
  read_unary writesAre 44 V rfl (by decide) (by decide)

theorem st_main_v29 (V : Valuation τ sig (Elt Ideal)) :
    R V (Proc.devRef .tc main_v29) = (broadcastInDim S20000x256 ![0, 1] bcast_S20000x1_S20000x256_0_1 : (FVec Ideal S20000x1 .f32) → (FVec Ideal S20000x256 .f32)) (R V (Proc.devRef .tc main_v28)) :=
  read_unary writesAre 45 V rfl (by decide) (by decide)

theorem st_main_v30 (V : Valuation τ sig (Elt Ideal)) :
    R V (Proc.devRef .tc main_v30) = (mulf (F := Ideal) : (FVec Ideal S20000x256 .f32) → (FVec Ideal S20000x256 .f32) → (FVec Ideal S20000x256 .f32)) (R V (Proc.devRef .tc main_v29)) (R V (Proc.devRef .tc main_v27)) :=
  read_binary writesAre 46 V rfl (by decide) (by decide) (by decide)

theorem st_main_c_10 (V : Valuation τ sig (Elt Ideal)) :
    R V (Proc.devRef .tc main_c_10) = (constantI S_ 32 0#32 : IVec S_ 32) :=
  read_nullary writesAre 47 V rfl (by decide)

theorem st_main_v31 (V : Valuation τ sig (Elt Ideal)) :
    R V (Proc.devRef .tc main_v31) = (broadcastInDim S1000000 ![] bcast_S_S1000000 : (IVec S_ 32) → (IVec S1000000 32)) (R V (Proc.devRef .tc main_c_10)) :=
  read_unary writesAre 48 V rfl (by decide) (by decide)

theorem st_main_v32 (V : Valuation τ sig (Elt Ideal)) :
    R V (Proc.devRef .tc main_v32) = (cmpi .slt : (IVec S1000000 32) → (IVec S1000000 32) → (IVec S1000000 1)) (R V (Proc.devRef .tc main_arg2)) (R V (Proc.devRef .tc main_v31)) :=
  read_binary writesAre 49 V rfl (by decide) (by decide) (by decide)

theorem st_main_c_11 (V : Valuation τ sig (Elt Ideal)) :
    R V (Proc.devRef .tc main_c_11) = (constantI S_ 32 20000#32 : IVec S_ 32) :=
  read_nullary writesAre 50 V rfl (by decide)

theorem st_main_v33 (V : Valuation τ sig (Elt Ideal)) :
    R V (Proc.devRef .tc main_v33) = (broadcastInDim S1000000 ![] bcast_S_S1000000 : (IVec S_ 32) → (IVec S1000000 32)) (R V (Proc.devRef .tc main_c_11)) :=
  read_unary writesAre 51 V rfl (by decide) (by decide)

theorem st_main_v34 (V : Valuation τ sig (Elt Ideal)) :
    R V (Proc.devRef .tc main_v34) = (addi : (IVec S1000000 32) → (IVec S1000000 32) → (IVec S1000000 32)) (R V (Proc.devRef .tc main_arg2)) (R V (Proc.devRef .tc main_v33)) :=
  read_binary writesAre 52 V rfl (by decide) (by decide) (by decide)

theorem st_main_v35 (V : Valuation τ sig (Elt Ideal)) :
    R V (Proc.devRef .tc main_v35) = (select : (IVec S1000000 1) → (IVec S1000000 32) → (IVec S1000000 32) → (IVec S1000000 32)) (R V (Proc.devRef .tc main_v32)) (R V (Proc.devRef .tc main_v34)) (R V (Proc.devRef .tc main_arg2)) :=
  read_ternary writesAre 53 V rfl (by decide) (by decide) (by decide) (by decide)

theorem st_main_v36 (V : Valuation τ sig (Elt Ideal)) :
    R V (Proc.devRef .tc main_v36) = (broadcastInDim S1000000x1 ![0] bcast_S1000000_S1000000x1_0 : (IVec S1000000 32) → (IVec S1000000x1 32)) (R V (Proc.devRef .tc main_v35)) :=
  read_unary writesAre 54 V rfl (by decide) (by decide)

theorem st_main_v37 (V : Valuation τ sig (Elt Ideal)) :
    R V (Proc.devRef .tc main_v37) = ((fun x i => Host.gather gather_S20000x256_S1000000x1_S1000000x256_1_0_n_n_0_1_1256 x i) : (FVec Ideal S20000x256 .f32) → (IVec S1000000x1 32) → (FVec Ideal S1000000x256 .f32)) (R V (Proc.devRef .tc main_v30)) (R V (Proc.devRef .tc main_v36)) :=
  read_binary writesAre 55 V rfl (by decide) (by decide) (by decide)

theorem st_main_cst_12 (V : Valuation τ sig (Elt Ideal)) :
    R V (Proc.devRef .tc main_cst_12) = (constant (F := Ideal) S_ .f32 0x00000000#32 : FVec Ideal S_ .f32) :=
  read_nullary writesAre 56 V rfl (by decide)

theorem st_main_v38 (V : Valuation τ sig (Elt Ideal)) :
    R V (Proc.devRef .tc main_v38) = (broadcastInDim S100000x256 ![] bcast_S_S100000x256 : (FVec Ideal S_ .f32) → (FVec Ideal S100000x256 .f32)) (R V (Proc.devRef .tc main_cst_12)) :=
  read_unary writesAre 57 V rfl (by decide) (by decide)

theorem st_main_v39 (V : Valuation τ sig (Elt Ideal)) :
    R V (Proc.devRef .tc main_v39) = (broadcastInDim S1000000x1 ![0] bcast_S1000000_S1000000x1_0 : (IVec S1000000 32) → (IVec S1000000x1 32)) (R V (Proc.devRef .tc main_arg1)) :=
  read_unary writesAre 58 V rfl (by decide) (by decide)

theorem st_main_v40 (V : Valuation τ sig (Elt Ideal)) :
    R V (Proc.devRef .tc main_v40) = ((fun x i u => Host.scatterAdd (F := Ideal) scatter_S100000x256_S1000000x1_S1000000x256_1_0_0_1 x i u) : (FVec Ideal S100000x256 .f32) → (IVec S1000000x1 32) → (FVec Ideal S1000000x256 .f32) → (FVec Ideal S100000x256 .f32)) (R V (Proc.devRef .tc main_v38)) (R V (Proc.devRef .tc main_v39)) (R V (Proc.devRef .tc main_v37)) :=
  read_ternary writesAre 59 V rfl (by decide) (by decide) (by decide) (by decide)

theorem st_main_v41 (V : Valuation τ sig (Elt Ideal)) :
    R V (Proc.devRef .tc main_v41) = (broadcastInDim S100000x1 ![0] bcast_S100000_S100000x1_0 : (FVec Ideal S100000 .f32) → (FVec Ideal S100000x1 .f32)) (R V (Proc.devRef .tc main_v11)) :=
  read_unary writesAre 60 V rfl (by decide) (by decide)

theorem st_main_v42 (V : Valuation τ sig (Elt Ideal)) :
    R V (Proc.devRef .tc main_v42) = (broadcastInDim S100000x256 ![0, 1] bcast_S100000x1_S100000x256_0_1 : (FVec Ideal S100000x1 .f32) → (FVec Ideal S100000x256 .f32)) (R V (Proc.devRef .tc main_v41)) :=
  read_unary writesAre 61 V rfl (by decide) (by decide)

theorem st_main_v43 (V : Valuation τ sig (Elt Ideal)) :
    R V (Proc.devRef .tc main_v43) = (mulf (F := Ideal) : (FVec Ideal S100000x256 .f32) → (FVec Ideal S100000x256 .f32) → (FVec Ideal S100000x256 .f32)) (R V (Proc.devRef .tc main_v42)) (R V (Proc.devRef .tc main_v40)) :=
  read_binary writesAre 62 V rfl (by decide) (by decide) (by decide)

theorem st_main_v44 (V : Valuation τ sig (Elt Ideal)) :
    R V (Proc.devRef .tc main_v44) = (broadcastInDim S1x256 ![1] bcast_S256_S1x256_1 : (FVec Ideal S256 .f32) → (FVec Ideal S1x256 .f32)) (R V (Proc.devRef .tc main_arg4)) :=
  read_unary writesAre 63 V rfl (by decide) (by decide)

theorem st_main_v45 (V : Valuation τ sig (Elt Ideal)) :
    R V (Proc.devRef .tc main_v45) = (broadcastInDim S100000x256 ![0, 1] bcast_S1x256_S100000x256_0_1 : (FVec Ideal S1x256 .f32) → (FVec Ideal S100000x256 .f32)) (R V (Proc.devRef .tc main_v44)) :=
  read_unary writesAre 64 V rfl (by decide) (by decide)

theorem st_main_v46 (V : Valuation τ sig (Elt Ideal)) :
    R V (Proc.devRef .tc main_v46) = (addf (F := Ideal) : (FVec Ideal S100000x256 .f32) → (FVec Ideal S100000x256 .f32) → (FVec Ideal S100000x256 .f32)) (R V (Proc.devRef .tc main_v43)) (R V (Proc.devRef .tc main_v45)) :=
  read_binary writesAre 65 V rfl (by decide) (by decide) (by decide)

theorem st_main_call2_cst (V : Valuation τ sig (Elt Ideal)) :
    R V (Proc.devRef .tc main_call2_cst) = (constant (F := Ideal) S_ .f32 0x00000000#32 : FVec Ideal S_ .f32) :=
  read_nullary writesAre 66 V rfl (by decide)

theorem st_main_call2_v0 (V : Valuation τ sig (Elt Ideal)) :
    R V (Proc.devRef .tc main_call2_v0) = (broadcastInDim S100000x256 ![] bcast_S_S100000x256 : FVec Ideal S_ .f32 → FVec Ideal S100000x256 .f32) (R V (Proc.devRef .tc main_call2_cst)) :=
  read_unary writesAre 67 V rfl (by decide) (by decide)

theorem st_main_call2_v1 (V : Valuation τ sig (Elt Ideal)) :
    R V (Proc.devRef .tc main_call2_v1) = (cmpf (F := Ideal) .ogt : FVec Ideal S100000x256 .f32 → FVec Ideal S100000x256 .f32 → IVec S100000x256 1) (R V (Proc.devRef .tc main_v46)) (R V (Proc.devRef .tc main_call2_v0)) :=
  read_binary writesAre 68 V rfl (by decide) (by decide) (by decide)

theorem st_main_call2_cst_0 (V : Valuation τ sig (Elt Ideal)) :
    R V (Proc.devRef .tc main_call2_cst_0) = (constant (F := Ideal) S_ .f32 0x00000000#32 : FVec Ideal S_ .f32) :=
  read_nullary writesAre 69 V rfl (by decide)

theorem st_main_call2_v2 (V : Valuation τ sig (Elt Ideal)) :
    R V (Proc.devRef .tc main_call2_v2) = (broadcastInDim S100000x256 ![] bcast_S_S100000x256 : FVec Ideal S_ .f32 → FVec Ideal S100000x256 .f32) (R V (Proc.devRef .tc main_call2_cst_0)) :=
  read_unary writesAre 70 V rfl (by decide) (by decide)

theorem st_main_call2_v3 (V : Valuation τ sig (Elt Ideal)) :
    R V (Proc.devRef .tc main_call2_v3) = (cmpf (F := Ideal) .ogt : FVec Ideal S100000x256 .f32 → FVec Ideal S100000x256 .f32 → IVec S100000x256 1) (R V (Proc.devRef .tc main_v46)) (R V (Proc.devRef .tc main_call2_v2)) :=
  read_binary writesAre 71 V rfl (by decide) (by decide) (by decide)

theorem st_main_call2_cst_1 (V : Valuation τ sig (Elt Ideal)) :
    R V (Proc.devRef .tc main_call2_cst_1) = (constant (F := Ideal) S_ .f32 0x00000000#32 : FVec Ideal S_ .f32) :=
  read_nullary writesAre 72 V rfl (by decide)

theorem st_main_call2_call0_v0 (V : Valuation τ sig (Elt Ideal)) :
    R V (Proc.devRef .tc main_call2_call0_v0) = (id : FVec Ideal S_ .f32 → FVec Ideal S_ .f32) (R V (Proc.devRef .tc main_call2_cst_1)) :=
  read_unary writesAre 73 V rfl (by decide) (by decide)

theorem st_main_call2_call0_v1 (V : Valuation τ sig (Elt Ideal)) :
    R V (Proc.devRef .tc main_call2_call0_v1) = (broadcastInDim S100000x256 ![] bcast_S_S100000x256 : FVec Ideal S_ .f32 → FVec Ideal S100000x256 .f32) (R V (Proc.devRef .tc main_call2_call0_v0)) :=
  read_unary writesAre 74 V rfl (by decide) (by decide)

theorem st_main_call2_v4 (V : Valuation τ sig (Elt Ideal)) :
    R V (Proc.devRef .tc main_call2_v4) = (select : IVec S100000x256 1 → FVec Ideal S100000x256 .f32 → FVec Ideal S100000x256 .f32 → FVec Ideal S100000x256 .f32) (R V (Proc.devRef .tc main_call2_v3)) (R V (Proc.devRef .tc main_call2_call0_v1)) (R V (Proc.devRef .tc main_v46)) :=
  read_ternary writesAre 75 V rfl (by decide) (by decide) (by decide) (by decide)

theorem st_main_call2_v5 (V : Valuation τ sig (Elt Ideal)) :
    R V (Proc.devRef .tc main_call2_v5) = (Host.expm1 (F := Ideal) : FVec Ideal S100000x256 .f32 → FVec Ideal S100000x256 .f32) (R V (Proc.devRef .tc main_call2_v4)) :=
  read_unary writesAre 76 V rfl (by decide) (by decide)

theorem st_main_call2_cst_2 (V : Valuation τ sig (Elt Ideal)) :
    R V (Proc.devRef .tc main_call2_cst_2) = (constant (F := Ideal) S_ .f32 0x3F800000#32 : FVec Ideal S_ .f32) :=
  read_nullary writesAre 77 V rfl (by decide)

theorem st_main_call2_v6 (V : Valuation τ sig (Elt Ideal)) :
    R V (Proc.devRef .tc main_call2_v6) = (broadcastInDim S100000x256 ![] bcast_S_S100000x256 : FVec Ideal S_ .f32 → FVec Ideal S100000x256 .f32) (R V (Proc.devRef .tc main_call2_cst_2)) :=
  read_unary writesAre 78 V rfl (by decide) (by decide)

theorem st_main_call2_v7 (V : Valuation τ sig (Elt Ideal)) :
    R V (Proc.devRef .tc main_call2_v7) = (mulf (F := Ideal) : FVec Ideal S100000x256 .f32 → FVec Ideal S100000x256 .f32 → FVec Ideal S100000x256 .f32) (R V (Proc.devRef .tc main_call2_v6)) (R V (Proc.devRef .tc main_call2_v5)) :=
  read_binary writesAre 79 V rfl (by decide) (by decide) (by decide)

theorem st_main_v47 (V : Valuation τ sig (Elt Ideal)) :
    R V (Proc.devRef .tc main_v47) = (select : IVec S100000x256 1 → FVec Ideal S100000x256 .f32 → FVec Ideal S100000x256 .f32 → FVec Ideal S100000x256 .f32) (R V (Proc.devRef .tc main_call2_v1)) (R V (Proc.devRef .tc main_v46)) (R V (Proc.devRef .tc main_call2_v7)) :=
  read_ternary writesAre 80 V rfl (by decide) (by decide) (by decide) (by decide)

/-! The arguments' buffers are written by no operation. -/

theorem main_arg0_eq (V : Valuation τ sig (Elt Ideal)) :
    R V (Proc.devRef .tc main_arg0) = V (Proc.devRef .tc main_arg0) :=
  after_keep_from writesAre 0 (by decide) V

theorem main_arg1_eq (V : Valuation τ sig (Elt Ideal)) :
    R V (Proc.devRef .tc main_arg1) = V (Proc.devRef .tc main_arg1) :=
  after_keep_from writesAre 0 (by decide) V

theorem main_arg2_eq (V : Valuation τ sig (Elt Ideal)) :
    R V (Proc.devRef .tc main_arg2) = V (Proc.devRef .tc main_arg2) :=
  after_keep_from writesAre 0 (by decide) V

theorem main_arg3_eq (V : Valuation τ sig (Elt Ideal)) :
    R V (Proc.devRef .tc main_arg3) = V (Proc.devRef .tc main_arg3) :=
  after_keep_from writesAre 0 (by decide) V

theorem main_arg4_eq (V : Valuation τ sig (Elt Ideal)) :
    R V (Proc.devRef .tc main_arg4) = V (Proc.devRef .tc main_arg4) :=
  after_keep_from writesAre 0 (by decide) V

theorem main_arg5_eq (V : Valuation τ sig (Elt Ideal)) :
    R V (Proc.devRef .tc main_arg5) = V (Proc.devRef .tc main_arg5) :=
  after_keep_from writesAre 0 (by decide) V

theorem main_arg6_eq (V : Valuation τ sig (Elt Ideal)) :
    R V (Proc.devRef .tc main_arg6) = V (Proc.devRef .tc main_arg6) :=
  after_keep_from writesAre 0 (by decide) V

theorem main_arg7_eq (V : Valuation τ sig (Elt Ideal)) :
    R V (Proc.devRef .tc main_arg7) = V (Proc.devRef .tc main_arg7) :=
  after_keep_from writesAre 0 (by decide) V

theorem main_arg8_eq (V : Valuation τ sig (Elt Ideal)) :
    R V (Proc.devRef .tc main_arg8) = V (Proc.devRef .tc main_arg8) :=
  after_keep_from writesAre 0 (by decide) V

end Cert.ReferenceIdeal.HandRead

end
-- ==== Proof.RefStagesB.lean ====
/-
  The reference line read one operation at a time, at the extended reals: after the whole line, the buffer an operation
  writes holds that operation's function of what its operands' buffers hold after the whole line (the line is in
  single-assignment form), (second half of the line).
-/
import proofs.«178120_j2594160246969_1_alg».proof.Proof.RefRun
import Idealize.ShloMosaic.PureOps.Ideal

noncomputable section

namespace Cert.ReferenceIdeal.HandRead

open Cert.ReferenceIdeal Cert.ReferenceIdeal.Gen Idealize.ShloMosaic Idealize.ShloMosaic.TcCoe Idealize.SL.Sem Idealize.ShloMosaic.StableHlo
open Cert.ReferenceIdeal.HandRun

local notation "R" => after (HandRun.ops (F := Ideal))

theorem st_main_v48 (V : Valuation τ sig (Elt Ideal)) :
    R V (Proc.devRef .tc main_v48) = ((fun l r => Host.dotGeneral (F := Ideal) dot_S100000x256_S256x256_S100000x256_1_0_0_1_n_n none l r) : (FVec Ideal S100000x256 .f32) → (FVec Ideal S256x256 .f32) → (FVec Ideal S100000x256 .f32)) (R V (Proc.devRef .tc main_v47)) (R V (Proc.devRef .tc main_arg5)) :=
  read_binary writesAre 81 V rfl (by decide) (by decide) (by decide)

theorem st_main_c_13 (V : Valuation τ sig (Elt Ideal)) :
    R V (Proc.devRef .tc main_c_13) = (constantI S_ 32 0#32 : IVec S_ 32) :=
  read_nullary writesAre 82 V rfl (by decide)

theorem st_main_v49 (V : Valuation τ sig (Elt Ideal)) :
    R V (Proc.devRef .tc main_v49) = (broadcastInDim S1000000 ![] bcast_S_S1000000 : (IVec S_ 32) → (IVec S1000000 32)) (R V (Proc.devRef .tc main_c_13)) :=
  read_unary writesAre 83 V rfl (by decide) (by decide)

theorem st_main_v50 (V : Valuation τ sig (Elt Ideal)) :
    R V (Proc.devRef .tc main_v50) = (cmpi .slt : (IVec S1000000 32) → (IVec S1000000 32) → (IVec S1000000 1)) (R V (Proc.devRef .tc main_arg1)) (R V (Proc.devRef .tc main_v49)) :=
  read_binary writesAre 84 V rfl (by decide) (by decide) (by decide)

theorem st_main_c_14 (V : Valuation τ sig (Elt Ideal)) :
    R V (Proc.devRef .tc main_c_14) = (constantI S_ 32 100000#32 : IVec S_ 32) :=
  read_nullary writesAre 85 V rfl (by decide)

theorem st_main_v51 (V : Valuation τ sig (Elt Ideal)) :
    R V (Proc.devRef .tc main_v51) = (broadcastInDim S1000000 ![] bcast_S_S1000000 : (IVec S_ 32) → (IVec S1000000 32)) (R V (Proc.devRef .tc main_c_14)) :=
  read_unary writesAre 86 V rfl (by decide) (by decide)

theorem st_main_v52 (V : Valuation τ sig (Elt Ideal)) :
    R V (Proc.devRef .tc main_v52) = (addi : (IVec S1000000 32) → (IVec S1000000 32) → (IVec S1000000 32)) (R V (Proc.devRef .tc main_arg1)) (R V (Proc.devRef .tc main_v51)) :=
  read_binary writesAre 87 V rfl (by decide) (by decide) (by decide)

theorem st_main_v53 (V : Valuation τ sig (Elt Ideal)) :
    R V (Proc.devRef .tc main_v53) = (select : (IVec S1000000 1) → (IVec S1000000 32) → (IVec S1000000 32) → (IVec S1000000 32)) (R V (Proc.devRef .tc main_v50)) (R V (Proc.devRef .tc main_v52)) (R V (Proc.devRef .tc main_arg1)) :=
  read_ternary writesAre 88 V rfl (by decide) (by decide) (by decide) (by decide)

theorem st_main_v54 (V : Valuation τ sig (Elt Ideal)) :
    R V (Proc.devRef .tc main_v54) = (broadcastInDim S1000000x1 ![0] bcast_S1000000_S1000000x1_0 : (IVec S1000000 32) → (IVec S1000000x1 32)) (R V (Proc.devRef .tc main_v53)) :=
  read_unary writesAre 89 V rfl (by decide) (by decide)

theorem st_main_v55 (V : Valuation τ sig (Elt Ideal)) :
    R V (Proc.devRef .tc main_v55) = ((fun x i => Host.gather gather_S100000x256_S1000000x1_S1000000x256_1_0_n_n_0_1_1256 x i) : (FVec Ideal S100000x256 .f32) → (IVec S1000000x1 32) → (FVec Ideal S1000000x256 .f32)) (R V (Proc.devRef .tc main_v48)) (R V (Proc.devRef .tc main_v54)) :=
  read_binary writesAre 90 V rfl (by decide) (by decide) (by decide)

theorem st_main_cst_15 (V : Valuation τ sig (Elt Ideal)) :
    R V (Proc.devRef .tc main_cst_15) = (constant (F := Ideal) S_ .f32 0x00000000#32 : FVec Ideal S_ .f32) :=
  read_nullary writesAre 91 V rfl (by decide)

theorem st_main_v56 (V : Valuation τ sig (Elt Ideal)) :
    R V (Proc.devRef .tc main_v56) = (broadcastInDim S20000x256 ![] bcast_S_S20000x256 : (FVec Ideal S_ .f32) → (FVec Ideal S20000x256 .f32)) (R V (Proc.devRef .tc main_cst_15)) :=
  read_unary writesAre 92 V rfl (by decide) (by decide)

theorem st_main_v57 (V : Valuation τ sig (Elt Ideal)) :
    R V (Proc.devRef .tc main_v57) = (broadcastInDim S1000000x1 ![0] bcast_S1000000_S1000000x1_0 : (IVec S1000000 32) → (IVec S1000000x1 32)) (R V (Proc.devRef .tc main_arg2)) :=
  read_unary writesAre 93 V rfl (by decide) (by decide)

theorem st_main_v58 (V : Valuation τ sig (Elt Ideal)) :
    R V (Proc.devRef .tc main_v58) = ((fun x i u => Host.scatterAdd (F := Ideal) scatter_S20000x256_S1000000x1_S1000000x256_1_0_0_1 x i u) : (FVec Ideal S20000x256 .f32) → (IVec S1000000x1 32) → (FVec Ideal S1000000x256 .f32) → (FVec Ideal S20000x256 .f32)) (R V (Proc.devRef .tc main_v56)) (R V (Proc.devRef .tc main_v57)) (R V (Proc.devRef .tc main_v55)) :=
  read_ternary writesAre 94 V rfl (by decide) (by decide) (by decide) (by decide)

theorem st_main_v59 (V : Valuation τ sig (Elt Ideal)) :
    R V (Proc.devRef .tc main_v59) = (broadcastInDim S20000x1 ![0] bcast_S20000_S20000x1_0 : (FVec Ideal S20000 .f32) → (FVec Ideal S20000x1 .f32)) (R V (Proc.devRef .tc main_v16)) :=
  read_unary writesAre 95 V rfl (by decide) (by decide)

theorem st_main_v60 (V : Valuation τ sig (Elt Ideal)) :
    R V (Proc.devRef .tc main_v60) = (broadcastInDim S20000x256 ![0, 1] bcast_S20000x1_S20000x256_0_1 : (FVec Ideal S20000x1 .f32) → (FVec Ideal S20000x256 .f32)) (R V (Proc.devRef .tc main_v59)) :=
  read_unary writesAre 96 V rfl (by decide) (by decide)

theorem st_main_v61 (V : Valuation τ sig (Elt Ideal)) :
    R V (Proc.devRef .tc main_v61) = (mulf (F := Ideal) : (FVec Ideal S20000x256 .f32) → (FVec Ideal S20000x256 .f32) → (FVec Ideal S20000x256 .f32)) (R V (Proc.devRef .tc main_v60)) (R V (Proc.devRef .tc main_v58)) :=
  read_binary writesAre 97 V rfl (by decide) (by decide) (by decide)

theorem st_main_c_16 (V : Valuation τ sig (Elt Ideal)) :
    R V (Proc.devRef .tc main_c_16) = (constantI S_ 32 0#32 : IVec S_ 32) :=
  read_nullary writesAre 98 V rfl (by decide)

theorem st_main_v62 (V : Valuation τ sig (Elt Ideal)) :
    R V (Proc.devRef .tc main_v62) = (broadcastInDim S1000000 ![] bcast_S_S1000000 : (IVec S_ 32) → (IVec S1000000 32)) (R V (Proc.devRef .tc main_c_16)) :=
  read_unary writesAre 99 V rfl (by decide) (by decide)

theorem st_main_v63 (V : Valuation τ sig (Elt Ideal)) :
    R V (Proc.devRef .tc main_v63) = (cmpi .slt : (IVec S1000000 32) → (IVec S1000000 32) → (IVec S1000000 1)) (R V (Proc.devRef .tc main_arg2)) (R V (Proc.devRef .tc main_v62)) :=
  read_binary writesAre 100 V rfl (by decide) (by decide) (by decide)

theorem st_main_c_17 (V : Valuation τ sig (Elt Ideal)) :
    R V (Proc.devRef .tc main_c_17) = (constantI S_ 32 20000#32 : IVec S_ 32) :=
  read_nullary writesAre 101 V rfl (by decide)

theorem st_main_v64 (V : Valuation τ sig (Elt Ideal)) :
    R V (Proc.devRef .tc main_v64) = (broadcastInDim S1000000 ![] bcast_S_S1000000 : (IVec S_ 32) → (IVec S1000000 32)) (R V (Proc.devRef .tc main_c_17)) :=
  read_unary writesAre 102 V rfl (by decide) (by decide)

theorem st_main_v65 (V : Valuation τ sig (Elt Ideal)) :
    R V (Proc.devRef .tc main_v65) = (addi : (IVec S1000000 32) → (IVec S1000000 32) → (IVec S1000000 32)) (R V (Proc.devRef .tc main_arg2)) (R V (Proc.devRef .tc main_v64)) :=
  read_binary writesAre 103 V rfl (by decide) (by decide) (by decide)

theorem st_main_v66 (V : Valuation τ sig (Elt Ideal)) :
    R V (Proc.devRef .tc main_v66) = (select : (IVec S1000000 1) → (IVec S1000000 32) → (IVec S1000000 32) → (IVec S1000000 32)) (R V (Proc.devRef .tc main_v63)) (R V (Proc.devRef .tc main_v65)) (R V (Proc.devRef .tc main_arg2)) :=
  read_ternary writesAre 104 V rfl (by decide) (by decide) (by decide) (by decide)

theorem st_main_v67 (V : Valuation τ sig (Elt Ideal)) :
    R V (Proc.devRef .tc main_v67) = (broadcastInDim S1000000x1 ![0] bcast_S1000000_S1000000x1_0 : (IVec S1000000 32) → (IVec S1000000x1 32)) (R V (Proc.devRef .tc main_v66)) :=
  read_unary writesAre 105 V rfl (by decide) (by decide)

theorem st_main_v68 (V : Valuation τ sig (Elt Ideal)) :
    R V (Proc.devRef .tc main_v68) = ((fun x i => Host.gather gather_S20000x256_S1000000x1_S1000000x256_1_0_n_n_0_1_1256 x i) : (FVec Ideal S20000x256 .f32) → (IVec S1000000x1 32) → (FVec Ideal S1000000x256 .f32)) (R V (Proc.devRef .tc main_v61)) (R V (Proc.devRef .tc main_v67)) :=
  read_binary writesAre 106 V rfl (by decide) (by decide) (by decide)

theorem st_main_cst_18 (V : Valuation τ sig (Elt Ideal)) :
    R V (Proc.devRef .tc main_cst_18) = (constant (F := Ideal) S_ .f32 0x00000000#32 : FVec Ideal S_ .f32) :=
  read_nullary writesAre 107 V rfl (by decide)

theorem st_main_v69 (V : Valuation τ sig (Elt Ideal)) :
    R V (Proc.devRef .tc main_v69) = (broadcastInDim S100000x256 ![] bcast_S_S100000x256 : (FVec Ideal S_ .f32) → (FVec Ideal S100000x256 .f32)) (R V (Proc.devRef .tc main_cst_18)) :=
  read_unary writesAre 108 V rfl (by decide) (by decide)

theorem st_main_v70 (V : Valuation τ sig (Elt Ideal)) :
    R V (Proc.devRef .tc main_v70) = (broadcastInDim S1000000x1 ![0] bcast_S1000000_S1000000x1_0 : (IVec S1000000 32) → (IVec S1000000x1 32)) (R V (Proc.devRef .tc main_arg1)) :=
  read_unary writesAre 109 V rfl (by decide) (by decide)

theorem st_main_v71 (V : Valuation τ sig (Elt Ideal)) :
    R V (Proc.devRef .tc main_v71) = ((fun x i u => Host.scatterAdd (F := Ideal) scatter_S100000x256_S1000000x1_S1000000x256_1_0_0_1 x i u) : (FVec Ideal S100000x256 .f32) → (IVec S1000000x1 32) → (FVec Ideal S1000000x256 .f32) → (FVec Ideal S100000x256 .f32)) (R V (Proc.devRef .tc main_v69)) (R V (Proc.devRef .tc main_v70)) (R V (Proc.devRef .tc main_v68)) :=
  read_ternary writesAre 110 V rfl (by decide) (by decide) (by decide) (by decide)

theorem st_main_v72 (V : Valuation τ sig (Elt Ideal)) :
    R V (Proc.devRef .tc main_v72) = (broadcastInDim S100000x1 ![0] bcast_S100000_S100000x1_0 : (FVec Ideal S100000 .f32) → (FVec Ideal S100000x1 .f32)) (R V (Proc.devRef .tc main_v11)) :=
  read_unary writesAre 111 V rfl (by decide) (by decide)

theorem st_main_v73 (V : Valuation τ sig (Elt Ideal)) :
    R V (Proc.devRef .tc main_v73) = (broadcastInDim S100000x256 ![0, 1] bcast_S100000x1_S100000x256_0_1 : (FVec Ideal S100000x1 .f32) → (FVec Ideal S100000x256 .f32)) (R V (Proc.devRef .tc main_v72)) :=
  read_unary writesAre 112 V rfl (by decide) (by decide)

theorem st_main_v74 (V : Valuation τ sig (Elt Ideal)) :
    R V (Proc.devRef .tc main_v74) = (mulf (F := Ideal) : (FVec Ideal S100000x256 .f32) → (FVec Ideal S100000x256 .f32) → (FVec Ideal S100000x256 .f32)) (R V (Proc.devRef .tc main_v73)) (R V (Proc.devRef .tc main_v71)) :=
  read_binary writesAre 113 V rfl (by decide) (by decide) (by decide)

theorem st_main_v75 (V : Valuation τ sig (Elt Ideal)) :
    R V (Proc.devRef .tc main_v75) = (broadcastInDim S1x256 ![1] bcast_S256_S1x256_1 : (FVec Ideal S256 .f32) → (FVec Ideal S1x256 .f32)) (R V (Proc.devRef .tc main_arg6)) :=
  read_unary writesAre 114 V rfl (by decide) (by decide)

theorem st_main_v76 (V : Valuation τ sig (Elt Ideal)) :
    R V (Proc.devRef .tc main_v76) = (broadcastInDim S100000x256 ![0, 1] bcast_S1x256_S100000x256_0_1 : (FVec Ideal S1x256 .f32) → (FVec Ideal S100000x256 .f32)) (R V (Proc.devRef .tc main_v75)) :=
  read_unary writesAre 115 V rfl (by decide) (by decide)

theorem st_main_v77 (V : Valuation τ sig (Elt Ideal)) :
    R V (Proc.devRef .tc main_v77) = (addf (F := Ideal) : (FVec Ideal S100000x256 .f32) → (FVec Ideal S100000x256 .f32) → (FVec Ideal S100000x256 .f32)) (R V (Proc.devRef .tc main_v74)) (R V (Proc.devRef .tc main_v76)) :=
  read_binary writesAre 116 V rfl (by decide) (by decide) (by decide)

theorem st_main_call3_cst (V : Valuation τ sig (Elt Ideal)) :
    R V (Proc.devRef .tc main_call3_cst) = (constant (F := Ideal) S_ .f32 0x00000000#32 : FVec Ideal S_ .f32) :=
  read_nullary writesAre 117 V rfl (by decide)

theorem st_main_call3_v0 (V : Valuation τ sig (Elt Ideal)) :
    R V (Proc.devRef .tc main_call3_v0) = (broadcastInDim S100000x256 ![] bcast_S_S100000x256 : FVec Ideal S_ .f32 → FVec Ideal S100000x256 .f32) (R V (Proc.devRef .tc main_call3_cst)) :=
  read_unary writesAre 118 V rfl (by decide) (by decide)

theorem st_main_call3_v1 (V : Valuation τ sig (Elt Ideal)) :
    R V (Proc.devRef .tc main_call3_v1) = (cmpf (F := Ideal) .ogt : FVec Ideal S100000x256 .f32 → FVec Ideal S100000x256 .f32 → IVec S100000x256 1) (R V (Proc.devRef .tc main_v77)) (R V (Proc.devRef .tc main_call3_v0)) :=
  read_binary writesAre 119 V rfl (by decide) (by decide) (by decide)

theorem st_main_call3_cst_0 (V : Valuation τ sig (Elt Ideal)) :
    R V (Proc.devRef .tc main_call3_cst_0) = (constant (F := Ideal) S_ .f32 0x00000000#32 : FVec Ideal S_ .f32) :=
  read_nullary writesAre 120 V rfl (by decide)

theorem st_main_call3_v2 (V : Valuation τ sig (Elt Ideal)) :
    R V (Proc.devRef .tc main_call3_v2) = (broadcastInDim S100000x256 ![] bcast_S_S100000x256 : FVec Ideal S_ .f32 → FVec Ideal S100000x256 .f32) (R V (Proc.devRef .tc main_call3_cst_0)) :=
  read_unary writesAre 121 V rfl (by decide) (by decide)

theorem st_main_call3_v3 (V : Valuation τ sig (Elt Ideal)) :
    R V (Proc.devRef .tc main_call3_v3) = (cmpf (F := Ideal) .ogt : FVec Ideal S100000x256 .f32 → FVec Ideal S100000x256 .f32 → IVec S100000x256 1) (R V (Proc.devRef .tc main_v77)) (R V (Proc.devRef .tc main_call3_v2)) :=
  read_binary writesAre 122 V rfl (by decide) (by decide) (by decide)

theorem st_main_call3_cst_1 (V : Valuation τ sig (Elt Ideal)) :
    R V (Proc.devRef .tc main_call3_cst_1) = (constant (F := Ideal) S_ .f32 0x00000000#32 : FVec Ideal S_ .f32) :=
  read_nullary writesAre 123 V rfl (by decide)

theorem st_main_call3_call0_v0 (V : Valuation τ sig (Elt Ideal)) :
    R V (Proc.devRef .tc main_call3_call0_v0) = (id : FVec Ideal S_ .f32 → FVec Ideal S_ .f32) (R V (Proc.devRef .tc main_call3_cst_1)) :=
  read_unary writesAre 124 V rfl (by decide) (by decide)

theorem st_main_call3_call0_v1 (V : Valuation τ sig (Elt Ideal)) :
    R V (Proc.devRef .tc main_call3_call0_v1) = (broadcastInDim S100000x256 ![] bcast_S_S100000x256 : FVec Ideal S_ .f32 → FVec Ideal S100000x256 .f32) (R V (Proc.devRef .tc main_call3_call0_v0)) :=
  read_unary writesAre 125 V rfl (by decide) (by decide)

theorem st_main_call3_v4 (V : Valuation τ sig (Elt Ideal)) :
    R V (Proc.devRef .tc main_call3_v4) = (select : IVec S100000x256 1 → FVec Ideal S100000x256 .f32 → FVec Ideal S100000x256 .f32 → FVec Ideal S100000x256 .f32) (R V (Proc.devRef .tc main_call3_v3)) (R V (Proc.devRef .tc main_call3_call0_v1)) (R V (Proc.devRef .tc main_v77)) :=
  read_ternary writesAre 126 V rfl (by decide) (by decide) (by decide) (by decide)

theorem st_main_call3_v5 (V : Valuation τ sig (Elt Ideal)) :
    R V (Proc.devRef .tc main_call3_v5) = (Host.expm1 (F := Ideal) : FVec Ideal S100000x256 .f32 → FVec Ideal S100000x256 .f32) (R V (Proc.devRef .tc main_call3_v4)) :=
  read_unary writesAre 127 V rfl (by decide) (by decide)

theorem st_main_call3_cst_2 (V : Valuation τ sig (Elt Ideal)) :
    R V (Proc.devRef .tc main_call3_cst_2) = (constant (F := Ideal) S_ .f32 0x3F800000#32 : FVec Ideal S_ .f32) :=
  read_nullary writesAre 128 V rfl (by decide)

theorem st_main_call3_v6 (V : Valuation τ sig (Elt Ideal)) :
    R V (Proc.devRef .tc main_call3_v6) = (broadcastInDim S100000x256 ![] bcast_S_S100000x256 : FVec Ideal S_ .f32 → FVec Ideal S100000x256 .f32) (R V (Proc.devRef .tc main_call3_cst_2)) :=
  read_unary writesAre 129 V rfl (by decide) (by decide)

theorem st_main_call3_v7 (V : Valuation τ sig (Elt Ideal)) :
    R V (Proc.devRef .tc main_call3_v7) = (mulf (F := Ideal) : FVec Ideal S100000x256 .f32 → FVec Ideal S100000x256 .f32 → FVec Ideal S100000x256 .f32) (R V (Proc.devRef .tc main_call3_v6)) (R V (Proc.devRef .tc main_call3_v5)) :=
  read_binary writesAre 130 V rfl (by decide) (by decide) (by decide)

theorem st_main_v78 (V : Valuation τ sig (Elt Ideal)) :
    R V (Proc.devRef .tc main_v78) = (select : IVec S100000x256 1 → FVec Ideal S100000x256 .f32 → FVec Ideal S100000x256 .f32 → FVec Ideal S100000x256 .f32) (R V (Proc.devRef .tc main_call3_v1)) (R V (Proc.devRef .tc main_v77)) (R V (Proc.devRef .tc main_call3_v7)) :=
  read_ternary writesAre 131 V rfl (by decide) (by decide) (by decide) (by decide)

theorem st_main_v79 (V : Valuation τ sig (Elt Ideal)) :
    R V (Proc.devRef .tc main_v79) = ((fun l r => Host.dotGeneral (F := Ideal) dot_S100000x256_S256x40_S100000x40_1_0_0_1_n_n none l r) : (FVec Ideal S100000x256 .f32) → (FVec Ideal S256x40 .f32) → (FVec Ideal S100000x40 .f32)) (R V (Proc.devRef .tc main_v78)) (R V (Proc.devRef .tc main_arg7)) :=
  read_binary writesAre 132 V rfl (by decide) (by decide) (by decide)

theorem st_main_c_19 (V : Valuation τ sig (Elt Ideal)) :
    R V (Proc.devRef .tc main_c_19) = (constantI S_ 32 0#32 : IVec S_ 32) :=
  read_nullary writesAre 133 V rfl (by decide)

theorem st_main_v80 (V : Valuation τ sig (Elt Ideal)) :
    R V (Proc.devRef .tc main_v80) = (broadcastInDim S1000000 ![] bcast_S_S1000000 : (IVec S_ 32) → (IVec S1000000 32)) (R V (Proc.devRef .tc main_c_19)) :=
  read_unary writesAre 134 V rfl (by decide) (by decide)

theorem st_main_v81 (V : Valuation τ sig (Elt Ideal)) :
    R V (Proc.devRef .tc main_v81) = (cmpi .slt : (IVec S1000000 32) → (IVec S1000000 32) → (IVec S1000000 1)) (R V (Proc.devRef .tc main_arg1)) (R V (Proc.devRef .tc main_v80)) :=
  read_binary writesAre 135 V rfl (by decide) (by decide) (by decide)

theorem st_main_c_20 (V : Valuation τ sig (Elt Ideal)) :
    R V (Proc.devRef .tc main_c_20) = (constantI S_ 32 100000#32 : IVec S_ 32) :=
  read_nullary writesAre 136 V rfl (by decide)

theorem st_main_v82 (V : Valuation τ sig (Elt Ideal)) :
    R V (Proc.devRef .tc main_v82) = (broadcastInDim S1000000 ![] bcast_S_S1000000 : (IVec S_ 32) → (IVec S1000000 32)) (R V (Proc.devRef .tc main_c_20)) :=
  read_unary writesAre 137 V rfl (by decide) (by decide)

theorem st_main_v83 (V : Valuation τ sig (Elt Ideal)) :
    R V (Proc.devRef .tc main_v83) = (addi : (IVec S1000000 32) → (IVec S1000000 32) → (IVec S1000000 32)) (R V (Proc.devRef .tc main_arg1)) (R V (Proc.devRef .tc main_v82)) :=
  read_binary writesAre 138 V rfl (by decide) (by decide) (by decide)

theorem st_main_v84 (V : Valuation τ sig (Elt Ideal)) :
    R V (Proc.devRef .tc main_v84) = (select : (IVec S1000000 1) → (IVec S1000000 32) → (IVec S1000000 32) → (IVec S1000000 32)) (R V (Proc.devRef .tc main_v81)) (R V (Proc.devRef .tc main_v83)) (R V (Proc.devRef .tc main_arg1)) :=
  read_ternary writesAre 139 V rfl (by decide) (by decide) (by decide) (by decide)

theorem st_main_v85 (V : Valuation τ sig (Elt Ideal)) :
    R V (Proc.devRef .tc main_v85) = (broadcastInDim S1000000x1 ![0] bcast_S1000000_S1000000x1_0 : (IVec S1000000 32) → (IVec S1000000x1 32)) (R V (Proc.devRef .tc main_v84)) :=
  read_unary writesAre 140 V rfl (by decide) (by decide)

theorem st_main_v86 (V : Valuation τ sig (Elt Ideal)) :
    R V (Proc.devRef .tc main_v86) = ((fun x i => Host.gather gather_S100000x40_S1000000x1_S1000000x40_1_0_n_n_0_1_140 x i) : (FVec Ideal S100000x40 .f32) → (IVec S1000000x1 32) → (FVec Ideal S1000000x40 .f32)) (R V (Proc.devRef .tc main_v79)) (R V (Proc.devRef .tc main_v85)) :=
  read_binary writesAre 141 V rfl (by decide) (by decide) (by decide)

theorem st_main_cst_21 (V : Valuation τ sig (Elt Ideal)) :
    R V (Proc.devRef .tc main_cst_21) = (constant (F := Ideal) S_ .f32 0x00000000#32 : FVec Ideal S_ .f32) :=
  read_nullary writesAre 142 V rfl (by decide)

theorem st_main_v87 (V : Valuation τ sig (Elt Ideal)) :
    R V (Proc.devRef .tc main_v87) = (broadcastInDim S20000x40 ![] bcast_S_S20000x40 : (FVec Ideal S_ .f32) → (FVec Ideal S20000x40 .f32)) (R V (Proc.devRef .tc main_cst_21)) :=
  read_unary writesAre 143 V rfl (by decide) (by decide)

theorem st_main_v88 (V : Valuation τ sig (Elt Ideal)) :
    R V (Proc.devRef .tc main_v88) = (broadcastInDim S1000000x1 ![0] bcast_S1000000_S1000000x1_0 : (IVec S1000000 32) → (IVec S1000000x1 32)) (R V (Proc.devRef .tc main_arg2)) :=
  read_unary writesAre 144 V rfl (by decide) (by decide)

theorem st_main_v89 (V : Valuation τ sig (Elt Ideal)) :
    R V (Proc.devRef .tc main_v89) = ((fun x i u => Host.scatterAdd (F := Ideal) scatter_S20000x40_S1000000x1_S1000000x40_1_0_0_1 x i u) : (FVec Ideal S20000x40 .f32) → (IVec S1000000x1 32) → (FVec Ideal S1000000x40 .f32) → (FVec Ideal S20000x40 .f32)) (R V (Proc.devRef .tc main_v87)) (R V (Proc.devRef .tc main_v88)) (R V (Proc.devRef .tc main_v86)) :=
  read_ternary writesAre 145 V rfl (by decide) (by decide) (by decide) (by decide)

theorem st_main_v90 (V : Valuation τ sig (Elt Ideal)) :
    R V (Proc.devRef .tc main_v90) = (broadcastInDim S20000x1 ![0] bcast_S20000_S20000x1_0 : (FVec Ideal S20000 .f32) → (FVec Ideal S20000x1 .f32)) (R V (Proc.devRef .tc main_v16)) :=
  read_unary writesAre 146 V rfl (by decide) (by decide)

theorem st_main_v91 (V : Valuation τ sig (Elt Ideal)) :
    R V (Proc.devRef .tc main_v91) = (broadcastInDim S20000x40 ![0, 1] bcast_S20000x1_S20000x40_0_1 : (FVec Ideal S20000x1 .f32) → (FVec Ideal S20000x40 .f32)) (R V (Proc.devRef .tc main_v90)) :=
  read_unary writesAre 147 V rfl (by decide) (by decide)

theorem st_main_v92 (V : Valuation τ sig (Elt Ideal)) :
    R V (Proc.devRef .tc main_v92) = (mulf (F := Ideal) : (FVec Ideal S20000x40 .f32) → (FVec Ideal S20000x40 .f32) → (FVec Ideal S20000x40 .f32)) (R V (Proc.devRef .tc main_v91)) (R V (Proc.devRef .tc main_v89)) :=
  read_binary writesAre 148 V rfl (by decide) (by decide) (by decide)

theorem st_main_c_22 (V : Valuation τ sig (Elt Ideal)) :
    R V (Proc.devRef .tc main_c_22) = (constantI S_ 32 0#32 : IVec S_ 32) :=
  read_nullary writesAre 149 V rfl (by decide)

theorem st_main_v93 (V : Valuation τ sig (Elt Ideal)) :
    R V (Proc.devRef .tc main_v93) = (broadcastInDim S1000000 ![] bcast_S_S1000000 : (IVec S_ 32) → (IVec S1000000 32)) (R V (Proc.devRef .tc main_c_22)) :=
  read_unary writesAre 150 V rfl (by decide) (by decide)

theorem st_main_v94 (V : Valuation τ sig (Elt Ideal)) :
    R V (Proc.devRef .tc main_v94) = (cmpi .slt : (IVec S1000000 32) → (IVec S1000000 32) → (IVec S1000000 1)) (R V (Proc.devRef .tc main_arg2)) (R V (Proc.devRef .tc main_v93)) :=
  read_binary writesAre 151 V rfl (by decide) (by decide) (by decide)

theorem st_main_c_23 (V : Valuation τ sig (Elt Ideal)) :
    R V (Proc.devRef .tc main_c_23) = (constantI S_ 32 20000#32 : IVec S_ 32) :=
  read_nullary writesAre 152 V rfl (by decide)

theorem st_main_v95 (V : Valuation τ sig (Elt Ideal)) :
    R V (Proc.devRef .tc main_v95) = (broadcastInDim S1000000 ![] bcast_S_S1000000 : (IVec S_ 32) → (IVec S1000000 32)) (R V (Proc.devRef .tc main_c_23)) :=
  read_unary writesAre 153 V rfl (by decide) (by decide)

theorem st_main_v96 (V : Valuation τ sig (Elt Ideal)) :
    R V (Proc.devRef .tc main_v96) = (addi : (IVec S1000000 32) → (IVec S1000000 32) → (IVec S1000000 32)) (R V (Proc.devRef .tc main_arg2)) (R V (Proc.devRef .tc main_v95)) :=
  read_binary writesAre 154 V rfl (by decide) (by decide) (by decide)

theorem st_main_v97 (V : Valuation τ sig (Elt Ideal)) :
    R V (Proc.devRef .tc main_v97) = (select : (IVec S1000000 1) → (IVec S1000000 32) → (IVec S1000000 32) → (IVec S1000000 32)) (R V (Proc.devRef .tc main_v94)) (R V (Proc.devRef .tc main_v96)) (R V (Proc.devRef .tc main_arg2)) :=
  read_ternary writesAre 155 V rfl (by decide) (by decide) (by decide) (by decide)

theorem st_main_v98 (V : Valuation τ sig (Elt Ideal)) :
    R V (Proc.devRef .tc main_v98) = (broadcastInDim S1000000x1 ![0] bcast_S1000000_S1000000x1_0 : (IVec S1000000 32) → (IVec S1000000x1 32)) (R V (Proc.devRef .tc main_v97)) :=
  read_unary writesAre 156 V rfl (by decide) (by decide)

theorem st_main_v99 (V : Valuation τ sig (Elt Ideal)) :
    R V (Proc.devRef .tc main_v99) = ((fun x i => Host.gather gather_S20000x40_S1000000x1_S1000000x40_1_0_n_n_0_1_140 x i) : (FVec Ideal S20000x40 .f32) → (IVec S1000000x1 32) → (FVec Ideal S1000000x40 .f32)) (R V (Proc.devRef .tc main_v92)) (R V (Proc.devRef .tc main_v98)) :=
  read_binary writesAre 157 V rfl (by decide) (by decide) (by decide)

theorem st_main_cst_24 (V : Valuation τ sig (Elt Ideal)) :
    R V (Proc.devRef .tc main_cst_24) = (constant (F := Ideal) S_ .f32 0x00000000#32 : FVec Ideal S_ .f32) :=
  read_nullary writesAre 158 V rfl (by decide)

theorem st_main_v100 (V : Valuation τ sig (Elt Ideal)) :
    R V (Proc.devRef .tc main_v100) = (broadcastInDim S100000x40 ![] bcast_S_S100000x40 : (FVec Ideal S_ .f32) → (FVec Ideal S100000x40 .f32)) (R V (Proc.devRef .tc main_cst_24)) :=
  read_unary writesAre 159 V rfl (by decide) (by decide)

theorem st_main_v101 (V : Valuation τ sig (Elt Ideal)) :
    R V (Proc.devRef .tc main_v101) = (broadcastInDim S1000000x1 ![0] bcast_S1000000_S1000000x1_0 : (IVec S1000000 32) → (IVec S1000000x1 32)) (R V (Proc.devRef .tc main_arg1)) :=
  read_unary writesAre 160 V rfl (by decide) (by decide)

theorem st_main_v102 (V : Valuation τ sig (Elt Ideal)) :
    R V (Proc.devRef .tc main_v102) = ((fun x i u => Host.scatterAdd (F := Ideal) scatter_S100000x40_S1000000x1_S1000000x40_1_0_0_1 x i u) : (FVec Ideal S100000x40 .f32) → (IVec S1000000x1 32) → (FVec Ideal S1000000x40 .f32) → (FVec Ideal S100000x40 .f32)) (R V (Proc.devRef .tc main_v100)) (R V (Proc.devRef .tc main_v101)) (R V (Proc.devRef .tc main_v99)) :=
  read_ternary writesAre 161 V rfl (by decide) (by decide) (by decide) (by decide)

theorem st_main_v103 (V : Valuation τ sig (Elt Ideal)) :
    R V (Proc.devRef .tc main_v103) = (broadcastInDim S100000x1 ![0] bcast_S100000_S100000x1_0 : (FVec Ideal S100000 .f32) → (FVec Ideal S100000x1 .f32)) (R V (Proc.devRef .tc main_v11)) :=
  read_unary writesAre 162 V rfl (by decide) (by decide)

theorem st_main_v104 (V : Valuation τ sig (Elt Ideal)) :
    R V (Proc.devRef .tc main_v104) = (broadcastInDim S100000x40 ![0, 1] bcast_S100000x1_S100000x40_0_1 : (FVec Ideal S100000x1 .f32) → (FVec Ideal S100000x40 .f32)) (R V (Proc.devRef .tc main_v103)) :=
  read_unary writesAre 163 V rfl (by decide) (by decide)

theorem st_main_v105 (V : Valuation τ sig (Elt Ideal)) :
    R V (Proc.devRef .tc main_v105) = (mulf (F := Ideal) : (FVec Ideal S100000x40 .f32) → (FVec Ideal S100000x40 .f32) → (FVec Ideal S100000x40 .f32)) (R V (Proc.devRef .tc main_v104)) (R V (Proc.devRef .tc main_v102)) :=
  read_binary writesAre 164 V rfl (by decide) (by decide) (by decide)

theorem st_main_v106 (V : Valuation τ sig (Elt Ideal)) :
    R V (Proc.devRef .tc main_v106) = (broadcastInDim S1x40 ![1] bcast_S40_S1x40_1 : (FVec Ideal S40 .f32) → (FVec Ideal S1x40 .f32)) (R V (Proc.devRef .tc main_arg8)) :=
  read_unary writesAre 165 V rfl (by decide) (by decide)

theorem st_main_v107 (V : Valuation τ sig (Elt Ideal)) :
    R V (Proc.devRef .tc main_v107) = (broadcastInDim S100000x40 ![0, 1] bcast_S1x40_S100000x40_0_1 : (FVec Ideal S1x40 .f32) → (FVec Ideal S100000x40 .f32)) (R V (Proc.devRef .tc main_v106)) :=
  read_unary writesAre 166 V rfl (by decide) (by decide)

theorem st_main_v108 (V : Valuation τ sig (Elt Ideal)) :
    R V (Proc.devRef .tc main_v108) = (addf (F := Ideal) : (FVec Ideal S100000x40 .f32) → (FVec Ideal S100000x40 .f32) → (FVec Ideal S100000x40 .f32)) (R V (Proc.devRef .tc main_v105)) (R V (Proc.devRef .tc main_v107)) :=
  read_binary writesAre 167 V rfl (by decide) (by decide) (by decide)

end Cert.ReferenceIdeal.HandRead

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«178120_j2594160246969_1_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.LibGraphConv.lean ====
/-
  One layer of an edge-conditioned graph convolution and its dense read-out, as mathematics over the extended
  reals, for any extents.

  The message of edge `p` into output channel `n` is
      msg(p, n) = Σ_k h(p, k) · wh(k, n) + Σ_k e(p, k) · we(k, n) + b(0, n)
  where `h` holds the gathered node features (A channels), `e` the edge attributes (B channels), `wh` and `we` the
  two row blocks of one (A+B)×N weight matrix and `b` the bias as a 1×N row. The read-out of node `p` is
      out(p, n) = Σ_k h(p, k) · w(k, n) + b(0, n).
  Both depend on row `p` of the row-indexed operands only.

  The tile spelling computes them as matrix products into zero accumulators (operands first rounded to a narrower
  format, which is the identity on the extended reals), added, plus the bias row broadcast down the rows.
-/
import proofs.«178120_j2594160246969_1_alg».proof.Proof.LibPlainMatmul
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibPlainMatmul

/-- The per-edge message: features times their weight block, plus attributes times theirs, plus the bias row. -/
def edgeMsg {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32) :
    FVec Ideal ⟨2, ![E, N]⟩ .f32 :=
  fun j => ((∑ k : Fin A, h (ix2 (j 0) k) * wh (ix2 k (j 1))) + ∑ k : Fin B, e (ix2 (j 0) k) * we (ix2 k (j 1)))
    + b (ix2 0 (j 1))

/-- The dense read-out: features times the weight, plus the bias row. -/
def denseOut {E A N : ℕ} (h : FVec Ideal ⟨2, ![E, A]⟩ .f32) (w : FVec Ideal ⟨2, ![A, N]⟩ .f32)
    (b : FVec Ideal ⟨2, ![1, N]⟩ .f32) : FVec Ideal ⟨2, ![E, N]⟩ .f32 :=
  fun j => (∑ k : Fin A, h (ix2 (j 0) k) * w (ix2 k (j 1))) + b (ix2 0 (j 1))

theorem edgeMsg_apply {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32)
    (p : Fin E) (n : Fin N) :
    edgeMsg h e wh we b (ix2 p n)
      = ((∑ k : Fin A, h (ix2 p k) * wh (ix2 k n)) + ∑ k : Fin B, e (ix2 p k) * we (ix2 k n)) + b (ix2 0 n) := rfl

theorem denseOut_apply {E A N : ℕ} (h : FVec Ideal ⟨2, ![E, A]⟩ .f32) (w : FVec Ideal ⟨2, ![A, N]⟩ .f32)
    (b : FVec Ideal ⟨2, ![1, N]⟩ .f32) (p : Fin E) (n : Fin N) :
    denseOut h w b (ix2 p n) = (∑ k : Fin A, h (ix2 p k) * w (ix2 k n)) + b (ix2 0 n) := rfl

/-- A message depends on its own edge's row of the features and attributes, on its own channel's column of the two
    weight blocks and on its own channel's bias entry only: messages agree at entries where these agree. -/
theorem edgeMsg_congr {E E' A B N : ℕ}
    (h : FVec Ideal ⟨2, ![E, A]⟩ .f32) (e : FVec Ideal ⟨2, ![E, B]⟩ .f32) (wh : FVec Ideal ⟨2, ![A, N]⟩ .f32)
    (we : FVec Ideal ⟨2, ![B, N]⟩ .f32) (b : FVec Ideal ⟨2, ![1, N]⟩ .f32)
    (h' : FVec Ideal ⟨2, ![E', A]⟩ .f32) (e' : FVec Ideal ⟨2, ![E', B]⟩ .f32) (wh' : FVec Ideal ⟨2, ![A, N]⟩ .f32)
    (we' : FVec Ideal ⟨2, ![B, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k)) (he : ∀ k : Fin B, e (ix2 (j 0) k) = e' (ix2 (j' 0) k))
    (hwh : ∀ k : Fin A, wh (ix2 k (j 1)) = wh' (ix2 k (j' 1))) (hwe : ∀ k : Fin B, we (ix2 k (j 1)) = we' (ix2 k (j' 1)))
    (hb : b (ix2 0 (j 1)) = b' (ix2 0 (j' 1))) :
    edgeMsg h e wh we b j = edgeMsg h' e' wh' we' b' j' := by
  show ((∑ k : Fin A, h (ix2 (j 0) k) * wh (ix2 k (j 1))) + ∑ k : Fin B, e (ix2 (j 0) k) * we (ix2 k (j 1)))
      + b (ix2 0 (j 1))
    = ((∑ k : Fin A, h' (ix2 (j' 0) k) * wh' (ix2 k (j' 1))) + ∑ k : Fin B, e' (ix2 (j' 0) k) * we' (ix2 k (j' 1)))
      + b' (ix2 0 (j' 1))
  have s1 : (∑ k : Fin A, h (ix2 (j 0) k) * wh (ix2 k (j 1))) = ∑ k : Fin A, h' (ix2 (j' 0) k) * wh' (ix2 k (j' 1)) :=
    Finset.sum_congr rfl fun k _ => by rw [hh k, hwh k]
  have s2 : (∑ k : Fin B, e (ix2 (j 0) k) * we (ix2 k (j 1))) = ∑ k : Fin B, e' (ix2 (j' 0) k) * we' (ix2 k (j' 1)) :=
    Finset.sum_congr rfl fun k _ => by rw [he k, hwe k]
  rw [hb, s1, s2]

/-- The read-out of a node depends on that node's row of the features, on its channel's column of the weight and on
    its channel's bias entry only. -/
theorem denseOut_congr {E E' A N : ℕ}
    (h : FVec Ideal ⟨2, ![E, A]⟩ .f32) (w : FVec Ideal ⟨2, ![A, N]⟩ .f32) (b : FVec Ideal ⟨2, ![1, N]⟩ .f32)
    (h' : FVec Ideal ⟨2, ![E', A]⟩ .f32) (w' : FVec Ideal ⟨2, ![A, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k))
    (hw : ∀ k : Fin A, w (ix2 k (j 1)) = w' (ix2 k (j' 1))) (hb : b (ix2 0 (j 1)) = b' (ix2 0 (j' 1))) :
    denseOut h w b j = denseOut h' w' b' j' := by
  show (∑ k : Fin A, h (ix2 (j 0) k) * w (ix2 k (j 1))) + b (ix2 0 (j 1))
    = (∑ k : Fin A, h' (ix2 (j' 0) k) * w' (ix2 k (j' 1))) + b' (ix2 0 (j' 1))
  have s1 : (∑ k : Fin A, h (ix2 (j 0) k) * w (ix2 k (j 1))) = ∑ k : Fin A, h' (ix2 (j' 0) k) * w' (ix2 k (j' 1)) :=
    Finset.sum_congr rfl fun k _ => by rw [hh k, hw k]
  rw [hb, s1]

/-- A 1×N row broadcast down R rows, read at `(p, n)`: the row's entry `n`. -/
theorem rowBroadcast_apply {R N : ℕ} {α : Type} (x : (⟨2, ![1, N]⟩ : Shape).Idx → α)
    (hb : (⟨2, ![1, N]⟩ : Shape).Broadcasts ⟨2, ![R, N]⟩) (p : Fin R) (n : Fin N) :
    broadcastTo ⟨2, ![R, N]⟩ x hb (ix2 p n) = x (ix2 0 n) := by
  refine broadcastTo_apply x hb (ix2 p n) (ix2 0 n) fun a => ?_
  match a with
  | ⟨0, _⟩ => rfl
  | ⟨1, _⟩ =>
    show n.val = if N = 1 then 0 else n.val
    split
    · rename_i h1; have := n.isLt; omega
    · rfl

/-- The tile spelling of the message at `(p, n)`: two products into zero, added, plus the broadcast bias row. -/
theorem edge_tile_apply {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ ψ) (e : FVec Ideal ⟨2, ![R, B]⟩ ψ)
    (wh : FVec Ideal ⟨2, ![A, N]⟩ ψ) (we : FVec Ideal ⟨2, ![B, N]⟩ ψ) (b : FVec Ideal ⟨2, ![1, N]⟩ .f32)
    (hb : (⟨2, ![1, N]⟩ : Shape).Broadcasts ⟨2, ![R, N]⟩) (p : Fin R) (n : Fin N) :
    addf (addf (matmul D1 none h wh (constant (F := Ideal) ⟨2, ![R, N]⟩ .f32 0x00000000#32))
                (matmul D2 none e we (constant (F := Ideal) ⟨2, ![R, N]⟩ .f32 0x00000000#32)))
         (broadcastTo ⟨2, ![R, N]⟩ b hb) (ix2 p n)
      = ((∑ k : Fin A, h (ix2 p k) * wh (ix2 k n)) + ∑ k : Fin B, e (ix2 p k) * we (ix2 k n)) + b (ix2 0 n) := by
  rw [addf_apply, addf_apply, matmul_eq_plain_zero_apply D1 hD1, matmul_eq_plain_zero_apply D2 hD2, rowBroadcast_apply]

/-- The tile spelling of the read-out at `(p, n)`: one product into zero plus the broadcast bias row. -/
theorem dense_tile_apply {R A N : ℕ} {ψ : FTy}
    (D : DotDims ⟨2, ![R, A]⟩ ⟨2, ![A, N]⟩ ⟨2, ![R, N]⟩) (hD : D = DotDims.plain R A N)
    (h : FVec Ideal ⟨2, ![R, A]⟩ ψ) (w : FVec Ideal ⟨2, ![A, N]⟩ ψ) (b : FVec Ideal ⟨2, ![1, N]⟩ .f32)
    (hb : (⟨2, ![1, N]⟩ : Shape).Broadcasts ⟨2, ![R, N]⟩) (p : Fin R) (n : Fin N) :
    addf (matmul D none h w (constant (F := Ideal) ⟨2, ![R, N]⟩ .f32 0x00000000#32))
         (broadcastTo ⟨2, ![R, N]⟩ b hb) (ix2 p n)
      = (∑ k : Fin A, h (ix2 p k) * w (ix2 k n)) + b (ix2 0 n) := by
  rw [addf_apply, matmul_eq_plain_zero_apply D hD, rowBroadcast_apply]

/-- The tile spelling as a whole: it IS the message of its operands. -/
theorem edge_tile_eq {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ .f32) (e : FVec Ideal ⟨2, ![R, B]⟩ .f32)
    (wh : FVec Ideal ⟨2, ![A, N]⟩ .f32) (we : FVec Ideal ⟨2, ![B, N]⟩ .f32) (b : FVec Ideal ⟨2, ![1, N]⟩ .f32)
    (hψ : ψ.bits < FTy.bits .f32) (hb : (⟨2, ![1, N]⟩ : Shape).Broadcasts ⟨2, ![R, N]⟩) :
    addf (addf (matmul D1 none (truncf ψ h hψ) (truncf ψ wh hψ) (constant (F := Ideal) ⟨2, ![R, N]⟩ .f32 0x00000000#32))
                (matmul D2 none (truncf ψ e hψ) (truncf ψ we hψ) (constant (F := Ideal) ⟨2, ![R, N]⟩ .f32 0x00000000#32)))
         (broadcastTo ⟨2, ![R, N]⟩ b hb)
      = edgeMsg h e wh we b := by
  funext j
  obtain ⟨p, n, rfl⟩ : ∃ (p : Fin R) (n : Fin N), j = ix2 p n := ⟨j 0, j 1, eq_ix2 j⟩
  rw [edge_tile_apply D1 hD1 D2 hD2, edgeMsg_apply]
  rfl

/-- The read-out's tile spelling as a whole: it IS the dense read-out of its operands. -/
theorem dense_tile_eq {R A N : ℕ} {ψ : FTy}
    (D : DotDims ⟨2, ![R, A]⟩ ⟨2, ![A, N]⟩ ⟨2, ![R, N]⟩) (hD : D = DotDims.plain R A N)
    (h : FVec Ideal ⟨2, ![R, A]⟩ .f32) (w : FVec Ideal ⟨2, ![A, N]⟩ .f32) (b : FVec Ideal ⟨2, ![1, N]⟩ .f32)
    (hψ : ψ.bits < FTy.bits .f32) (hb : (⟨2, ![1, N]⟩ : Shape).Broadcasts ⟨2, ![R, N]⟩) :
    addf (matmul D none (truncf ψ h hψ) (truncf ψ w hψ) (constant (F := Ideal) ⟨2, ![R, N]⟩ .f32 0x00000000#32))
         (broadcastTo ⟨2, ![R, N]⟩ b hb)
      = denseOut h w b := by
  funext j
  obtain ⟨p, n, rfl⟩ : ∃ (p : Fin R) (n : Fin N), j = ix2 p n := ⟨j 0, j 1, eq_ix2 j⟩
  rw [dense_tile_apply D hD, denseOut_apply]
  rfl

end Cert.LibGraphConv

end
-- ==== Proof.LibGraphConvHost.lean ====
/-
  The host spelling of a graph-convolution layer is the layer, over the extended reals, for any extents.

  The host joins the gathered features (A channels) and the edge attributes (B channels) along the channel axis into
  one E×(A+B) matrix, multiplies by the whole (A+B)×N weight and adds the bias vector broadcast to every row. A sum
  over the A+B joined channels is the sum over the first A plus the sum over the last B — addition on the extended
  reals is commutative and associative, nothing needs to be finite —, the first A joined channels are the features and
  meet weight rows 0..A-1 (the weight's leading row block), the last B are the attributes and meet rows A..A+B-1 (its
  trailing row block), and the bias vector read as a 1×N row is the same vector. So the host's result is `edgeMsg` of
  the two row blocks; the read-out (one product plus the bias) is `denseOut`.
-/
import proofs.«178120_j2594160246969_1_alg».proof.Proof.LibGraphConv
import proofs.«178120_j2594160246969_1_alg».proof.Proof.LibHostPlainDot
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibHostPlainDot

/-- The bias vector broadcast to a 1×N row and then down E rows, read at `(p, n)`: the vector's entry `n`. -/
theorem biasRows_apply {E N : ℕ} {α : Type} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![E, N]⟩ ![0, 1]) (p : Fin E) (n : Fin N) :
    broadcastInDim ⟨2, ![E, N]⟩ ![0, 1] hb2 (broadcastInDim ⟨2, ![1, N]⟩ ![1] hb1 b) (ix2 p n) = b (ix1 n) := by
  refine (broadcastInDim_apply ![0, 1] hb2 _ (ix2 p n) (ix2 0 n) fun a => ?_).trans ?_
  · match a with
    | ⟨0, _⟩ => rfl
    | ⟨1, _⟩ =>
      show n.val = if N = 1 then 0 else n.val
      split
      · rename_i h1; have := n.isLt; omega
      · rfl
  · refine broadcastInDim_apply ![1] hb1 b (ix2 0 n) (ix1 n) fun a => ?_
    match a with
    | ⟨0, _⟩ =>
      show n.val = if N = 1 then 0 else n.val
      split
      · rename_i h1; have := n.isLt; omega
      · rfl

/-- The bias vector reshaped to a 1×N row, read at `(0, n)`: the vector's entry `n`. -/
theorem biasRow_apply {N : ℕ} {α : Type} (b : (⟨1, ![N]⟩ : Shape).Idx → α)
    (hsc : (⟨1, ![N]⟩ : Shape).ShapeCasts ⟨2, ![1, N]⟩) (n : Fin N) :
    shapeCast ⟨2, ![1, N]⟩ b hsc (ix2 0 n) = b (ix1 n) := by
  refine shapeCast_apply b hsc (ix2 0 n) (ix1 n) ?_
  rw [Shape.rowMajor_val_one, Shape.rowMajor_val_two]
  show n.val = (0 : Fin 1).val * _ + n.val
  simp

/-- The host's layer — join along the channel axis, one product with the whole weight, bias broadcast to every row —
    is the message of the weight's two row blocks and the bias as a row. -/
theorem edge_host_eq {E A B C N : ℕ} (hC : A + B = C)
    (D : DotDims ⟨2, ![E, C]⟩ ⟨2, ![C, N]⟩ ⟨2, ![E, N]⟩) (hD : D = DotDims.plain E C N)
    (h : FVec Ideal ⟨2, ![E, A]⟩ .f32) (e : FVec Ideal ⟨2, ![E, B]⟩ .f32) (W : FVec Ideal ⟨2, ![C, N]⟩ .f32)
    (b : FVec Ideal ⟨1, ![N]⟩ .f32)
    (hc : Shape.Concatenates [(⟨2, ![E, A]⟩ : Shape), ⟨2, ![E, B]⟩] ⟨2, ![E, C]⟩ 1)
    (hb1 : (⟨1, ![N]⟩ : Shape).BroadcastsInDim ⟨2, ![1, N]⟩ ![1])
    (hb2 : (⟨2, ![1, N]⟩ : Shape).BroadcastsInDim ⟨2, ![E, N]⟩ ![0, 1])
    (hs1 : (⟨2, ![C, N]⟩ : Shape).Slices ![0, 0] ⟨2, ![A, N]⟩)
    (hs2 : (⟨2, ![C, N]⟩ : Shape).Slices ![A, 0] ⟨2, ![B, N]⟩)
    (hsc : (⟨1, ![N]⟩ : Shape).ShapeCasts ⟨2, ![1, N]⟩) :
    addf (Host.dotGeneral (F := Ideal) D none
            (concatenate ⟨2, ![E, C]⟩ 1 [⟨⟨2, ![E, A]⟩, h⟩, ⟨⟨2, ![E, B]⟩, e⟩] hc) W)
         (broadcastInDim ⟨2, ![E, N]⟩ ![0, 1] hb2 (broadcastInDim ⟨2, ![1, N]⟩ ![1] hb1 b))
      = edgeMsg h e (extractStridedSlice ⟨2, ![A, N]⟩ ![0, 0] W hs1) (extractStridedSlice ⟨2, ![B, N]⟩ ![A, 0] W hs2)
          (shapeCast ⟨2, ![1, N]⟩ b hsc) := by
  subst hC
  funext j
  obtain ⟨p, n, rfl⟩ : ∃ (p : Fin E) (n : Fin N), j = ix2 p n := ⟨j 0, j 1, eq_ix2 j⟩
  rw [addf_apply, dotGeneral_plain_apply D hD, biasRows_apply, edgeMsg_apply, biasRow_apply, Fin.sum_univ_add]
  congr 1
  congr 1
  · refine Finset.sum_congr rfl fun k _ => ?_
    congr 1
    · refine concatenate_pair_apply_left (1 : Fin 2) h e hc (ix2 p (Fin.castAdd B k)) rfl (ix2 p k) fun b => ?_
      match b with
      | ⟨0, _⟩ => rfl
      | ⟨1, _⟩ => rfl
    · refine (extractStridedSlice_apply ![0, 0] W hs1 (ix2 k n) (ix2 (Fin.castAdd B k) n) fun a => ?_).symm
      match a with
      | ⟨0, _⟩ => show k.val = 0 + k.val; omega
      | ⟨1, _⟩ => show n.val = 0 + n.val; omega
  · refine Finset.sum_congr rfl fun k _ => ?_
    congr 1
    · refine concatenate_pair_apply_right (1 : Fin 2) h e hc (ix2 p (Fin.natAdd A k)) rfl rfl (ix2 p k)
        (fun b hb => ?_) ?_
      · match b, hb with
        | ⟨0, _⟩, _ => rfl
        | ⟨1, _⟩, hb => exact absurd rfl hb
      · show k.val + A = A + k.val; omega
    · refine (extractStridedSlice_apply ![A, 0] W hs2 (ix2 k n) (ix2 (Fin.natAdd A k) n) fun a => ?_).symm
      match a with
      | ⟨0, _⟩ => show A + k.val = A + k.val; rfl
      | ⟨1, _⟩ => show n.val = 0 + n.val; omega

/-- The host's read-out — one product with the weight, bias broadcast to every row — is the dense read-out with the
    bias as a row. -/
theorem dense_host_eq {E A N : ℕ}
    (D : DotDims ⟨2, ![E, A]⟩ ⟨2, ![A, N]⟩ ⟨2, ![E, N]⟩) (hD : D = DotDims.plain E A N)
    (h : FVec Ideal ⟨2, ![E, A]⟩ .f32) (W : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![E, N]⟩ ![0, 1])
    (hsc : (⟨1, ![N]⟩ : Shape).ShapeCasts ⟨2, ![1, N]⟩) :
    addf (Host.dotGeneral (F := Ideal) D none h W)
         (broadcastInDim ⟨2, ![E, N]⟩ ![0, 1] hb2 (broadcastInDim ⟨2, ![1, N]⟩ ![1] hb1 b))
      = denseOut h W (shapeCast ⟨2, ![1, N]⟩ b hsc) := by
  funext j
  obtain ⟨p, n, rfl⟩ : ∃ (p : Fin E) (n : Fin N), j = ix2 p n := ⟨j 0, j 1, eq_ix2 j⟩
  rw [addf_apply, dotGeneral_plain_apply D hD, biasRows_apply, denseOut_apply, biasRow_apply]

end Cert.LibGraphConv

end
-- ==== Proof.LibGcnSteps.lean ====
/-
  A graph-convolution layer taken in three steps, and three such layers as one network, over the extended reals,
  for any extents.

  For node features x (M×K), a weight w (K×N), a bias b and any operator A on M×N matrices (the neighbourhood
  aggregation: gather the rows at the edges' sources, add them into the rows at the edges' targets), one layer is
      y = A (x · w) + b            and with the positive part      y = max (A (x · w) + b) z,   z the zero of the format.
  The three steps are stated separately, each as one whole-array function read entry by entry:
      prod x w (p, n)        = Σ_k x(p, k) · w(k, n)
      addRow a r (p, n)      = a(p, n) + r(0, n)                (the bias as a 1×N row)
      addRowMax a r z (p, n) = max (a(p, n) + r(0, n)) z
  and the network of three layers is their composition around ANY two aggregation operators (one per width), which are
  never opened. Each step is then identified with its two spellings: on a block of rows, a matrix product into a zero
  accumulator of operands first rounded to a narrower format (the identity on the extended reals), and the bias row
  broadcast down the rows, added, maximum with a splat scalar; on whole arrays, the host's dot_general, the bias vector
  broadcast to a row and down the rows, added, maximum with a broadcast scalar constant. Nothing here needs an entry
  to be finite: no sum is rearranged, the two spellings compute the same sums in the same order of operations.
  Each step depends on row p of its row-indexed operand only (prod_rows, addRow_rows, addRowMax_rows), which is what
  lets a kernel that works on blocks of rows be read as the whole-array function.
-/
import proofs.«178120_j2594160246969_1_alg».proof.Proof.LibPlainMatmul
import proofs.«178120_j2594160246969_1_alg».proof.Proof.LibHostPlainDot
import proofs.«178120_j2594160246969_1_alg».proof.Proof.LibGraphConv
import proofs.«178120_j2594160246969_1_alg».proof.Proof.LibGraphConvHost
import Idealize.ShloMosaic.Lib.ValueIdx
import Idealize.ShloMosaic.Lib.Pipeline.Value
import Idealize.ShloMosaic.PureOps.Ideal.Laws

noncomputable section

namespace Cert.LibGcnSteps

open Idealize.ShloMosaic Idealize.ShloMosaic.ValueIdx Cert.LibPlainMatmul Cert.LibHostPlainDot Cert.LibGraphConv

/-! ## The three steps -/

/-- The product: entry `(p, n)` is `Σ_k x(p, k) · w(k, n)`. -/
def prod {M K N : ℕ} (x : FVec Ideal ⟨2, ![M, K]⟩ .f32) (w : FVec Ideal ⟨2, ![K, N]⟩ .f32) :
    FVec Ideal ⟨2, ![M, N]⟩ .f32 :=
  fun j => ∑ k : Fin K, x (ix2 (j 0) k) * w (ix2 k (j 1))

/-- The bias row added to every row. -/
def addRow {M N : ℕ} (a : FVec Ideal ⟨2, ![M, N]⟩ .f32) (r : FVec Ideal ⟨2, ![1, N]⟩ .f32) :
    FVec Ideal ⟨2, ![M, N]⟩ .f32 :=
  fun j => a j + r (ix2 0 (j 1))

/-- The bias row added to every row, then the maximum with `z`. -/
def addRowMax {M N : ℕ} (a : FVec Ideal ⟨2, ![M, N]⟩ .f32) (r : FVec Ideal ⟨2, ![1, N]⟩ .f32) (z : Ideal .f32) :
    FVec Ideal ⟨2, ![M, N]⟩ .f32 :=
  fun j => max (a j + r (ix2 0 (j 1))) z

theorem prod_apply {M K N : ℕ} (x : FVec Ideal ⟨2, ![M, K]⟩ .f32) (w : FVec Ideal ⟨2, ![K, N]⟩ .f32)
    (p : Fin M) (n : Fin N) : prod x w (ix2 p n) = ∑ k : Fin K, x (ix2 p k) * w (ix2 k n) := rfl

theorem addRow_apply {M N : ℕ} (a : FVec Ideal ⟨2, ![M, N]⟩ .f32) (r : FVec Ideal ⟨2, ![1, N]⟩ .f32)
    (p : Fin M) (n : Fin N) : addRow a r (ix2 p n) = a (ix2 p n) + r (ix2 0 n) := rfl

theorem addRowMax_apply {M N : ℕ} (a : FVec Ideal ⟨2, ![M, N]⟩ .f32) (r : FVec Ideal ⟨2, ![1, N]⟩ .f32)
    (z : Ideal .f32) (p : Fin M) (n : Fin N) :
    addRowMax a r z (ix2 p n) = max (a (ix2 p n) + r (ix2 0 n)) z := rfl

/-! ## Each step looks at one row of its row-indexed operand -/

/-- Row `q` of the product of a block `x'` is row `p` of the product of `x` when row `q` of `x'` is row `p` of `x`. -/
theorem prod_rows {M M' K N : ℕ} (x : FVec Ideal ⟨2, ![M, K]⟩ .f32) (x' : FVec Ideal ⟨2, ![M', K]⟩ .f32)
    (w : FVec Ideal ⟨2, ![K, N]⟩ .f32) (p : Fin M) (q : Fin M') (n : Fin N)
    (hx : ∀ k : Fin K, x' (ix2 q k) = x (ix2 p k)) : prod x' w (ix2 q n) = prod x w (ix2 p n) := by
  rw [prod_apply, prod_apply]
  exact Finset.sum_congr rfl fun k _ => by rw [hx k]

theorem addRow_rows {M M' N : ℕ} (a : FVec Ideal ⟨2, ![M, N]⟩ .f32) (a' : FVec Ideal ⟨2, ![M', N]⟩ .f32)
    (r : FVec Ideal ⟨2, ![1, N]⟩ .f32) (p : Fin M) (q : Fin M') (n : Fin N)
    (ha : a' (ix2 q n) = a (ix2 p n)) : addRow a' r (ix2 q n) = addRow a r (ix2 p n) := by
  rw [addRow_apply, addRow_apply, ha]

theorem addRowMax_rows {M M' N : ℕ} (a : FVec Ideal ⟨2, ![M, N]⟩ .f32) (a' : FVec Ideal ⟨2, ![M', N]⟩ .f32)
    (r : FVec Ideal ⟨2, ![1, N]⟩ .f32) (z : Ideal .f32) (p : Fin M) (q : Fin M') (n : Fin N)
    (ha : a' (ix2 q n) = a (ix2 p n)) : addRowMax a' r z (ix2 q n) = addRowMax a r z (ix2 p n) := by
  rw [addRowMax_apply, addRowMax_apply, ha]

/-! ## The spelling on a block of rows -/

/-- A matrix product into the zero accumulator of operands rounded to a narrower format is the product. -/
theorem prod_tile {R K N : ℕ} {ψ : FTy} (D : DotDims ⟨2, ![R, K]⟩ ⟨2, ![K, N]⟩ ⟨2, ![R, N]⟩)
    (hD : D = DotDims.plain R K N) (x : FVec Ideal ⟨2, ![R, K]⟩ .f32) (w : FVec Ideal ⟨2, ![K, N]⟩ .f32)
    (hψ : ψ.bits < FTy.bits .f32) :
    matmul D none (truncf ψ x hψ) (truncf ψ w hψ) (constant (F := Ideal) ⟨2, ![R, N]⟩ .f32 0x00000000#32) = prod x w := by
  funext j
  obtain ⟨p, n, rfl⟩ : ∃ (p : Fin R) (n : Fin N), j = ix2 p n := ⟨j 0, j 1, eq_ix2 j⟩
  rw [matmul_eq_plain_zero_apply D hD, prod_apply]
  rfl

/-- The bias row broadcast down the rows and added is `addRow`. -/
theorem addRow_tile {R N : ℕ} (a : FVec Ideal ⟨2, ![R, N]⟩ .f32) (r : FVec Ideal ⟨2, ![1, N]⟩ .f32)
    (hb : (⟨2, ![1, N]⟩ : Shape).Broadcasts ⟨2, ![R, N]⟩) :
    addf a (broadcastTo ⟨2, ![R, N]⟩ r hb) = addRow a r := by
  funext j
  obtain ⟨p, n, rfl⟩ : ∃ (p : Fin R) (n : Fin N), j = ix2 p n := ⟨j 0, j 1, eq_ix2 j⟩
  rw [addf_apply, rowBroadcast_apply, addRow_apply]

/-- The same followed by the maximum with a splat scalar is `addRowMax`. -/
theorem addRowMax_tile {R N : ℕ} (a : FVec Ideal ⟨2, ![R, N]⟩ .f32) (r : FVec Ideal ⟨2, ![1, N]⟩ .f32)
    (z : Ideal .f32) (hb : (⟨2, ![1, N]⟩ : Shape).Broadcasts ⟨2, ![R, N]⟩) :
    maximumf (addf a (broadcastTo ⟨2, ![R, N]⟩ r hb)) (broadcast ⟨2, ![R, N]⟩ z) = addRowMax a r z := by
  funext j
  obtain ⟨p, n, rfl⟩ : ∃ (p : Fin R) (n : Fin N), j = ix2 p n := ⟨j 0, j 1, eq_ix2 j⟩
  rw [maximumf_apply, addf_apply, rowBroadcast_apply, broadcast_apply, addRowMax_apply]

/-! ## The spelling on whole arrays -/

/-- The host's product with the plain dimension numbers is the product. -/
theorem prod_host {M K N : ℕ} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) :
    Host.dotGeneral (F := Ideal) D none x w = prod x w := by
  funext j
  obtain ⟨p, n, rfl⟩ : ∃ (p : Fin M) (n : Fin N), j = ix2 p n := ⟨j 0, j 1, eq_ix2 j⟩
  rw [dotGeneral_plain_apply D hD, prod_apply]

/-- The bias vector broadcast to a row and down the rows, added, is `addRow` of the vector read as a row. -/
theorem addRow_host {M N : ℕ} (a : FVec Ideal ⟨2, ![M, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hsc : (⟨1, ![N]⟩ : Shape).ShapeCasts ⟨2, ![1, N]⟩) :
    addf a (broadcastInDim ⟨2, ![M, N]⟩ ![0, 1] hb2 (broadcastInDim ⟨2, ![1, N]⟩ ![1] hb1 b))
      = addRow a (shapeCast ⟨2, ![1, N]⟩ b hsc) := by
  funext j
  obtain ⟨p, n, rfl⟩ : ∃ (p : Fin M) (n : Fin N), j = ix2 p n := ⟨j 0, j 1, eq_ix2 j⟩
  rw [addf_apply, biasRows_apply, addRow_apply, biasRow_apply]

/-- A scalar constant broadcast to any shape reads the constant's value at every index. -/
theorem splat_apply {t : Shape} (h : (⟨0, ![]⟩ : Shape).BroadcastsInDim t ![]) (bits : BitVec (FTy.bits .f32)) (j : t.Idx) :
    broadcastInDim t ![] h (constant (F := Ideal) ⟨0, ![]⟩ .f32 bits) j = Ideal.ofBits .f32 bits := by
  rw [broadcastInDim_apply ![] h _ j ix0 (fun a => a.elim0), constant_apply]

/-- The same followed by the maximum with a broadcast scalar constant is `addRowMax` at that constant's value. -/
theorem addRowMax_host {M N : ℕ} (a : FVec Ideal ⟨2, ![M, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (hsc : (⟨1, ![N]⟩ : Shape).ShapeCasts ⟨2, ![1, N]⟩)
    (hz : (⟨0, ![]⟩ : Shape).BroadcastsInDim ⟨2, ![M, N]⟩ ![]) (bits : BitVec (FTy.bits .f32)) :
    maximumf (addf a (broadcastInDim ⟨2, ![M, N]⟩ ![0, 1] hb2 (broadcastInDim ⟨2, ![1, N]⟩ ![1] hb1 b)))
        (broadcastInDim ⟨2, ![M, N]⟩ ![] hz (constant (F := Ideal) ⟨0, ![]⟩ .f32 bits))
      = addRowMax a (shapeCast ⟨2, ![1, N]⟩ b hsc) (Ideal.ofBits .f32 bits) := by
  funext j
  obtain ⟨p, n, rfl⟩ : ∃ (p : Fin M) (n : Fin N), j = ix2 p n := ⟨j 0, j 1, eq_ix2 j⟩
  rw [maximumf_apply, addf_apply, biasRows_apply, splat_apply, addRowMax_apply, biasRow_apply]

/-! ## Three layers as one network -/

/-- Three layers around any aggregation operators `A` (on M×H matrices) and `A'` (on M×C): the first two with the
    positive part against `z`, the last without. The biases are rows. -/
def net {M K H C : ℕ} (A : FVec Ideal ⟨2, ![M, H]⟩ .f32 → FVec Ideal ⟨2, ![M, H]⟩ .f32)
    (A' : FVec Ideal ⟨2, ![M, C]⟩ .f32 → FVec Ideal ⟨2, ![M, C]⟩ .f32) (z : Ideal .f32)
    (x : FVec Ideal ⟨2, ![M, K]⟩ .f32) (w0 : FVec Ideal ⟨2, ![K, H]⟩ .f32) (r0 : FVec Ideal ⟨2, ![1, H]⟩ .f32)
    (w1 : FVec Ideal ⟨2, ![H, H]⟩ .f32) (r1 : FVec Ideal ⟨2, ![1, H]⟩ .f32)
    (w2 : FVec Ideal ⟨2, ![H, C]⟩ .f32) (r2 : FVec Ideal ⟨2, ![1, C]⟩ .f32) : FVec Ideal ⟨2, ![M, C]⟩ .f32 :=
  addRow (A' (prod (addRowMax (A (prod (addRowMax (A (prod x w0)) r0 z) w1)) r1 z) w2)) r2

end Cert.LibGcnSteps

end
-- ==== Proof.LibHyperLayer.lean ====
/-
  The closing step of one hypergraph-convolution layer, on the extended reals and for any extents: every entry of an
  M×N matrix `a` is scaled by its row's entry of an M×1 column `d`, a 1×N row `b` is added, and (in the inner layers)
  the exponential linear unit follows: `z` for `z > 0`, `e^z − 1` otherwise.
  The step is stated once as a function of whole arrays (`scaleBias`, `scaleBiasElu`), shown to look at one row of its
  row-indexed operands only (so a kernel that works on blocks of rows computes the whole-array function block by block),
  and met in two spellings: on a block of rows (operands cast to their own shapes, the column broadcast across, the row
  broadcast down, `a·d + b`, then a select between `z` and `exp z − 1` on `z > 0`) and on whole arrays (the column and the
  row made from vectors by two `broadcast_in_dim`s each, `d·a + b` with the factors in the other order, then
  `select (z > 0) z (1 · expm1 (select (z > 0) 0 z))`). Commutativity of the product, `1·y = y` and `expm1 z = e^z − 1`
  are all that joins them; nothing is asked to be finite.
-/
import proofs.«178120_j2594160246969_1_alg».proof.Proof.LibGraphConv
import proofs.«178120_j2594160246969_1_alg».proof.Proof.LibGraphConvHost
import proofs.«178120_j2594160246969_1_alg».proof.Proof.LibGcnSteps
import Idealize.ShloMosaic.Lib.ValueIdx
import Idealize.ShloMosaic.Lib.Pipeline.Value
import Idealize.ShloMosaic.Lib.IdealHost
import Idealize.ShloMosaic.PureOps.Ideal.Laws

noncomputable section

namespace Cert.LibHyperLayer

open Idealize.ShloMosaic Idealize.ShloMosaic.ValueIdx Cert.LibGraphConv Cert.LibGcnSteps

/-! ## The step as a function of whole arrays -/

/-- The exponential linear unit on the extended reals: `z` where `z > 0`, `e^z − 1` elsewhere (so `−1` at `−∞`). -/
def elu (z : EReal) : EReal := if 0 < z then z else Ideal.exp z - 1

/-- Entry `(p, n)` is `a(p, n) · d(p, 0) + b(0, n)`. -/
def scaleBias {M N : ℕ} (a : FVec Ideal ⟨2, ![M, N]⟩ .f32) (d : FVec Ideal ⟨2, ![M, 1]⟩ .f32)
    (b : FVec Ideal ⟨2, ![1, N]⟩ .f32) : FVec Ideal ⟨2, ![M, N]⟩ .f32 :=
  fun j => a j * d (ix2 (j 0) 0) + b (ix2 0 (j 1))

/-- The same followed by the exponential linear unit. -/
def scaleBiasElu {M N : ℕ} (a : FVec Ideal ⟨2, ![M, N]⟩ .f32) (d : FVec Ideal ⟨2, ![M, 1]⟩ .f32)
    (b : FVec Ideal ⟨2, ![1, N]⟩ .f32) : FVec Ideal ⟨2, ![M, N]⟩ .f32 :=
  fun j => elu (scaleBias a d b j)

theorem scaleBias_apply {M N : ℕ} (a : FVec Ideal ⟨2, ![M, N]⟩ .f32) (d : FVec Ideal ⟨2, ![M, 1]⟩ .f32)
    (b : FVec Ideal ⟨2, ![1, N]⟩ .f32) (p : Fin M) (n : Fin N) :
    scaleBias a d b (ix2 p n) = a (ix2 p n) * d (ix2 p 0) + b (ix2 0 n) := rfl

theorem scaleBiasElu_apply {M N : ℕ} (a : FVec Ideal ⟨2, ![M, N]⟩ .f32) (d : FVec Ideal ⟨2, ![M, 1]⟩ .f32)
    (b : FVec Ideal ⟨2, ![1, N]⟩ .f32) (p : Fin M) (n : Fin N) :
    scaleBiasElu a d b (ix2 p n) = elu (a (ix2 p n) * d (ix2 p 0) + b (ix2 0 n)) := rfl

/-! ## Entry `(p, n)` depends on row `p` of the matrix and of the column only -/

/-- Row `q` of the step on a block `a'`, `d'` is row `p` of the step on `a`, `d` when the block's row `q` is their row `p`. -/
theorem scaleBias_rows {M M' N : ℕ} (a : FVec Ideal ⟨2, ![M, N]⟩ .f32) (a' : FVec Ideal ⟨2, ![M', N]⟩ .f32)
    (d : FVec Ideal ⟨2, ![M, 1]⟩ .f32) (d' : FVec Ideal ⟨2, ![M', 1]⟩ .f32) (b : FVec Ideal ⟨2, ![1, N]⟩ .f32)
    (p : Fin M) (q : Fin M') (n : Fin N) (ha : a' (ix2 q n) = a (ix2 p n)) (hd : d' (ix2 q 0) = d (ix2 p 0)) :
    scaleBias a' d' b (ix2 q n) = scaleBias a d b (ix2 p n) := by
  rw [scaleBias_apply, scaleBias_apply, ha, hd]

theorem scaleBiasElu_rows {M M' N : ℕ} (a : FVec Ideal ⟨2, ![M, N]⟩ .f32) (a' : FVec Ideal ⟨2, ![M', N]⟩ .f32)
    (d : FVec Ideal ⟨2, ![M, 1]⟩ .f32) (d' : FVec Ideal ⟨2, ![M', 1]⟩ .f32) (b : FVec Ideal ⟨2, ![1, N]⟩ .f32)
    (p : Fin M) (q : Fin M') (n : Fin N) (ha : a' (ix2 q n) = a (ix2 p n)) (hd : d' (ix2 q 0) = d (ix2 p 0)) :
    scaleBiasElu a' d' b (ix2 q n) = scaleBiasElu a d b (ix2 p n) := by
  rw [scaleBiasElu_apply, scaleBiasElu_apply, ha, hd]

/-! ## A column read at an index -/

/-- An R×1 column broadcast across N columns, read at `(p, n)`: the column's entry `p`. -/
theorem colBroadcast_apply {R N : ℕ} {α : Type} (x : (⟨2, ![R, 1]⟩ : Shape).Idx → α)
    (hb : (⟨2, ![R, 1]⟩ : Shape).Broadcasts ⟨2, ![R, N]⟩) (p : Fin R) (n : Fin N) :
    broadcastTo ⟨2, ![R, N]⟩ x hb (ix2 p n) = x (ix2 p 0) := by
  refine broadcastTo_apply x hb (ix2 p n) (ix2 p 0) fun a => ?_
  match a with
  | ⟨0, _⟩ =>
    show p.val = if R = 1 then 0 else p.val
    split
    · rename_i h1; have := p.isLt; omega
    · rfl
  | ⟨1, _⟩ => rfl

/-- A length-M vector made an M×1 column and broadcast across N columns (two `broadcast_in_dim`s), read at `(p, n)`:
    the vector's entry `p`. -/
theorem colVec_apply {M N : ℕ} {α : Type} (d : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (n : Fin N) :
    broadcastInDim ⟨2, ![M, N]⟩ ![0, 1] h2 (broadcastInDim ⟨2, ![M, 1]⟩ ![0] h1 d) (ix2 p n) = d (ix1 p) := by
  refine (broadcastInDim_apply ![0, 1] h2 _ (ix2 p n) (ix2 p 0) fun a => ?_).trans ?_
  · match a with
    | ⟨0, _⟩ =>
      show p.val = if M = 1 then 0 else p.val
      split
      · rename_i h1; have := p.isLt; omega
      · rfl
    | ⟨1, _⟩ => rfl
  · refine broadcastInDim_apply ![0] h1 d (ix2 p 0) (ix1 p) fun a => ?_
    match a with
    | ⟨0, _⟩ =>
      show p.val = if M = 1 then 0 else p.val
      split
      · rename_i h1; have := p.isLt; omega
      · rfl

/-- A length-M vector reshaped to an M×1 column, read at `(p, 0)`: the vector's entry `p`. -/
theorem colCast_apply {M : ℕ} {α : Type} (d : (⟨1, ![M]⟩ : Shape).Idx → α)
    (hsc : (⟨1, ![M]⟩ : Shape).ShapeCasts ⟨2, ![M, 1]⟩) (p : Fin M) :
    shapeCast ⟨2, ![M, 1]⟩ d hsc (ix2 p 0) = d (ix1 p) := by
  refine shapeCast_apply d hsc (ix2 p 0) (ix1 p) ?_
  rw [Shape.rowMajor_val_one, Shape.rowMajor_val_two]
  show p.val = p.val * _ + (0 : Fin 1).val
  simp

/-! ## The exponential linear unit in its two spellings -/

/-- `select (z > 0) z (exp z − 1)`, the zero and the one splat scalars, is the unit entry by entry. -/
theorem elu_tile {s : Shape} (z : FVec Ideal s .f32) :
    select (cmpf .ogt z (broadcast s (Scalar.ofBits (F := Ideal) .f32 0x00000000#32))) z
        (subf (exp z) (broadcast s (Scalar.ofBits (F := Ideal) .f32 0x3F800000#32)))
      = fun j => elu (z j) := by
  funext j
  rw [select_apply, cmpf_apply, subf_apply, broadcast_apply, broadcast_apply]
  show Scalar.select (Ideal.cmp .ogt (z j) (Ideal.ofBits .f32 0x00000000#32)) (z j) (Ideal.exp (z j) - Ideal.ofBits .f32 0x3F800000#32) = _
  rw [Ideal.ofBits_zero_f32, Ideal.ofBits_one_f32]
  unfold elu Scalar.select Ideal.cmp
  by_cases h : 0 < z j <;> simp [h]

/-- `select (z > 0) z (1 · expm1 (select (z > 0) 0 z))`, the constants broadcast scalars, is the unit entry by entry. -/
theorem elu_host {s : Shape} (z : FVec Ideal s .f32) (h0 : (⟨0, ![]⟩ : Shape).BroadcastsInDim s ![]) :
    select (cmpf .ogt z (broadcastInDim s ![] h0 (constant (F := Ideal) ⟨0, ![]⟩ .f32 0x00000000#32))) z
        (mulf (broadcastInDim s ![] h0 (constant (F := Ideal) ⟨0, ![]⟩ .f32 0x3F800000#32))
          (Host.expm1 (select (cmpf .ogt z (broadcastInDim s ![] h0 (constant (F := Ideal) ⟨0, ![]⟩ .f32 0x00000000#32)))
            (broadcastInDim s ![] h0 (id (constant (F := Ideal) ⟨0, ![]⟩ .f32 0x00000000#32))) z)))
      = fun j => elu (z j) := by
  funext j
  rw [select_apply, cmpf_apply, mulf_apply, splat_apply, splat_apply]
  show Scalar.select (Ideal.cmp .ogt (z j) (Ideal.ofBits .f32 0x00000000#32)) (z j)
      (Ideal.ofBits .f32 0x3F800000#32 * (Ideal.exp (select (cmpf .ogt z (broadcastInDim s ![] h0 (constant (F := Ideal) ⟨0, ![]⟩ .f32 0x00000000#32)))
            (broadcastInDim s ![] h0 (id (constant (F := Ideal) ⟨0, ![]⟩ .f32 0x00000000#32))) z j) - 1)) = _
  rw [select_apply, cmpf_apply, splat_apply, id, splat_apply, Ideal.ofBits_zero_f32, Ideal.ofBits_one_f32, one_mul]
  show Scalar.select (Ideal.cmp .ogt (z j) 0) (z j) (Ideal.exp (Scalar.select (Ideal.cmp .ogt (z j) 0) 0 (z j)) - 1) = _
  unfold elu Scalar.select Ideal.cmp
  by_cases h : 0 < z j <;> simp [h]

/-! ## The step in its two spellings -/

/-- On a block of rows: the operands cast to their own shapes, the column broadcast across and the row down. -/
theorem scaleBias_tile {R N : ℕ} (a : FVec Ideal ⟨2, ![R, N]⟩ .f32) (d : FVec Ideal ⟨2, ![R, 1]⟩ .f32)
    (b : FVec Ideal ⟨2, ![1, N]⟩ .f32)
    (ha : (⟨2, ![R, N]⟩ : Shape).ShapeCasts ⟨2, ![R, N]⟩) (hd : (⟨2, ![R, 1]⟩ : Shape).ShapeCasts ⟨2, ![R, 1]⟩)
    (hb : (⟨2, ![1, N]⟩ : Shape).ShapeCasts ⟨2, ![1, N]⟩)
    (hdb : (⟨2, ![R, 1]⟩ : Shape).Broadcasts ⟨2, ![R, N]⟩) (hbb : (⟨2, ![1, N]⟩ : Shape).Broadcasts ⟨2, ![R, N]⟩) :
    addf (mulf (shapeCast ⟨2, ![R, N]⟩ a ha) (broadcastTo ⟨2, ![R, N]⟩ (shapeCast ⟨2, ![R, 1]⟩ d hd) hdb))
        (broadcastTo ⟨2, ![R, N]⟩ (shapeCast ⟨2, ![1, N]⟩ b hb) hbb)
      = scaleBias a d b := by
  rw [shapeCast_self, shapeCast_self, shapeCast_self]
  funext j
  obtain ⟨p, n, rfl⟩ : ∃ (p : Fin R) (n : Fin N), j = ix2 p n := ⟨j 0, j 1, eq_ix2 j⟩
  rw [addf_apply, mulf_apply, colBroadcast_apply, rowBroadcast_apply, scaleBias_apply]

/-- The same followed by the unit's block spelling. -/
theorem scaleBiasElu_tile {R N : ℕ} (a : FVec Ideal ⟨2, ![R, N]⟩ .f32) (d : FVec Ideal ⟨2, ![R, 1]⟩ .f32)
    (b : FVec Ideal ⟨2, ![1, N]⟩ .f32)
    (ha : (⟨2, ![R, N]⟩ : Shape).ShapeCasts ⟨2, ![R, N]⟩) (hd : (⟨2, ![R, 1]⟩ : Shape).ShapeCasts ⟨2, ![R, 1]⟩)
    (hb : (⟨2, ![1, N]⟩ : Shape).ShapeCasts ⟨2, ![1, N]⟩)
    (hdb : (⟨2, ![R, 1]⟩ : Shape).Broadcasts ⟨2, ![R, N]⟩) (hbb : (⟨2, ![1, N]⟩ : Shape).Broadcasts ⟨2, ![R, N]⟩) :
    select (cmpf .ogt (addf (mulf (shapeCast ⟨2, ![R, N]⟩ a ha) (broadcastTo ⟨2, ![R, N]⟩ (shapeCast ⟨2, ![R, 1]⟩ d hd) hdb))
          (broadcastTo ⟨2, ![R, N]⟩ (shapeCast ⟨2, ![1, N]⟩ b hb) hbb))
        (broadcast ⟨2, ![R, N]⟩ (Scalar.ofBits (F := Ideal) .f32 0x00000000#32)))
      (addf (mulf (shapeCast ⟨2, ![R, N]⟩ a ha) (broadcastTo ⟨2, ![R, N]⟩ (shapeCast ⟨2, ![R, 1]⟩ d hd) hdb))
          (broadcastTo ⟨2, ![R, N]⟩ (shapeCast ⟨2, ![1, N]⟩ b hb) hbb))
      (subf (exp (addf (mulf (shapeCast ⟨2, ![R, N]⟩ a ha) (broadcastTo ⟨2, ![R, N]⟩ (shapeCast ⟨2, ![R, 1]⟩ d hd) hdb))
          (broadcastTo ⟨2, ![R, N]⟩ (shapeCast ⟨2, ![1, N]⟩ b hb) hbb)))
        (broadcast ⟨2, ![R, N]⟩ (Scalar.ofBits (F := Ideal) .f32 0x3F800000#32)))
      = scaleBiasElu a d b := by
  rw [scaleBias_tile a d b ha hd hb hdb hbb]
  exact elu_tile _

/-- On whole arrays: the column and the row made from vectors, the product with the broadcast column on the LEFT. -/
theorem scaleBias_host {M N : ℕ} (a : FVec Ideal ⟨2, ![M, N]⟩ .f32) (d : FVec Ideal ⟨1, ![M]⟩ .f32)
    (b : FVec Ideal ⟨1, ![N]⟩ .f32)
    (hd1 : (⟨1, ![M]⟩ : Shape).BroadcastsInDim ⟨2, ![M, 1]⟩ ![0])
    (hd2 : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (hdc : (⟨1, ![M]⟩ : Shape).ShapeCasts ⟨2, ![M, 1]⟩) (hbc : (⟨1, ![N]⟩ : Shape).ShapeCasts ⟨2, ![1, N]⟩) :
    addf (mulf (broadcastInDim ⟨2, ![M, N]⟩ ![0, 1] hd2 (broadcastInDim ⟨2, ![M, 1]⟩ ![0] hd1 d)) a)
        (broadcastInDim ⟨2, ![M, N]⟩ ![0, 1] hb2 (broadcastInDim ⟨2, ![1, N]⟩ ![1] hb1 b))
      = scaleBias a (shapeCast ⟨2, ![M, 1]⟩ d hdc) (shapeCast ⟨2, ![1, N]⟩ b hbc) := by
  funext j
  obtain ⟨p, n, rfl⟩ : ∃ (p : Fin M) (n : Fin N), j = ix2 p n := ⟨j 0, j 1, eq_ix2 j⟩
  rw [addf_apply, mulf_apply, colVec_apply, biasRows_apply, scaleBias_apply, colCast_apply, biasRow_apply, mul_comm]

end Cert.LibHyperLayer

end
-- ==== Proof.RefSpec.lean ====
/-
  The reference network as one function of its nine arguments, in the reference program's own spelling of the steps both
  programs share: the degree of every node and of every hyperedge (a scatter-add of ones through the incidence lists) and
  their reciprocals where positive; the two-stage aggregation of one layer (gather the nodes' rows at the incidences,
  scatter-add them into the hyperedges, scale by the hyperedge reciprocal, gather the hyperedges' rows at the incidences,
  scatter-add them into the nodes; a negative index is first wrapped by the extent, as `x[idx]` does). Around them the three
  layers: the product with the weight (`prod`), the aggregation, the node reciprocal times the aggregate plus the bias
  (`scaleBias`), and in the first two layers the exponential linear unit (`scaleBiasElu`). The shared steps are never
  opened: both programs apply these very operations, so they are carried as named functions.
-/
import proofs.«178120_j2594160246969_1_alg».proof.ReferenceIdeal
import proofs.«178120_j2594160246969_1_alg».proof.Proof.LibGcnSteps
import proofs.«178120_j2594160246969_1_alg».proof.Proof.LibHyperLayer

noncomputable section

namespace Cert.RefSpec

open Idealize.ShloMosaic Cert.ReferenceIdeal Cert.ReferenceIdeal.Facts₀ Cert.LibGcnSteps Cert.LibHyperLayer

variable [Cert.ReferenceIdeal.Facts]

theorem casts_col : S100000.ShapeCasts S100000x1 := by decide
theorem casts_row256 : S256.ShapeCasts S1x256 := by decide
theorem casts_row40 : S40.ShapeCasts S1x40 := by decide

/-- The number of incidences that name each node. -/
def nodeDeg (i : (⟨S1000000, .i32⟩ : BufTy).Contents (Elt Ideal)) : (⟨S100000, .f32⟩ : BufTy).Contents (Elt Ideal) :=
  Host.scatterAdd scatter_S100000_S1000000x1_S1000000_n_0_0_1
    (broadcastInDim S100000 ![] bcast_S_S100000 (constant (F := Ideal) S_ .f32 0x00000000#32))
    (broadcastInDim S1000000x1 ![0] bcast_S1000000_S1000000x1_0 i)
    (broadcastInDim S1000000 ![] bcast_S_S1000000 (constant (F := Ideal) S_ .f32 0x3F800000#32))

/-- Its reciprocal where it is positive, zero elsewhere. -/
def dinv (i : (⟨S1000000, .i32⟩ : BufTy).Contents (Elt Ideal)) : (⟨S100000, .f32⟩ : BufTy).Contents (Elt Ideal) :=
  select (cmpf .ogt (nodeDeg i) (broadcastInDim S100000 ![] bcast_S_S100000 (constant (F := Ideal) S_ .f32 0x00000000#32)))
    (Host.divf (broadcastInDim S100000 ![] bcast_S_S100000 (constant (F := Ideal) S_ .f32 0x3F800000#32)) (nodeDeg i))
    (broadcastInDim S100000 ![] bcast_S_S100000 (id (constant (F := Ideal) S_ .f32 0x00000000#32)))

/-- The number of incidences that name each hyperedge. -/
def edgeDeg (i : (⟨S1000000, .i32⟩ : BufTy).Contents (Elt Ideal)) : (⟨S20000, .f32⟩ : BufTy).Contents (Elt Ideal) :=
  Host.scatterAdd scatter_S20000_S1000000x1_S1000000_n_0_0_1
    (broadcastInDim S20000 ![] bcast_S_S20000 (constant (F := Ideal) S_ .f32 0x00000000#32))
    (broadcastInDim S1000000x1 ![0] bcast_S1000000_S1000000x1_0 i)
    (broadcastInDim S1000000 ![] bcast_S_S1000000 (constant (F := Ideal) S_ .f32 0x3F800000#32))

/-- Its reciprocal where it is positive, zero elsewhere. -/
def binv (i : (⟨S1000000, .i32⟩ : BufTy).Contents (Elt Ideal)) : (⟨S20000, .f32⟩ : BufTy).Contents (Elt Ideal) :=
  select (cmpf .ogt (edgeDeg i) (broadcastInDim S20000 ![] bcast_S_S20000 (constant (F := Ideal) S_ .f32 0x00000000#32)))
    (Host.divf (broadcastInDim S20000 ![] bcast_S_S20000 (constant (F := Ideal) S_ .f32 0x3F800000#32)) (edgeDeg i))
    (broadcastInDim S20000 ![] bcast_S_S20000 (id (constant (F := Ideal) S_ .f32 0x00000000#32)))

/-- The node indices as a column of start indices, a negative one wrapped by the number of nodes. -/
def wrapN (i : (⟨S1000000, .i32⟩ : BufTy).Contents (Elt Ideal)) : (⟨S1000000x1, .i32⟩ : BufTy).Contents (Elt Ideal) :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 100000#32))) i)

/-- The hyperedge indices as a column of start indices, a negative one wrapped by the number of hyperedges. -/
def wrapE (i : (⟨S1000000, .i32⟩ : BufTy).Contents (Elt Ideal)) : (⟨S1000000x1, .i32⟩ : BufTy).Contents (Elt Ideal) :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 20000#32))) i)

/-- One aggregation over the incidence list at 256 channels: the rows of `xw` at each incidence's node summed into its
    hyperedge, each hyperedge's row scaled by `bi`, and the rows at each incidence's hyperedge summed into its node. -/
def agg256 (xw : (⟨S100000x256, .f32⟩ : BufTy).Contents (Elt Ideal)) (i1 i2 : (⟨S1000000, .i32⟩ : BufTy).Contents (Elt Ideal)) (bi : (⟨S20000, .f32⟩ : BufTy).Contents (Elt Ideal)) :
    (⟨S100000x256, .f32⟩ : BufTy).Contents (Elt Ideal) :=
  Host.scatterAdd scatter_S100000x256_S1000000x1_S1000000x256_1_0_0_1
    (broadcastInDim S100000x256 ![] bcast_S_S100000x256 (constant (F := Ideal) S_ .f32 0x00000000#32))
    (broadcastInDim S1000000x1 ![0] bcast_S1000000_S1000000x1_0 i1)
    (Host.gather gather_S20000x256_S1000000x1_S1000000x256_1_0_n_n_0_1_1256
      (mulf (broadcastInDim S20000x256 ![0, 1] bcast_S20000x1_S20000x256_0_1 (broadcastInDim S20000x1 ![0] bcast_S20000_S20000x1_0 bi))
        (Host.scatterAdd scatter_S20000x256_S1000000x1_S1000000x256_1_0_0_1
          (broadcastInDim S20000x256 ![] bcast_S_S20000x256 (constant (F := Ideal) S_ .f32 0x00000000#32))
          (broadcastInDim S1000000x1 ![0] bcast_S1000000_S1000000x1_0 i2)
          (Host.gather gather_S100000x256_S1000000x1_S1000000x256_1_0_n_n_0_1_1256 xw (wrapN i1))))
      (wrapE i2))

/-- One aggregation over the incidence list at 40 channels: the rows of `xw` at each incidence's node summed into its
    hyperedge, each hyperedge's row scaled by `bi`, and the rows at each incidence's hyperedge summed into its node. -/
def agg40 (xw : (⟨S100000x40, .f32⟩ : BufTy).Contents (Elt Ideal)) (i1 i2 : (⟨S1000000, .i32⟩ : BufTy).Contents (Elt Ideal)) (bi : (⟨S20000, .f32⟩ : BufTy).Contents (Elt Ideal)) :
    (⟨S100000x40, .f32⟩ : BufTy).Contents (Elt Ideal) :=
  Host.scatterAdd scatter_S100000x40_S1000000x1_S1000000x40_1_0_0_1
    (broadcastInDim S100000x40 ![] bcast_S_S100000x40 (constant (F := Ideal) S_ .f32 0x00000000#32))
    (broadcastInDim S1000000x1 ![0] bcast_S1000000_S1000000x1_0 i1)
    (Host.gather gather_S20000x40_S1000000x1_S1000000x40_1_0_n_n_0_1_140
      (mulf (broadcastInDim S20000x40 ![0, 1] bcast_S20000x1_S20000x40_0_1 (broadcastInDim S20000x1 ![0] bcast_S20000_S20000x1_0 bi))
        (Host.scatterAdd scatter_S20000x40_S1000000x1_S1000000x40_1_0_0_1
          (broadcastInDim S20000x40 ![] bcast_S_S20000x40 (constant (F := Ideal) S_ .f32 0x00000000#32))
          (broadcastInDim S1000000x1 ![0] bcast_S1000000_S1000000x1_0 i2)
          (Host.gather gather_S100000x40_S1000000x1_S1000000x40_1_0_n_n_0_1_140 xw (wrapN i1))))
      (wrapE i2))

/-- A vector of node values as a column. -/
def col (d : (⟨S100000, .f32⟩ : BufTy).Contents (Elt Ideal)) : FVec Ideal ⟨2, ![100000, 1]⟩ .f32 := shapeCast S100000x1 d casts_col
/-- A bias vector as a row. -/
def row256 (b : (⟨S256, .f32⟩ : BufTy).Contents (Elt Ideal)) : FVec Ideal ⟨2, ![1, 256]⟩ .f32 := shapeCast S1x256 b casts_row256
def row40 (b : (⟨S40, .f32⟩ : BufTy).Contents (Elt Ideal)) : FVec Ideal ⟨2, ![1, 40]⟩ .f32 := shapeCast S1x40 b casts_row40

/-- The first layer's output. -/
def layer1 (x : (⟨S100000x128, .f32⟩ : BufTy).Contents (Elt Ideal)) (i1 i2 : (⟨S1000000, .i32⟩ : BufTy).Contents (Elt Ideal)) (W1 : (⟨S128x256, .f32⟩ : BufTy).Contents (Elt Ideal)) (b1 : (⟨S256, .f32⟩ : BufTy).Contents (Elt Ideal)) :
    (⟨S100000x256, .f32⟩ : BufTy).Contents (Elt Ideal) :=
  scaleBiasElu (M := 100000) (N := 256) (agg256 (prod (M := 100000) (K := 128) (N := 256) x W1) i1 i2 (binv i2)) (col (dinv i1)) (row256 b1)

/-- An inner layer on 256 channels. -/
def layer2 (h : (⟨S100000x256, .f32⟩ : BufTy).Contents (Elt Ideal)) (i1 i2 : (⟨S1000000, .i32⟩ : BufTy).Contents (Elt Ideal)) (W2 : (⟨S256x256, .f32⟩ : BufTy).Contents (Elt Ideal)) (b2 : (⟨S256, .f32⟩ : BufTy).Contents (Elt Ideal)) :
    (⟨S100000x256, .f32⟩ : BufTy).Contents (Elt Ideal) :=
  scaleBiasElu (M := 100000) (N := 256) (agg256 (prod (M := 100000) (K := 256) (N := 256) h W2) i1 i2 (binv i2)) (col (dinv i1)) (row256 b2)

/-- The last layer, to 40 channels, with no unit after it. -/
def layer3 (h : (⟨S100000x256, .f32⟩ : BufTy).Contents (Elt Ideal)) (i1 i2 : (⟨S1000000, .i32⟩ : BufTy).Contents (Elt Ideal)) (W3 : (⟨S256x40, .f32⟩ : BufTy).Contents (Elt Ideal)) (b3 : (⟨S40, .f32⟩ : BufTy).Contents (Elt Ideal)) :
    (⟨S100000x40, .f32⟩ : BufTy).Contents (Elt Ideal) :=
  scaleBias (M := 100000) (N := 40) (agg40 (prod (M := 100000) (K := 256) (N := 40) h W3) i1 i2 (binv i2)) (col (dinv i1)) (row40 b3)

/-- The network. -/
def out (x : (⟨S100000x128, .f32⟩ : BufTy).Contents (Elt Ideal)) (i1 i2 : (⟨S1000000, .i32⟩ : BufTy).Contents (Elt Ideal)) (W1 : (⟨S128x256, .f32⟩ : BufTy).Contents (Elt Ideal)) (b1 : (⟨S256, .f32⟩ : BufTy).Contents (Elt Ideal))
    (W2 : (⟨S256x256, .f32⟩ : BufTy).Contents (Elt Ideal)) (b2 : (⟨S256, .f32⟩ : BufTy).Contents (Elt Ideal)) (W3 : (⟨S256x40, .f32⟩ : BufTy).Contents (Elt Ideal)) (b3 : (⟨S40, .f32⟩ : BufTy).Contents (Elt Ideal)) :
    (⟨S100000x40, .f32⟩ : BufTy).Contents (Elt Ideal) :=
  layer3 (layer2 (layer1 x i1 i2 W1 b1) i1 i2 W2 b2) i1 i2 W3 b3

end Cert.RefSpec

end
-- ==== Proof.RefRead.lean ====
/-
  The reference line's result as the network of three hypergraph-convolution layers.
  Each named step of the network is met at the buffer that holds it after the whole line: the operations that make it
  are read one at a time (each buffer holds its operation's function of its operands' buffers) down to the buffers
  of the step's own inputs, and the composed term IS the step as the network spells it — by definition for the degree
  reciprocals and the two-stage aggregation, whose operations the network keeps as they are; through the whole-array
  reading of the product (dot_general = Σ_k x(p,k)·w(k,n)), of the scale-and-bias (d·a + b with the factors swapped) and
  of the exponential linear unit (select (z > 0) z (1·expm1 (select (z > 0) 0 z))) for the three steps the network states
  entry by entry. The three layers then compose by rewriting.
-/
import proofs.«178120_j2594160246969_1_alg».proof.Proof.RefStagesA
import proofs.«178120_j2594160246969_1_alg».proof.Proof.RefStagesB
import proofs.«178120_j2594160246969_1_alg».proof.Proof.RefSpec

noncomputable section

namespace Cert.ReferenceIdeal.HandRead

open Cert.ReferenceIdeal Cert.ReferenceIdeal.Gen Idealize.ShloMosaic Idealize.ShloMosaic.TcCoe Idealize.SL.Sem Idealize.ShloMosaic.StableHlo
open Cert.ReferenceIdeal.HandRun

local notation "R" => after (HandRun.ops (F := Ideal))

/-- The reciprocal of every node's degree where it is positive. -/
theorem v11_eq (V : Valuation τ sig (Elt Ideal)) :
    R V (Proc.devRef .tc main_v11) = Cert.RefSpec.dinv (V (Proc.devRef .tc main_arg1)) := by
  rw [st_main_v11 V, st_main_call0_v1 V, st_main_call0_v0 V, st_main_cst_4 V, st_main_v10 V, st_main_v9 V,
    st_main_cst_3 V, st_main_v8 V, st_main_v7 V, st_main_cst_2 V, st_main_v3 V, st_main_v2 V,
    st_main_v1 V, st_main_cst_0 V, st_main_v0 V, st_main_cst V, main_arg1_eq V]
  rfl

/-- The reciprocal of every hyperedge's degree where it is positive. -/
theorem v16_eq (V : Valuation τ sig (Elt Ideal)) :
    R V (Proc.devRef .tc main_v16) = Cert.RefSpec.binv (V (Proc.devRef .tc main_arg2)) := by
  rw [st_main_v16 V, st_main_call1_v1 V, st_main_call1_v0 V, st_main_cst_7 V, st_main_v15 V, st_main_v14 V,
    st_main_cst_6 V, st_main_v13 V, st_main_v12 V, st_main_cst_5 V, st_main_v6 V, st_main_v5 V,
    st_main_v4 V, st_main_cst_1 V, st_main_v0 V, st_main_cst V, main_arg2_eq V]
  rfl

/-- Layer 1: the product with the weight. -/
theorem v17_eq (V : Valuation τ sig (Elt Ideal)) :
    R V (Proc.devRef .tc main_v17) = Cert.LibGcnSteps.prod (M := 100000) (K := 128) (N := 256) (V (Proc.devRef .tc main_arg0)) (V (Proc.devRef .tc main_arg3)) := by
  rw [st_main_v17 V, main_arg0_eq V, main_arg3_eq V]
  exact Cert.LibGcnSteps.prod_host _ rfl _ _

/-- Layer 1: the two-stage aggregation over the incidence list. -/
theorem v40_eq (V : Valuation τ sig (Elt Ideal)) :
    R V (Proc.devRef .tc main_v40) = Cert.RefSpec.agg256 (R V (Proc.devRef .tc main_v17)) (V (Proc.devRef .tc main_arg1)) (V (Proc.devRef .tc main_arg2)) (R V (Proc.devRef .tc main_v16)) := by
  rw [st_main_v40 V, st_main_v39 V, st_main_v38 V, st_main_cst_12 V, st_main_v37 V, st_main_v36 V,
    st_main_v35 V, st_main_v34 V, st_main_v33 V, st_main_c_11 V, st_main_v32 V, st_main_v31 V,
    st_main_c_10 V, st_main_v30 V, st_main_v29 V, st_main_v28 V, st_main_v27 V, st_main_v26 V,
    st_main_v25 V, st_main_cst_9 V, st_main_v24 V, st_main_v23 V, st_main_v22 V, st_main_v21 V,
    st_main_v20 V, st_main_c_8 V, st_main_v19 V, st_main_v18 V, st_main_c V, main_arg1_eq V,
    main_arg2_eq V]
  rfl

/-- Layer 1: the node reciprocal times the aggregate, plus the bias. -/
theorem v46_eq (V : Valuation τ sig (Elt Ideal)) :
    R V (Proc.devRef .tc main_v46) = Cert.LibHyperLayer.scaleBias (M := 100000) (N := 256) (R V (Proc.devRef .tc main_v40)) (Cert.RefSpec.col (R V (Proc.devRef .tc main_v11))) (Cert.RefSpec.row256 (V (Proc.devRef .tc main_arg4))) := by
  rw [st_main_v46 V, st_main_v45 V, st_main_v44 V, st_main_v43 V, st_main_v42 V, st_main_v41 V,
    main_arg4_eq V]
  exact Cert.LibHyperLayer.scaleBias_host (M := 100000) (N := 256) _ _ _ _ _ _ _ _ _

/-- Layer 1: the exponential linear unit after it. -/
theorem v47_eq (V : Valuation τ sig (Elt Ideal)) :
    R V (Proc.devRef .tc main_v47) = Cert.LibHyperLayer.scaleBiasElu (M := 100000) (N := 256) (R V (Proc.devRef .tc main_v40)) (Cert.RefSpec.col (R V (Proc.devRef .tc main_v11))) (Cert.RefSpec.row256 (V (Proc.devRef .tc main_arg4))) := by
  rw [st_main_v47 V, st_main_call2_v7 V, st_main_call2_v6 V, st_main_call2_cst_2 V, st_main_call2_v5 V, st_main_call2_v4 V,
    st_main_call2_call0_v1 V, st_main_call2_call0_v0 V, st_main_call2_cst_1 V, st_main_call2_v3 V, st_main_call2_v2 V, st_main_call2_cst_0 V,
    st_main_call2_v1 V, st_main_call2_v0 V, st_main_call2_cst V]
  refine (Cert.LibHyperLayer.elu_host (s := S100000x256) (R V (Proc.devRef .tc main_v46)) bcast_S_S100000x256).trans ?_
  rw [v46_eq V]
  rfl

/-- Layer 2: the product with the weight. -/
theorem v48_eq (V : Valuation τ sig (Elt Ideal)) :
    R V (Proc.devRef .tc main_v48) = Cert.LibGcnSteps.prod (M := 100000) (K := 256) (N := 256) (R V (Proc.devRef .tc main_v47)) (V (Proc.devRef .tc main_arg5)) := by
  rw [st_main_v48 V, main_arg5_eq V]
  exact Cert.LibGcnSteps.prod_host _ rfl _ _

/-- Layer 2: the aggregation. -/
theorem v71_eq (V : Valuation τ sig (Elt Ideal)) :
    R V (Proc.devRef .tc main_v71) = Cert.RefSpec.agg256 (R V (Proc.devRef .tc main_v48)) (V (Proc.devRef .tc main_arg1)) (V (Proc.devRef .tc main_arg2)) (R V (Proc.devRef .tc main_v16)) := by
  rw [st_main_v71 V, st_main_v70 V, st_main_v69 V, st_main_cst_18 V, st_main_v68 V, st_main_v67 V,
    st_main_v66 V, st_main_v65 V, st_main_v64 V, st_main_c_17 V, st_main_v63 V, st_main_v62 V,
    st_main_c_16 V, st_main_v61 V, st_main_v60 V, st_main_v59 V, st_main_v58 V, st_main_v57 V,
    st_main_v56 V, st_main_cst_15 V, st_main_v55 V, st_main_v54 V, st_main_v53 V, st_main_v52 V,
    st_main_v51 V, st_main_c_14 V, st_main_v50 V, st_main_v49 V, st_main_c_13 V, main_arg1_eq V,
    main_arg2_eq V]
  rfl

/-- Layer 2: the node reciprocal times the aggregate, plus the bias. -/
theorem v77_eq (V : Valuation τ sig (Elt Ideal)) :
    R V (Proc.devRef .tc main_v77) = Cert.LibHyperLayer.scaleBias (M := 100000) (N := 256) (R V (Proc.devRef .tc main_v71)) (Cert.RefSpec.col (R V (Proc.devRef .tc main_v11))) (Cert.RefSpec.row256 (V (Proc.devRef .tc main_arg6))) := by
  rw [st_main_v77 V, st_main_v76 V, st_main_v75 V, st_main_v74 V, st_main_v73 V, st_main_v72 V,
    main_arg6_eq V]
  exact Cert.LibHyperLayer.scaleBias_host (M := 100000) (N := 256) _ _ _ _ _ _ _ _ _

/-- Layer 2: the exponential linear unit after it. -/
theorem v78_eq (V : Valuation τ sig (Elt Ideal)) :
    R V (Proc.devRef .tc main_v78) = Cert.LibHyperLayer.scaleBiasElu (M := 100000) (N := 256) (R V (Proc.devRef .tc main_v71)) (Cert.RefSpec.col (R V (Proc.devRef .tc main_v11))) (Cert.RefSpec.row256 (V (Proc.devRef .tc main_arg6))) := by
  rw [st_main_v78 V, st_main_call3_v7 V, st_main_call3_v6 V, st_main_call3_cst_2 V, st_main_call3_v5 V, st_main_call3_v4 V,
    st_main_call3_call0_v1 V, st_main_call3_call0_v0 V, st_main_call3_cst_1 V, st_main_call3_v3 V, st_main_call3_v2 V, st_main_call3_cst_0 V,
    st_main_call3_v1 V, st_main_call3_v0 V, st_main_call3_cst V]
  refine (Cert.LibHyperLayer.elu_host (s := S100000x256) (R V (Proc.devRef .tc main_v77)) bcast_S_S100000x256).trans ?_
  rw [v77_eq V]
  rfl

/-- Layer 3: the product with the weight. -/
theorem v79_eq (V : Valuation τ sig (Elt Ideal)) :
    R V (Proc.devRef .tc main_v79) = Cert.LibGcnSteps.prod (M := 100000) (K := 256) (N := 40) (R V (Proc.devRef .tc main_v78)) (V (Proc.devRef .tc main_arg7)) := by
  rw [st_main_v79 V, main_arg7_eq V]
  exact Cert.LibGcnSteps.prod_host _ rfl _ _

/-- Layer 3: the aggregation, at forty channels. -/
theorem v102_eq (V : Valuation τ sig (Elt Ideal)) :
    R V (Proc.devRef .tc main_v102) = Cert.RefSpec.agg40 (R V (Proc.devRef .tc main_v79)) (V (Proc.devRef .tc main_arg1)) (V (Proc.devRef .tc main_arg2)) (R V (Proc.devRef .tc main_v16)) := by
  rw [st_main_v102 V, st_main_v101 V, st_main_v100 V, st_main_cst_24 V, st_main_v99 V, st_main_v98 V,
    st_main_v97 V, st_main_v96 V, st_main_v95 V, st_main_c_23 V, st_main_v94 V, st_main_v93 V,
    st_main_c_22 V, st_main_v92 V, st_main_v91 V, st_main_v90 V, st_main_v89 V, st_main_v88 V,
    st_main_v87 V, st_main_cst_21 V, st_main_v86 V, st_main_v85 V, st_main_v84 V, st_main_v83 V,
    st_main_v82 V, st_main_c_20 V, st_main_v81 V, st_main_v80 V, st_main_c_19 V, main_arg1_eq V,
    main_arg2_eq V]
  rfl

/-- Layer 3: the node reciprocal times the aggregate, plus the bias; no unit follows. -/
theorem v108_eq (V : Valuation τ sig (Elt Ideal)) :
    R V (Proc.devRef .tc main_v108) = Cert.LibHyperLayer.scaleBias (M := 100000) (N := 40) (R V (Proc.devRef .tc main_v102)) (Cert.RefSpec.col (R V (Proc.devRef .tc main_v11))) (Cert.RefSpec.row40 (V (Proc.devRef .tc main_arg8))) := by
  rw [st_main_v108 V, st_main_v107 V, st_main_v106 V, st_main_v105 V, st_main_v104 V, st_main_v103 V,
    main_arg8_eq V]
  exact Cert.LibHyperLayer.scaleBias_host (M := 100000) (N := 40) _ _ _ _ _ _ _ _ _

/-! The arguments' buffers hold what they held. -/

theorem arg0_eq (V : Valuation τ sig (Elt Ideal)) :
    R V (Proc.devRef .tc main_arg0) = V (Proc.devRef .tc main_arg0) := main_arg0_eq V
theorem arg1_eq (V : Valuation τ sig (Elt Ideal)) :
    R V (Proc.devRef .tc main_arg1) = V (Proc.devRef .tc main_arg1) := main_arg1_eq V
theorem arg2_eq (V : Valuation τ sig (Elt Ideal)) :
    R V (Proc.devRef .tc main_arg2) = V (Proc.devRef .tc main_arg2) := main_arg2_eq V
theorem arg3_eq (V : Valuation τ sig (Elt Ideal)) :
    R V (Proc.devRef .tc main_arg3) = V (Proc.devRef .tc main_arg3) := main_arg3_eq V
theorem arg4_eq (V : Valuation τ sig (Elt Ideal)) :
    R V (Proc.devRef .tc main_arg4) = V (Proc.devRef .tc main_arg4) := main_arg4_eq V
theorem arg5_eq (V : Valuation τ sig (Elt Ideal)) :
    R V (Proc.devRef .tc main_arg5) = V (Proc.devRef .tc main_arg5) := main_arg5_eq V
theorem arg6_eq (V : Valuation τ sig (Elt Ideal)) :
    R V (Proc.devRef .tc main_arg6) = V (Proc.devRef .tc main_arg6) := main_arg6_eq V
theorem arg7_eq (V : Valuation τ sig (Elt Ideal)) :
    R V (Proc.devRef .tc main_arg7) = V (Proc.devRef .tc main_arg7) := main_arg7_eq V
theorem arg8_eq (V : Valuation τ sig (Elt Ideal)) :
    R V (Proc.devRef .tc main_arg8) = V (Proc.devRef .tc main_arg8) := main_arg8_eq V

/-- After the whole line the result buffer holds the network of the nine arguments' contents. -/
theorem out_eq (V : Valuation τ sig (Elt Ideal)) :
    R V (Proc.devRef .tc main_v108) = Cert.RefSpec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [v108_eq V, v102_eq V, v79_eq V, v78_eq V, v71_eq V, v48_eq V, v47_eq V, v40_eq V, v17_eq V, v16_eq V, v11_eq V]
  rfl

/-- On every device, from any memory with zero counters: every weakly fair execution of the reference's @main
    terminates with the result buffer at the network of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = Cert.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v108).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (HandRun.run_all m ρ)

end Cert.ReferenceIdeal.HandRead

end
-- ==== Proof.KernelHostRecs.lean ====
/-
  What the kernel program's host stretches share with the reference: the kernel program states its own scatter and
  gather dimension records, field for field the reference's (the two programs apply the same operations at the same
  shapes), and a line of operations run in two parts is its two parts run in turn.
-/
import proofs.«178120_j2594160246969_1_alg».proof.Proof.Gen.KernelIdeal.Launch
import proofs.«178120_j2594160246969_1_alg».proof.Proof.Gen.ReferenceIdeal
import proofs.«178120_j2594160246969_1_alg».proof.Proof.RefSpec
import proofs.«178120_j2594160246969_1_alg».proof.Proof.LibStageRead

noncomputable section

namespace Cert.KernelIdeal.HostRead

open Cert.KernelIdeal Cert.KernelIdeal.Gen Idealize.ShloMosaic Idealize.ShloMosaic.TcCoe Idealize.SL.Sem Idealize.ShloMosaic.StableHlo

/-- A line of operations run whole is its first part, then the rest, run in turn. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => exact ih (op.result V)

/-! Each dimension record of the kernel program is the reference's of the same name. -/

theorem scatter_S100000_S1000000x1_S1000000_n_0_0_1_eq :
    Cert.KernelIdeal.scatter_S100000_S1000000x1_S1000000_n_0_0_1 = Cert.ReferenceIdeal.scatter_S100000_S1000000x1_S1000000_n_0_0_1 := rfl
theorem scatter_S20000_S1000000x1_S1000000_n_0_0_1_eq :
    Cert.KernelIdeal.scatter_S20000_S1000000x1_S1000000_n_0_0_1 = Cert.ReferenceIdeal.scatter_S20000_S1000000x1_S1000000_n_0_0_1 := rfl
theorem gather_S100000x256_S1000000x1_S1000000x256_1_0_n_n_0_1_1256_eq :
    Cert.KernelIdeal.gather_S100000x256_S1000000x1_S1000000x256_1_0_n_n_0_1_1256 = Cert.ReferenceIdeal.gather_S100000x256_S1000000x1_S1000000x256_1_0_n_n_0_1_1256 := rfl
theorem scatter_S20000x256_S1000000x1_S1000000x256_1_0_0_1_eq :
    Cert.KernelIdeal.scatter_S20000x256_S1000000x1_S1000000x256_1_0_0_1 = Cert.ReferenceIdeal.scatter_S20000x256_S1000000x1_S1000000x256_1_0_0_1 := rfl
theorem gather_S20000x256_S1000000x1_S1000000x256_1_0_n_n_0_1_1256_eq :
    Cert.KernelIdeal.gather_S20000x256_S1000000x1_S1000000x256_1_0_n_n_0_1_1256 = Cert.ReferenceIdeal.gather_S20000x256_S1000000x1_S1000000x256_1_0_n_n_0_1_1256 := rfl
theorem scatter_S100000x256_S1000000x1_S1000000x256_1_0_0_1_eq :
    Cert.KernelIdeal.scatter_S100000x256_S1000000x1_S1000000x256_1_0_0_1 = Cert.ReferenceIdeal.scatter_S100000x256_S1000000x1_S1000000x256_1_0_0_1 := rfl
theorem gather_S100000x40_S1000000x1_S1000000x40_1_0_n_n_0_1_140_eq :
    Cert.KernelIdeal.gather_S100000x40_S1000000x1_S1000000x40_1_0_n_n_0_1_140 = Cert.ReferenceIdeal.gather_S100000x40_S1000000x1_S1000000x40_1_0_n_n_0_1_140 := rfl
theorem scatter_S20000x40_S1000000x1_S1000000x40_1_0_0_1_eq :
    Cert.KernelIdeal.scatter_S20000x40_S1000000x1_S1000000x40_1_0_0_1 = Cert.ReferenceIdeal.scatter_S20000x40_S1000000x1_S1000000x40_1_0_0_1 := rfl
theorem gather_S20000x40_S1000000x1_S1000000x40_1_0_n_n_0_1_140_eq :
    Cert.KernelIdeal.gather_S20000x40_S1000000x1_S1000000x40_1_0_n_n_0_1_140 = Cert.ReferenceIdeal.gather_S20000x40_S1000000x1_S1000000x40_1_0_n_n_0_1_140 := rfl
theorem scatter_S100000x40_S1000000x1_S1000000x40_1_0_0_1_eq :
    Cert.KernelIdeal.scatter_S100000x40_S1000000x1_S1000000x40_1_0_0_1 = Cert.ReferenceIdeal.scatter_S100000x40_S1000000x1_S1000000x40_1_0_0_1 := rfl

end Cert.KernelIdeal.HostRead

end
-- ==== Proof.KernelHost0.lean ====
/-
  The kernel program's host operations before its first kernel, read one at a time at the extended reals: they are
  the reference's own operations for the node and hyperedge degrees and their reciprocals, so the buffers they leave
  hold the network's `dinv` and `binv` of the incidence lists, and the arguments' buffers hold what they held.
-/
import proofs.«178120_j2594160246969_1_alg».proof.Proof.KernelHostRecs

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-- The four stretches of host operations before the first kernel, as one line of thirty: the degrees, the reciprocal
    node degrees (with the select against a broadcast zero), then the same for the hyperedges. -/
abbrev ops0 : List (HloOp τ sig (Elt F)) :=
  [ StableHlo.nullary main_cst (constant S_ .f32 0x3F800000#32),
    StableHlo.unary main_cst main_v0 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_1 (constant S_ .f32 0x00000000#32),
    StableHlo.unary main_cst_1 main_v4 (broadcastInDim S20000 ![] bcast_S_S20000 : (⟨S_, .f32⟩ : BufTy).Contents (Elt F) → (⟨S20000, .f32⟩ : BufTy).Contents (Elt F)),
    StableHlo.unary main_arg2 main_v5 (broadcastInDim S1000000x1 ![0] bcast_S1000000_S1000000x1_0 : (⟨S1000000, .i32⟩ : BufTy).Contents (Elt F) → (⟨S1000000x1, .i32⟩ : BufTy).Contents (Elt F)),
    StableHlo.ternary main_v4 main_v5 main_v0 main_v6 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_2 (constant S_ .f32 0x00000000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v3 main_v7 main_v8 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v9 (broadcastInDim S100000 ![] bcast_S_S100000 : (⟨S_, .f32⟩ : BufTy).Contents (Elt F) → (⟨S100000, .f32⟩ : BufTy).Contents (Elt F)),
    StableHlo.binary main_v9 main_v3 main_v10 (Host.divf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v8 : StableHlo.TRef sig ⟨S100000, .i1⟩) (.of main_v10 : StableHlo.TRef sig ⟨S100000, .f32⟩) (.of main_call0_v1 : StableHlo.TRef sig ⟨S100000, .f32⟩) (.of main_v11 : StableHlo.TRef sig ⟨S100000, .f32⟩) select,
    StableHlo.nullary main_cst_5 (constant S_ .f32 0x00000000#32),
    StableHlo.unary main_cst_5 main_v12 (broadcastInDim S20000 ![] bcast_S_S20000 : (⟨S_, .f32⟩ : BufTy).Contents (Elt F) → (⟨S20000, .f32⟩ : BufTy).Contents (Elt F)),
    StableHlo.binary main_v6 main_v12 main_v13 (cmpf .ogt : (⟨S20000, .f32⟩ : BufTy).Contents (Elt F) → (⟨S20000, .f32⟩ : BufTy).Contents (Elt F) → (⟨S20000, .i1⟩ : BufTy).Contents (Elt F)),
    StableHlo.nullary main_cst_6 (constant S_ .f32 0x3F800000#32),
    StableHlo.unary main_cst_6 main_v14 (broadcastInDim S20000 ![] bcast_S_S20000 : (⟨S_, .f32⟩ : BufTy).Contents (Elt F) → (⟨S20000, .f32⟩ : BufTy).Contents (Elt F)),
    StableHlo.binary main_v14 main_v6 main_v15 (Host.divf : (⟨S20000, .f32⟩ : BufTy).Contents (Elt F) → (⟨S20000, .f32⟩ : BufTy).Contents (Elt F) → (⟨S20000, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S20000, .f32⟩) (broadcastInDim S20000 ![] bcast_S_S20000),
    StableHlo.TRef.ternary (.of main_v13 : StableHlo.TRef sig ⟨S20000, .i1⟩) (.of main_v15 : StableHlo.TRef sig ⟨S20000, .f32⟩) (.of main_call1_v1 : StableHlo.TRef sig ⟨S20000, .f32⟩) (.of main_v16 : StableHlo.TRef sig ⟨S20000, .f32⟩) select ]

theorem ops0_eq : ops0 (F := F) = hostOps0 ++ hostOps0_1 ++ hostOps0_2 ++ hostOps0_3 := rfl

/-- The four stretches run in turn are the one line. -/
theorem after_ops0 (W : Valuation τ sig (Elt Ideal)) :
    after (hostOps0_3 (F := Ideal)) (after (hostOps0_2 (F := Ideal)) (after (hostOps0_1 (F := Ideal)) (after (hostOps0 (F := Ideal)) W)))
      = after (ops0 (F := Ideal)) W := by
  rw [ops0_eq, after_append, after_append, after_append]

/-- The buffer each operation of the stretch writes, in order. -/
abbrev dsts0 : List (Ref sig .tc) :=
  [ main_cst, main_v0, main_cst_0, main_v1, main_v2, main_v3, main_cst_1, main_v4,
    main_v5, main_v6, main_cst_2, main_v7, main_v8, main_cst_3, main_v9, main_v10,
    main_cst_4, main_call0_v0, main_call0_v1, main_v11, main_cst_5, main_v12, main_v13, main_cst_6,
    main_v14, main_v15, main_cst_7, main_call1_v0, main_call1_v1, main_v16 ]

theorem writes0 : StableHlo.WritesAre (ops0 (F := Ideal)) dsts0 := by
  unfold StableHlo.WritesAre
  repeat first | exact List.Forall₂.nil | refine List.Forall₂.cons (Finset.Subset.refl _) ?_

theorem s0_main_cst (W : Valuation τ sig (Elt Ideal)) :
    after (ops0 (F := Ideal)) W (Proc.devRef .tc main_cst) = (constant (F := Ideal) S_ .f32 0x3F800000#32 : FVec Ideal S_ .f32) :=
  read_nullary writes0 0 W rfl (by decide)

theorem s0_main_v0 (W : Valuation τ sig (Elt Ideal)) :
    after (ops0 (F := Ideal)) W (Proc.devRef .tc main_v0) = (broadcastInDim S1000000 ![] bcast_S_S1000000 : (FVec Ideal S_ .f32) → (FVec Ideal S1000000 .f32)) (after (ops0 (F := Ideal)) W (Proc.devRef .tc main_cst)) :=
  read_unary writes0 1 W rfl (by decide) (by decide)

theorem s0_main_cst_0 (W : Valuation τ sig (Elt Ideal)) :
    after (ops0 (F := Ideal)) W (Proc.devRef .tc main_cst_0) = (constant (F := Ideal) S_ .f32 0x00000000#32 : FVec Ideal S_ .f32) :=
  read_nullary writes0 2 W rfl (by decide)

theorem s0_main_v1 (W : Valuation τ sig (Elt Ideal)) :
    after (ops0 (F := Ideal)) W (Proc.devRef .tc main_v1) = (broadcastInDim S100000 ![] bcast_S_S100000 : (FVec Ideal S_ .f32) → (FVec Ideal S100000 .f32)) (after (ops0 (F := Ideal)) W (Proc.devRef .tc main_cst_0)) :=
  read_unary writes0 3 W rfl (by decide) (by decide)

theorem s0_main_v2 (W : Valuation τ sig (Elt Ideal)) :
    after (ops0 (F := Ideal)) W (Proc.devRef .tc main_v2) = (broadcastInDim S1000000x1 ![0] bcast_S1000000_S1000000x1_0 : (IVec S1000000 32) → (IVec S1000000x1 32)) (after (ops0 (F := Ideal)) W (Proc.devRef .tc main_arg1)) :=
  read_unary writes0 4 W rfl (by decide) (by decide)

theorem s0_main_v3 (W : Valuation τ sig (Elt Ideal)) :
    after (ops0 (F := Ideal)) W (Proc.devRef .tc main_v3) = ((fun x i u => Host.scatterAdd (F := Ideal) scatter_S100000_S1000000x1_S1000000_n_0_0_1 x i u) : (FVec Ideal S100000 .f32) → (IVec S1000000x1 32) → (FVec Ideal S1000000 .f32) → (FVec Ideal S100000 .f32)) (after (ops0 (F := Ideal)) W (Proc.devRef .tc main_v1)) (after (ops0 (F := Ideal)) W (Proc.devRef .tc main_v2)) (after (ops0 (F := Ideal)) W (Proc.devRef .tc main_v0)) :=
  read_ternary writes0 5 W rfl (by decide) (by decide) (by decide) (by decide)

theorem s0_main_cst_1 (W : Valuation τ sig (Elt Ideal)) :
    after (ops0 (F := Ideal)) W (Proc.devRef .tc main_cst_1) = (constant (F := Ideal) S_ .f32 0x00000000#32 : FVec Ideal S_ .f32) :=
  read_nullary writes0 6 W rfl (by decide)

theorem s0_main_v4 (W : Valuation τ sig (Elt Ideal)) :
    after (ops0 (F := Ideal)) W (Proc.devRef .tc main_v4) = (broadcastInDim S20000 ![] bcast_S_S20000 : (FVec Ideal S_ .f32) → (FVec Ideal S20000 .f32)) (after (ops0 (F := Ideal)) W (Proc.devRef .tc main_cst_1)) :=
  read_unary writes0 7 W rfl (by decide) (by decide)

theorem s0_main_v5 (W : Valuation τ sig (Elt Ideal)) :
    after (ops0 (F := Ideal)) W (Proc.devRef .tc main_v5) = (broadcastInDim S1000000x1 ![0] bcast_S1000000_S1000000x1_0 : (IVec S1000000 32) → (IVec S1000000x1 32)) (after (ops0 (F := Ideal)) W (Proc.devRef .tc main_arg2)) :=
  read_unary writes0 8 W rfl (by decide) (by decide)

theorem s0_main_v6 (W : Valuation τ sig (Elt Ideal)) :
    after (ops0 (F := Ideal)) W (Proc.devRef .tc main_v6) = ((fun x i u => Host.scatterAdd (F := Ideal) scatter_S20000_S1000000x1_S1000000_n_0_0_1 x i u) : (FVec Ideal S20000 .f32) → (IVec S1000000x1 32) → (FVec Ideal S1000000 .f32) → (FVec Ideal S20000 .f32)) (after (ops0 (F := Ideal)) W (Proc.devRef .tc main_v4)) (after (ops0 (F := Ideal)) W (Proc.devRef .tc main_v5)) (after (ops0 (F := Ideal)) W (Proc.devRef .tc main_v0)) :=
  read_ternary writes0 9 W rfl (by decide) (by decide) (by decide) (by decide)

theorem s0_main_cst_2 (W : Valuation τ sig (Elt Ideal)) :
    after (ops0 (F := Ideal)) W (Proc.devRef .tc main_cst_2) = (constant (F := Ideal) S_ .f32 0x00000000#32 : FVec Ideal S_ .f32) :=
  read_nullary writes0 10 W rfl (by decide)

theorem s0_main_v7 (W : Valuation τ sig (Elt Ideal)) :
    after (ops0 (F := Ideal)) W (Proc.devRef .tc main_v7) = (broadcastInDim S100000 ![] bcast_S_S100000 : (FVec Ideal S_ .f32) → (FVec Ideal S100000 .f32)) (after (ops0 (F := Ideal)) W (Proc.devRef .tc main_cst_2)) :=
  read_unary writes0 11 W rfl (by decide) (by decide)

theorem s0_main_v8 (W : Valuation τ sig (Elt Ideal)) :
    after (ops0 (F := Ideal)) W (Proc.devRef .tc main_v8) = (cmpf (F := Ideal) .ogt : (FVec Ideal S100000 .f32) → (FVec Ideal S100000 .f32) → (IVec S100000 1)) (after (ops0 (F := Ideal)) W (Proc.devRef .tc main_v3)) (after (ops0 (F := Ideal)) W (Proc.devRef .tc main_v7)) :=
  read_binary writes0 12 W rfl (by decide) (by decide) (by decide)

theorem s0_main_cst_3 (W : Valuation τ sig (Elt Ideal)) :
    after (ops0 (F := Ideal)) W (Proc.devRef .tc main_cst_3) = (constant (F := Ideal) S_ .f32 0x3F800000#32 : FVec Ideal S_ .f32) :=
  read_nullary writes0 13 W rfl (by decide)

theorem s0_main_v9 (W : Valuation τ sig (Elt Ideal)) :
    after (ops0 (F := Ideal)) W (Proc.devRef .tc main_v9) = (broadcastInDim S100000 ![] bcast_S_S100000 : (FVec Ideal S_ .f32) → (FVec Ideal S100000 .f32)) (after (ops0 (F := Ideal)) W (Proc.devRef .tc main_cst_3)) :=
  read_unary writes0 14 W rfl (by decide) (by decide)

theorem s0_main_v10 (W : Valuation τ sig (Elt Ideal)) :
    after (ops0 (F := Ideal)) W (Proc.devRef .tc main_v10) = (Host.divf (F := Ideal) : (FVec Ideal S100000 .f32) → (FVec Ideal S100000 .f32) → (FVec Ideal S100000 .f32)) (after (ops0 (F := Ideal)) W (Proc.devRef .tc main_v9)) (after (ops0 (F := Ideal)) W (Proc.devRef .tc main_v3)) :=
  read_binary writes0 15 W rfl (by decide) (by decide) (by decide)

theorem s0_main_cst_4 (W : Valuation τ sig (Elt Ideal)) :
    after (ops0 (F := Ideal)) W (Proc.devRef .tc main_cst_4) = (constant (F := Ideal) S_ .f32 0x00000000#32 : FVec Ideal S_ .f32) :=
  read_nullary writes0 16 W rfl (by decide)

theorem s0_main_call0_v0 (W : Valuation τ sig (Elt Ideal)) :
    after (ops0 (F := Ideal)) W (Proc.devRef .tc main_call0_v0) = (id : FVec Ideal S_ .f32 → FVec Ideal S_ .f32) (after (ops0 (F := Ideal)) W (Proc.devRef .tc main_cst_4)) :=
  read_unary writes0 17 W rfl (by decide) (by decide)

theorem s0_main_call0_v1 (W : Valuation τ sig (Elt Ideal)) :
    after (ops0 (F := Ideal)) W (Proc.devRef .tc main_call0_v1) = (broadcastInDim S100000 ![] bcast_S_S100000 : FVec Ideal S_ .f32 → FVec Ideal S100000 .f32) (after (ops0 (F := Ideal)) W (Proc.devRef .tc main_call0_v0)) :=
  read_unary writes0 18 W rfl (by decide) (by decide)

theorem s0_main_v11 (W : Valuation τ sig (Elt Ideal)) :
    after (ops0 (F := Ideal)) W (Proc.devRef .tc main_v11) = (select : IVec S100000 1 → FVec Ideal S100000 .f32 → FVec Ideal S100000 .f32 → FVec Ideal S100000 .f32) (after (ops0 (F := Ideal)) W (Proc.devRef .tc main_v8)) (after (ops0 (F := Ideal)) W (Proc.devRef .tc main_v10)) (after (ops0 (F := Ideal)) W (Proc.devRef .tc main_call0_v1)) :=
  read_ternary writes0 19 W rfl (by decide) (by decide) (by decide) (by decide)

theorem s0_main_cst_5 (W : Valuation τ sig (Elt Ideal)) :
    after (ops0 (F := Ideal)) W (Proc.devRef .tc main_cst_5) = (constant (F := Ideal) S_ .f32 0x00000000#32 : FVec Ideal S_ .f32) :=
  read_nullary writes0 20 W rfl (by decide)

theorem s0_main_v12 (W : Valuation τ sig (Elt Ideal)) :
    after (ops0 (F := Ideal)) W (Proc.devRef .tc main_v12) = (broadcastInDim S20000 ![] bcast_S_S20000 : (FVec Ideal S_ .f32) → (FVec Ideal S20000 .f32)) (after (ops0 (F := Ideal)) W (Proc.devRef .tc main_cst_5)) :=
  read_unary writes0 21 W rfl (by decide) (by decide)

theorem s0_main_v13 (W : Valuation τ sig (Elt Ideal)) :
    after (ops0 (F := Ideal)) W (Proc.devRef .tc main_v13) = (cmpf (F := Ideal) .ogt : (FVec Ideal S20000 .f32) → (FVec Ideal S20000 .f32) → (IVec S20000 1)) (after (ops0 (F := Ideal)) W (Proc.devRef .tc main_v6)) (after (ops0 (F := Ideal)) W (Proc.devRef .tc main_v12)) :=
  read_binary writes0 22 W rfl (by decide) (by decide) (by decide)

theorem s0_main_cst_6 (W : Valuation τ sig (Elt Ideal)) :
    after (ops0 (F := Ideal)) W (Proc.devRef .tc main_cst_6) = (constant (F := Ideal) S_ .f32 0x3F800000#32 : FVec Ideal S_ .f32) :=
  read_nullary writes0 23 W rfl (by decide)

theorem s0_main_v14 (W : Valuation τ sig (Elt Ideal)) :
    after (ops0 (F := Ideal)) W (Proc.devRef .tc main_v14) = (broadcastInDim S20000 ![] bcast_S_S20000 : (FVec Ideal S_ .f32) → (FVec Ideal S20000 .f32)) (after (ops0 (F := Ideal)) W (Proc.devRef .tc main_cst_6)) :=
  read_unary writes0 24 W rfl (by decide) (by decide)

theorem s0_main_v15 (W : Valuation τ sig (Elt Ideal)) :
    after (ops0 (F := Ideal)) W (Proc.devRef .tc main_v15) = (Host.divf (F := Ideal) : (FVec Ideal S20000 .f32) → (FVec Ideal S20000 .f32) → (FVec Ideal S20000 .f32)) (after (ops0 (F := Ideal)) W (Proc.devRef .tc main_v14)) (after (ops0 (F := Ideal)) W (Proc.devRef .tc main_v6)) :=
  read_binary writes0 25 W rfl (by decide) (by decide) (by decide)

theorem s0_main_cst_7 (W : Valuation τ sig (Elt Ideal)) :
    after (ops0 (F := Ideal)) W (Proc.devRef .tc main_cst_7) = (constant (F := Ideal) S_ .f32 0x00000000#32 : FVec Ideal S_ .f32) :=
  read_nullary writes0 26 W rfl (by decide)

theorem s0_main_call1_v0 (W : Valuation τ sig (Elt Ideal)) :
    after (ops0 (F := Ideal)) W (Proc.devRef .tc main_call1_v0) = (id : FVec Ideal S_ .f32 → FVec Ideal S_ .f32) (after (ops0 (F := Ideal)) W (Proc.devRef .tc main_cst_7)) :=
  read_unary writes0 27 W rfl (by decide) (by decide)

theorem s0_main_call1_v1 (W : Valuation τ sig (Elt Ideal)) :
    after (ops0 (F := Ideal)) W (Proc.devRef .tc main_call1_v1) = (broadcastInDim S20000 ![] bcast_S_S20000 : FVec Ideal S_ .f32 → FVec Ideal S20000 .f32) (after (ops0 (F := Ideal)) W (Proc.devRef .tc main_call1_v0)) :=
  read_unary writes0 28 W rfl (by decide) (by decide)

theorem s0_main_v16 (W : Valuation τ sig (Elt Ideal)) :
    after (ops0 (F := Ideal)) W (Proc.devRef .tc main_v16) = (select : IVec S20000 1 → FVec Ideal S20000 .f32 → FVec Ideal S20000 .f32 → FVec Ideal S20000 .f32) (after (ops0 (F := Ideal)) W (Proc.devRef .tc main_v13)) (after (ops0 (F := Ideal)) W (Proc.devRef .tc main_v15)) (after (ops0 (F := Ideal)) W (Proc.devRef .tc main_call1_v1)) :=
  read_ternary writes0 29 W rfl (by decide) (by decide) (by decide) (by decide)

/-! The arguments' buffers are written by no operation of the line. -/

theorem k0_main_arg0 (W : Valuation τ sig (Elt Ideal)) :
    after (ops0 (F := Ideal)) W (Proc.devRef .tc main_arg0) = W (Proc.devRef .tc main_arg0) :=
  after_keep_from writes0 0 (by decide) W

theorem k0_main_arg1 (W : Valuation τ sig (Elt Ideal)) :
    after (ops0 (F := Ideal)) W (Proc.devRef .tc main_arg1) = W (Proc.devRef .tc main_arg1) :=
  after_keep_from writes0 0 (by decide) W

theorem k0_main_arg2 (W : Valuation τ sig (Elt Ideal)) :
    after (ops0 (F := Ideal)) W (Proc.devRef .tc main_arg2) = W (Proc.devRef .tc main_arg2) :=
  after_keep_from writes0 0 (by decide) W

theorem k0_main_arg3 (W : Valuation τ sig (Elt Ideal)) :
    after (ops0 (F := Ideal)) W (Proc.devRef .tc main_arg3) = W (Proc.devRef .tc main_arg3) :=
  after_keep_from writes0 0 (by decide) W

theorem k0_main_arg4 (W : Valuation τ sig (Elt Ideal)) :
    after (ops0 (F := Ideal)) W (Proc.devRef .tc main_arg4) = W (Proc.devRef .tc main_arg4) :=
  after_keep_from writes0 0 (by decide) W

theorem k0_main_arg5 (W : Valuation τ sig (Elt Ideal)) :
    after (ops0 (F := Ideal)) W (Proc.devRef .tc main_arg5) = W (Proc.devRef .tc main_arg5) :=
  after_keep_from writes0 0 (by decide) W

theorem k0_main_arg6 (W : Valuation τ sig (Elt Ideal)) :
    after (ops0 (F := Ideal)) W (Proc.devRef .tc main_arg6) = W (Proc.devRef .tc main_arg6) :=
  after_keep_from writes0 0 (by decide) W

theorem k0_main_arg7 (W : Valuation τ sig (Elt Ideal)) :
    after (ops0 (F := Ideal)) W (Proc.devRef .tc main_arg7) = W (Proc.devRef .tc main_arg7) :=
  after_keep_from writes0 0 (by decide) W

theorem k0_main_arg8 (W : Valuation τ sig (Elt Ideal)) :
    after (ops0 (F := Ideal)) W (Proc.devRef .tc main_arg8) = W (Proc.devRef .tc main_arg8) :=
  after_keep_from writes0 0 (by decide) W

theorem h0_main_arg0 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg0) = (W (Proc.devRef .tc main_arg0)) := by
  rw [after_ops0]
  exact k0_main_arg0 W

theorem h0_main_arg1 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg1) = (W (Proc.devRef .tc main_arg1)) := by
  rw [after_ops0]
  exact k0_main_arg1 W

theorem h0_main_arg2 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg2) = (W (Proc.devRef .tc main_arg2)) := by
  rw [after_ops0]
  exact k0_main_arg2 W

theorem h0_main_arg3 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg3) = (W (Proc.devRef .tc main_arg3)) := by
  rw [after_ops0]
  exact k0_main_arg3 W

theorem h0_main_arg4 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg4) = (W (Proc.devRef .tc main_arg4)) := by
  rw [after_ops0]
  exact k0_main_arg4 W

theorem h0_main_arg5 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg5) = (W (Proc.devRef .tc main_arg5)) := by
  rw [after_ops0]
  exact k0_main_arg5 W

theorem h0_main_arg6 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg6) = (W (Proc.devRef .tc main_arg6)) := by
  rw [after_ops0]
  exact k0_main_arg6 W

theorem h0_main_arg7 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg7) = (W (Proc.devRef .tc main_arg7)) := by
  rw [after_ops0]
  exact k0_main_arg7 W

theorem h0_main_arg8 (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_arg8) = (W (Proc.devRef .tc main_arg8)) := by
  rw [after_ops0]
  exact k0_main_arg8 W

/-- The reciprocal node degrees. -/
theorem h0_dinv (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_v11) = Cert.RefSpec.dinv (W (Proc.devRef .tc main_arg1)) := by
  rw [after_ops0]
  rw [s0_main_v11 W, s0_main_call0_v1 W, s0_main_call0_v0 W, s0_main_cst_4 W, s0_main_v10 W, s0_main_v9 W,
    s0_main_cst_3 W, s0_main_v8 W, s0_main_v7 W, s0_main_cst_2 W, s0_main_v3 W, s0_main_v2 W,
    s0_main_v1 W, s0_main_cst_0 W, s0_main_v0 W, s0_main_cst W, k0_main_arg1 W]
  rw [scatter_S100000_S1000000x1_S1000000_n_0_0_1_eq]
  rfl

/-- The reciprocal hyperedge degrees. -/
theorem h0_binv (W : Valuation τ sig (Elt Ideal)) : StableHlo.after (hostOps0_3 (F := Ideal)) (StableHlo.after (hostOps0_2 (F := Ideal)) (StableHlo.after (hostOps0_1 (F := Ideal)) (StableHlo.after (hostOps0 (F := Ideal)) W))) (Proc.devRef .tc main_v16) = Cert.RefSpec.binv (W (Proc.devRef .tc main_arg2)) := by
  rw [after_ops0]
  rw [s0_main_v16 W, s0_main_call1_v1 W, s0_main_call1_v0 W, s0_main_cst_7 W, s0_main_v15 W, s0_main_v14 W,
    s0_main_cst_6 W, s0_main_v13 W, s0_main_v12 W, s0_main_cst_5 W, s0_main_v6 W, s0_main_v5 W,
    s0_main_v4 W, s0_main_cst_1 W, s0_main_v0 W, s0_main_cst W, k0_main_arg2 W]
  rw [scatter_S20000_S1000000x1_S1000000_n_0_0_1_eq]
  rfl

end Cert.KernelIdeal.HostRead

end
-- ==== Proof.KernelHost1.lean ====
/-
  The kernel program's host operations between its first and second kernels, read one at a time at the extended
  reals: the reference's own two-stage aggregation of the first layer's product, and the node reciprocals and the bias
  reshaped to a column and a row.
-/
import proofs.«178120_j2594160246969_1_alg».proof.Proof.KernelHostRecs

noncomputable section

namespace Cert.KernelIdeal.HostRead

open Cert.KernelIdeal Cert.KernelIdeal.Gen Idealize.ShloMosaic Idealize.ShloMosaic.TcCoe Idealize.SL.Sem Idealize.ShloMosaic.StableHlo

/-- The buffer each operation of the stretch writes, in order. -/
abbrev dsts1 : List (Ref sig .tc) :=
  [ main_c, main_v18, main_v19, main_c_8, main_v20, main_v21, main_v22, main_v23,
    main_v24, main_cst_9, main_v25, main_v26, main_v27, main_v28, main_v29, main_v30,
    main_c_10, main_v31, main_v32, main_c_11, main_v33, main_v34, main_v35, main_v36,
    main_v37, main_cst_12, main_v38, main_v39, main_v40, main_v41, main_v42 ]

theorem writes1 : StableHlo.WritesAre (hostOps1 (F := Ideal)) dsts1 := by
  unfold StableHlo.WritesAre
  repeat first | exact List.Forall₂.nil | refine List.Forall₂.cons (Finset.Subset.refl _) ?_

theorem s1_main_c (W : Valuation τ sig (Elt Ideal)) :
    after (hostOps1 (F := Ideal)) W (Proc.devRef .tc main_c) = (constantI S_ 32 0#32 : IVec S_ 32) :=
  read_nullary writes1 0 W rfl (by decide)

theorem s1_main_v18 (W : Valuation τ sig (Elt Ideal)) :
    after (hostOps1 (F := Ideal)) W (Proc.devRef .tc main_v18) = (broadcastInDim S1000000 ![] bcast_S_S1000000 : (IVec S_ 32) → (IVec S1000000 32)) (after (hostOps1 (F := Ideal)) W (Proc.devRef .tc main_c)) :=
  read_unary writes1 1 W rfl (by decide) (by decide)

theorem s1_main_v19 (W : Valuation τ sig (Elt Ideal)) :
    after (hostOps1 (F := Ideal)) W (Proc.devRef .tc main_v19) = (cmpi .slt : (IVec S1000000 32) → (IVec S1000000 32) → (IVec S1000000 1)) (after (hostOps1 (F := Ideal)) W (Proc.devRef .tc main_arg1)) (after (hostOps1 (F := Ideal)) W (Proc.devRef .tc main_v18)) :=
  read_binary writes1 2 W rfl (by decide) (by decide) (by decide)

theorem s1_main_c_8 (W : Valuation τ sig (Elt Ideal)) :
    after (hostOps1 (F := Ideal)) W (Proc.devRef .tc main_c_8) = (constantI S_ 32 100000#32 : IVec S_ 32) :=
  read_nullary writes1 3 W rfl (by decide)

theorem s1_main_v20 (W : Valuation τ sig (Elt Ideal)) :
    after (hostOps1 (F := Ideal)) W (Proc.devRef .tc main_v20) = (broadcastInDim S1000000 ![] bcast_S_S1000000 : (IVec S_ 32) → (IVec S1000000 32)) (after (hostOps1 (F := Ideal)) W (Proc.devRef .tc main_c_8)) :=
  read_unary writes1 4 W rfl (by decide) (by decide)

theorem s1_main_v21 (W : Valuation τ sig (Elt Ideal)) :
    after (hostOps1 (F := Ideal)) W (Proc.devRef .tc main_v21) = (addi : (IVec S1000000 32) → (IVec S1000000 32) → (IVec S1000000 32)) (after (hostOps1 (F := Ideal)) W (Proc.devRef .tc main_arg1)) (after (hostOps1 (F := Ideal)) W (Proc.devRef .tc main_v20)) :=
  read_binary writes1 5 W rfl (by decide) (by decide) (by decide)

theorem s1_main_v22 (W : Valuation τ sig (Elt Ideal)) :
    after (hostOps1 (F := Ideal)) W (Proc.devRef .tc main_v22) = (select : (IVec S1000000 1) → (IVec S1000000 32) → (IVec S1000000 32) → (IVec S1000000 32)) (after (hostOps1 (F := Ideal)) W (Proc.devRef .tc main_v19)) (after (hostOps1 (F := Ideal)) W (Proc.devRef .tc main_v21)) (after (hostOps1 (F := Ideal)) W (Proc.devRef .tc main_arg1)) :=
  read_ternary writes1 6 W rfl (by decide) (by decide) (by decide) (by decide)

theorem s1_main_v23 (W : Valuation τ sig (Elt Ideal)) :
    after (hostOps1 (F := Ideal)) W (Proc.devRef .tc main_v23) = (broadcastInDim S1000000x1 ![0] bcast_S1000000_S1000000x1_0 : (IVec S1000000 32) → (IVec S1000000x1 32)) (after (hostOps1 (F := Ideal)) W (Proc.devRef .tc main_v22)) :=
  read_unary writes1 7 W rfl (by decide) (by decide)

theorem s1_main_v24 (W : Valuation τ sig (Elt Ideal)) :
    after (hostOps1 (F := Ideal)) W (Proc.devRef .tc main_v24) = ((fun x i => Host.gather gather_S100000x256_S1000000x1_S1000000x256_1_0_n_n_0_1_1256 x i) : (FVec Ideal S100000x256 .f32) → (IVec S1000000x1 32) → (FVec Ideal S1000000x256 .f32)) (after (hostOps1 (F := Ideal)) W (Proc.devRef .tc main_v17)) (after (hostOps1 (F := Ideal)) W (Proc.devRef .tc main_v23)) :=
  read_binary writes1 8 W rfl (by decide) (by decide) (by decide)

theorem s1_main_cst_9 (W : Valuation τ sig (Elt Ideal)) :
    after (hostOps1 (F := Ideal)) W (Proc.devRef .tc main_cst_9) = (constant (F := Ideal) S_ .f32 0x00000000#32 : FVec Ideal S_ .f32) :=
  read_nullary writes1 9 W rfl (by decide)

theorem s1_main_v25 (W : Valuation τ sig (Elt Ideal)) :
    after (hostOps1 (F := Ideal)) W (Proc.devRef .tc main_v25) = (broadcastInDim S20000x256 ![] bcast_S_S20000x256 : (FVec Ideal S_ .f32) → (FVec Ideal S20000x256 .f32)) (after (hostOps1 (F := Ideal)) W (Proc.devRef .tc main_cst_9)) :=
  read_unary writes1 10 W rfl (by decide) (by decide)

theorem s1_main_v26 (W : Valuation τ sig (Elt Ideal)) :
    after (hostOps1 (F := Ideal)) W (Proc.devRef .tc main_v26) = (broadcastInDim S1000000x1 ![0] bcast_S1000000_S1000000x1_0 : (IVec S1000000 32) → (IVec S1000000x1 32)) (after (hostOps1 (F := Ideal)) W (Proc.devRef .tc main_arg2)) :=
  read_unary writes1 11 W rfl (by decide) (by decide)

theorem s1_main_v27 (W : Valuation τ sig (Elt Ideal)) :
    after (hostOps1 (F := Ideal)) W (Proc.devRef .tc main_v27) = ((fun x i u => Host.scatterAdd (F := Ideal) scatter_S20000x256_S1000000x1_S1000000x256_1_0_0_1 x i u) : (FVec Ideal S20000x256 .f32) → (IVec S1000000x1 32) → (FVec Ideal S1000000x256 .f32) → (FVec Ideal S20000x256 .f32)) (after (hostOps1 (F := Ideal)) W (Proc.devRef .tc main_v25)) (after (hostOps1 (F := Ideal)) W (Proc.devRef .tc main_v26)) (after (hostOps1 (F := Ideal)) W (Proc.devRef .tc main_v24)) :=
  read_ternary writes1 12 W rfl (by decide) (by decide) (by decide) (by decide)

theorem s1_main_v28 (W : Valuation τ sig (Elt Ideal)) :
    after (hostOps1 (F := Ideal)) W (Proc.devRef .tc main_v28) = (broadcastInDim S20000x1 ![0] bcast_S20000_S20000x1_0 : (FVec Ideal S20000 .f32) → (FVec Ideal S20000x1 .f32)) (after (hostOps1 (F := Ideal)) W (Proc.devRef .tc main_v16)) :=
  read_unary writes1 13 W rfl (by decide) (by decide)

theorem s1_main_v29 (W : Valuation τ sig (Elt Ideal)) :
    after (hostOps1 (F := Ideal)) W (Proc.devRef .tc main_v29) = (broadcastInDim S20000x256 ![0, 1] bcast_S20000x1_S20000x256_0_1 : (FVec Ideal S20000x1 .f32) → (FVec Ideal S20000x256 .f32)) (after (hostOps1 (F := Ideal)) W (Proc.devRef .tc main_v28)) :=
  read_unary writes1 14 W rfl (by decide) (by decide)

theorem s1_main_v30 (W : Valuation τ sig (Elt Ideal)) :
    after (hostOps1 (F := Ideal)) W (Proc.devRef .tc main_v30) = (mulf (F := Ideal) : (FVec Ideal S20000x256 .f32) → (FVec Ideal S20000x256 .f32) → (FVec Ideal S20000x256 .f32)) (after (hostOps1 (F := Ideal)) W (Proc.devRef .tc main_v29)) (after (hostOps1 (F := Ideal)) W (Proc.devRef .tc main_v27)) :=
  read_binary writes1 15 W rfl (by decide) (by decide) (by decide)

theorem s1_main_c_10 (W : Valuation τ sig (Elt Ideal)) :
    after (hostOps1 (F := Ideal)) W (Proc.devRef .tc main_c_10) = (constantI S_ 32 0#32 : IVec S_ 32) :=
  read_nullary writes1 16 W rfl (by decide)

theorem s1_main_v31 (W : Valuation τ sig (Elt Ideal)) :
    after (hostOps1 (F := Ideal)) W (Proc.devRef .tc main_v31) = (broadcastInDim S1000000 ![] bcast_S_S1000000 : (IVec S_ 32) → (IVec S1000000 32)) (after (hostOps1 (F := Ideal)) W (Proc.devRef .tc main_c_10)) :=
  read_unary writes1 17 W rfl (by decide) (by decide)

theorem s1_main_v32 (W : Valuation τ sig (Elt Ideal)) :
    after (hostOps1 (F := Ideal)) W (Proc.devRef .tc main_v32) = (cmpi .slt : (IVec S1000000 32) → (IVec S1000000 32) → (IVec S1000000 1)) (after (hostOps1 (F := Ideal)) W (Proc.devRef .tc main_arg2)) (after (hostOps1 (F := Ideal)) W (Proc.devRef .tc main_v31)) :=
  read_binary writes1 18 W rfl (by decide) (by decide) (by decide)

theorem s1_main_c_11 (W : Valuation τ sig (Elt Ideal)) :
    after (hostOps1 (F := Ideal)) W (Proc.devRef .tc main_c_11) = (constantI S_ 32 20000#32 : IVec S_ 32) :=
  read_nullary writes1 19 W rfl (by decide)

theorem s1_main_v33 (W : Valuation τ sig (Elt Ideal)) :
    after (hostOps1 (F := Ideal)) W (Proc.devRef .tc main_v33) = (broadcastInDim S1000000 ![] bcast_S_S1000000 : (IVec S_ 32) → (IVec S1000000 32)) (after (hostOps1 (F := Ideal)) W (Proc.devRef .tc main_c_11)) :=
  read_unary writes1 20 W rfl (by decide) (by decide)

theorem s1_main_v34 (W : Valuation τ sig (Elt Ideal)) :
    after (hostOps1 (F := Ideal)) W (Proc.devRef .tc main_v34) = (addi : (IVec S1000000 32) → (IVec S1000000 32) → (IVec S1000000 32)) (after (hostOps1 (F := Ideal)) W (Proc.devRef .tc main_arg2)) (after (hostOps1 (F := Ideal)) W (Proc.devRef .tc main_v33)) :=
  read_binary writes1 21 W rfl (by decide) (by decide) (by decide)

theorem s1_main_v35 (W : Valuation τ sig (Elt Ideal)) :
    after (hostOps1 (F := Ideal)) W (Proc.devRef .tc main_v35) = (select : (IVec S1000000 1) → (IVec S1000000 32) → (IVec S1000000 32) → (IVec S1000000 32)) (after (hostOps1 (F := Ideal)) W (Proc.devRef .tc main_v32)) (after (hostOps1 (F := Ideal)) W (Proc.devRef .tc main_v34)) (after (hostOps1 (F := Ideal)) W (Proc.devRef .tc main_arg2)) :=
  read_ternary writes1 22 W rfl (by decide) (by decide) (by decide) (by decide)

theorem s1_main_v36 (W : Valuation τ sig (Elt Ideal)) :
    after (hostOps1 (F := Ideal)) W (Proc.devRef .tc main_v36) = (broadcastInDim S1000000x1 ![0] bcast_S1000000_S1000000x1_0 : (IVec S1000000 32) → (IVec S1000000x1 32)) (after (hostOps1 (F := Ideal)) W (Proc.devRef .tc main_v35)) :=
  read_unary writes1 23 W rfl (by decide) (by decide)

theorem s1_main_v37 (W : Valuation τ sig (Elt Ideal)) :
    after (hostOps1 (F := Ideal)) W (Proc.devRef .tc main_v37) = ((fun x i => Host.gather gather_S20000x256_S1000000x1_S1000000x256_1_0_n_n_0_1_1256 x i) : (FVec Ideal S20000x256 .f32) → (IVec S1000000x1 32) → (FVec Ideal S1000000x256 .f32)) (after (hostOps1 (F := Ideal)) W (Proc.devRef .tc main_v30)) (after (hostOps1 (F := Ideal)) W (Proc.devRef .tc main_v36)) :=
  read_binary writes1 24 W rfl (by decide) (by decide) (by decide)

theorem s1_main_cst_12 (W : Valuation τ sig (Elt Ideal)) :
    after (hostOps1 (F := Ideal)) W (Proc.devRef .tc main_cst_12) = (constant (F := Ideal) S_ .f32 0x00000000#32 : FVec Ideal S_ .f32) :=
  read_nullary writes1 25 W rfl (by decide)

theorem s1_main_v38 (W : Valuation τ sig (Elt Ideal)) :
    after (hostOps1 (F := Ideal)) W (Proc.devRef .tc main_v38) = (broadcastInDim S100000x256 ![] bcast_S_S100000x256 : (FVec Ideal S_ .f32) → (FVec Ideal S100000x256 .f32)) (after (hostOps1 (F := Ideal)) W (Proc.devRef .tc main_cst_12)) :=
  read_unary writes1 26 W rfl (by decide) (by decide)

theorem s1_main_v39 (W : Valuation τ sig (Elt Ideal)) :
    after (hostOps1 (F := Ideal)) W (Proc.devRef .tc main_v39) = (broadcastInDim S1000000x1 ![0] bcast_S1000000_S1000000x1_0 : (IVec S1000000 32) → (IVec S1000000x1 32)) (after (hostOps1 (F := Ideal)) W (Proc.devRef .tc main_arg1)) :=
  read_unary writes1 27 W rfl (by decide) (by decide)

theorem s1_main_v40 (W : Valuation τ sig (Elt Ideal)) :
    after (hostOps1 (F := Ideal)) W (Proc.devRef .tc main_v40) = ((fun x i u => Host.scatterAdd (F := Ideal) scatter_S100000x256_S1000000x1_S1000000x256_1_0_0_1 x i u) : (FVec Ideal S100000x256 .f32) → (IVec S1000000x1 32) → (FVec Ideal S1000000x256 .f32) → (FVec Ideal S100000x256 .f32)) (after (hostOps1 (F := Ideal)) W (Proc.devRef .tc main_v38)) (after (hostOps1 (F := Ideal)) W (Proc.devRef .tc main_v39)) (after (hostOps1 (F := Ideal)) W (Proc.devRef .tc main_v37)) :=
  read_ternary writes1 28 W rfl (by decide) (by decide) (by decide) (by decide)

/-! What the stretch does not write it keeps. -/

theorem k1_main_arg1 (W : Valuation τ sig (Elt Ideal)) :
    after (hostOps1 (F := Ideal)) W (Proc.devRef .tc main_arg1) = W (Proc.devRef .tc main_arg1) :=
  after_keep_from writes1 0 (by decide) W

theorem k1_main_arg2 (W : Valuation τ sig (Elt Ideal)) :
    after (hostOps1 (F := Ideal)) W (Proc.devRef .tc main_arg2) = W (Proc.devRef .tc main_arg2) :=
  after_keep_from writes1 0 (by decide) W

theorem k1_main_arg4 (W : Valuation τ sig (Elt Ideal)) :
    after (hostOps1 (F := Ideal)) W (Proc.devRef .tc main_arg4) = W (Proc.devRef .tc main_arg4) :=
  after_keep_from writes1 0 (by decide) W

theorem k1_main_v11 (W : Valuation τ sig (Elt Ideal)) :
    after (hostOps1 (F := Ideal)) W (Proc.devRef .tc main_v11) = W (Proc.devRef .tc main_v11) :=
  after_keep_from writes1 0 (by decide) W

theorem k1_main_v16 (W : Valuation τ sig (Elt Ideal)) :
    after (hostOps1 (F := Ideal)) W (Proc.devRef .tc main_v16) = W (Proc.devRef .tc main_v16) :=
  after_keep_from writes1 0 (by decide) W

theorem k1_main_v17 (W : Valuation τ sig (Elt Ideal)) :
    after (hostOps1 (F := Ideal)) W (Proc.devRef .tc main_v17) = W (Proc.devRef .tc main_v17) :=
  after_keep_from writes1 0 (by decide) W

theorem h1_keep_main_arg1 (W : Valuation τ sig (Elt Ideal)) : StableHlo.after (hostOps1 (F := Ideal)) W (Proc.devRef .tc main_arg1) = (W (Proc.devRef .tc main_arg1)) :=
  after_keep_from writes1 0 (by decide) W

theorem h1_keep_main_arg2 (W : Valuation τ sig (Elt Ideal)) : StableHlo.after (hostOps1 (F := Ideal)) W (Proc.devRef .tc main_arg2) = (W (Proc.devRef .tc main_arg2)) :=
  after_keep_from writes1 0 (by decide) W

theorem h1_keep_main_arg5 (W : Valuation τ sig (Elt Ideal)) : StableHlo.after (hostOps1 (F := Ideal)) W (Proc.devRef .tc main_arg5) = (W (Proc.devRef .tc main_arg5)) :=
  after_keep_from writes1 0 (by decide) W

theorem h1_keep_main_arg6 (W : Valuation τ sig (Elt Ideal)) : StableHlo.after (hostOps1 (F := Ideal)) W (Proc.devRef .tc main_arg6) = (W (Proc.devRef .tc main_arg6)) :=
  after_keep_from writes1 0 (by decide) W

theorem h1_keep_main_arg7 (W : Valuation τ sig (Elt Ideal)) : StableHlo.after (hostOps1 (F := Ideal)) W (Proc.devRef .tc main_arg7) = (W (Proc.devRef .tc main_arg7)) :=
  after_keep_from writes1 0 (by decide) W

theorem h1_keep_main_arg8 (W : Valuation τ sig (Elt Ideal)) : StableHlo.after (hostOps1 (F := Ideal)) W (Proc.devRef .tc main_arg8) = (W (Proc.devRef .tc main_arg8)) :=
  after_keep_from writes1 0 (by decide) W

theorem h1_keep_main_v11 (W : Valuation τ sig (Elt Ideal)) : StableHlo.after (hostOps1 (F := Ideal)) W (Proc.devRef .tc main_v11) = (W (Proc.devRef .tc main_v11)) :=
  after_keep_from writes1 0 (by decide) W

theorem h1_keep_main_v16 (W : Valuation τ sig (Elt Ideal)) : StableHlo.after (hostOps1 (F := Ideal)) W (Proc.devRef .tc main_v16) = (W (Proc.devRef .tc main_v16)) :=
  after_keep_from writes1 0 (by decide) W

/-- The two-stage aggregation over the incidence list. -/
theorem h1_v40 (W : Valuation τ sig (Elt Ideal)) : StableHlo.after (hostOps1 (F := Ideal)) W (Proc.devRef .tc main_v40) = Cert.RefSpec.agg256 (W (Proc.devRef .tc main_v17)) (W (Proc.devRef .tc main_arg1)) (W (Proc.devRef .tc main_arg2)) (W (Proc.devRef .tc main_v16)) := by
  rw [s1_main_v40 W, s1_main_v39 W, s1_main_v38 W, s1_main_cst_12 W, s1_main_v37 W, s1_main_v36 W,
    s1_main_v35 W, s1_main_v34 W, s1_main_v33 W, s1_main_c_11 W, s1_main_v32 W, s1_main_v31 W,
    s1_main_c_10 W, s1_main_v30 W, s1_main_v29 W, s1_main_v28 W, s1_main_v27 W, s1_main_v26 W,
    s1_main_v25 W, s1_main_cst_9 W, s1_main_v24 W, s1_main_v23 W, s1_main_v22 W, s1_main_v21 W,
    s1_main_v20 W, s1_main_c_8 W, s1_main_v19 W, s1_main_v18 W, s1_main_c W, k1_main_arg1 W,
    k1_main_arg2 W, k1_main_v16 W, k1_main_v17 W]
  rw [scatter_S100000x256_S1000000x1_S1000000x256_1_0_0_1_eq, gather_S20000x256_S1000000x1_S1000000x256_1_0_n_n_0_1_1256_eq, scatter_S20000x256_S1000000x1_S1000000x256_1_0_0_1_eq, gather_S100000x256_S1000000x1_S1000000x256_1_0_n_n_0_1_1256_eq]
  rfl

/-- The node reciprocals as a column. -/
theorem h1_v41 (W : Valuation τ sig (Elt Ideal)) : StableHlo.after (hostOps1 (F := Ideal)) W (Proc.devRef .tc main_v41) = Cert.RefSpec.col (W (Proc.devRef .tc main_v11)) := by
  rw [read_reshape (x := main_v11) (y := main_v41) writes1 29 W rfl (by decide) (by decide), k1_main_v11 W]
  rfl

/-- The bias as a row. -/
theorem h1_v42 (W : Valuation τ sig (Elt Ideal)) : StableHlo.after (hostOps1 (F := Ideal)) W (Proc.devRef .tc main_v42) = Cert.RefSpec.row256 (W (Proc.devRef .tc main_arg4)) := by
  rw [read_reshape (x := main_arg4) (y := main_v42) writes1 30 W rfl (by decide) (by decide), k1_main_arg4 W]
  rfl

end Cert.KernelIdeal.HostRead

end
-- ==== Proof.KernelHost3.lean ====
/-
  The kernel program's host operations between its third and fourth kernels, read one at a time at the extended
  reals: the reference's own two-stage aggregation of the second layer's product, and the node reciprocals and the bias
  reshaped to a column and a row.
-/
import proofs.«178120_j2594160246969_1_alg».proof.Proof.KernelHostRecs

noncomputable section

namespace Cert.KernelIdeal.HostRead

open Cert.KernelIdeal Cert.KernelIdeal.Gen Idealize.ShloMosaic Idealize.ShloMosaic.TcCoe Idealize.SL.Sem Idealize.ShloMosaic.StableHlo

/-- The buffer each operation of the stretch writes, in order. -/
abbrev dsts3 : List (Ref sig .tc) :=
  [ main_c_13, main_v45, main_v46, main_c_14, main_v47, main_v48, main_v49, main_v50,
    main_v51, main_cst_15, main_v52, main_v53, main_v54, main_v55, main_v56, main_v57,
    main_c_16, main_v58, main_v59, main_c_17, main_v60, main_v61, main_v62, main_v63,
    main_v64, main_cst_18, main_v65, main_v66, main_v67, main_v68, main_v69 ]

theorem writes3 : StableHlo.WritesAre (hostOps3 (F := Ideal)) dsts3 := by
  unfold StableHlo.WritesAre
  repeat first | exact List.Forall₂.nil | refine List.Forall₂.cons (Finset.Subset.refl _) ?_

theorem s3_main_c_13 (W : Valuation τ sig (Elt Ideal)) :
    after (hostOps3 (F := Ideal)) W (Proc.devRef .tc main_c_13) = (constantI S_ 32 0#32 : IVec S_ 32) :=
  read_nullary writes3 0 W rfl (by decide)

theorem s3_main_v45 (W : Valuation τ sig (Elt Ideal)) :
    after (hostOps3 (F := Ideal)) W (Proc.devRef .tc main_v45) = (broadcastInDim S1000000 ![] bcast_S_S1000000 : (IVec S_ 32) → (IVec S1000000 32)) (after (hostOps3 (F := Ideal)) W (Proc.devRef .tc main_c_13)) :=
  read_unary writes3 1 W rfl (by decide) (by decide)

theorem s3_main_v46 (W : Valuation τ sig (Elt Ideal)) :
    after (hostOps3 (F := Ideal)) W (Proc.devRef .tc main_v46) = (cmpi .slt : (IVec S1000000 32) → (IVec S1000000 32) → (IVec S1000000 1)) (after (hostOps3 (F := Ideal)) W (Proc.devRef .tc main_arg1)) (after (hostOps3 (F := Ideal)) W (Proc.devRef .tc main_v45)) :=
  read_binary writes3 2 W rfl (by decide) (by decide) (by decide)

theorem s3_main_c_14 (W : Valuation τ sig (Elt Ideal)) :
    after (hostOps3 (F := Ideal)) W (Proc.devRef .tc main_c_14) = (constantI S_ 32 100000#32 : IVec S_ 32) :=
  read_nullary writes3 3 W rfl (by decide)

theorem s3_main_v47 (W : Valuation τ sig (Elt Ideal)) :
    after (hostOps3 (F := Ideal)) W (Proc.devRef .tc main_v47) = (broadcastInDim S1000000 ![] bcast_S_S1000000 : (IVec S_ 32) → (IVec S1000000 32)) (after (hostOps3 (F := Ideal)) W (Proc.devRef .tc main_c_14)) :=
  read_unary writes3 4 W rfl (by decide) (by decide)

theorem s3_main_v48 (W : Valuation τ sig (Elt Ideal)) :
    after (hostOps3 (F := Ideal)) W (Proc.devRef .tc main_v48) = (addi : (IVec S1000000 32) → (IVec S1000000 32) → (IVec S1000000 32)) (after (hostOps3 (F := Ideal)) W (Proc.devRef .tc main_arg1)) (after (hostOps3 (F := Ideal)) W (Proc.devRef .tc main_v47)) :=
  read_binary writes3 5 W rfl (by decide) (by decide) (by decide)

theorem s3_main_v49 (W : Valuation τ sig (Elt Ideal)) :
    after (hostOps3 (F := Ideal)) W (Proc.devRef .tc main_v49) = (select : (IVec S1000000 1) → (IVec S1000000 32) → (IVec S1000000 32) → (IVec S1000000 32)) (after (hostOps3 (F := Ideal)) W (Proc.devRef .tc main_v46)) (after (hostOps3 (F := Ideal)) W (Proc.devRef .tc main_v48)) (after (hostOps3 (F := Ideal)) W (Proc.devRef .tc main_arg1)) :=
  read_ternary writes3 6 W rfl (by decide) (by decide) (by decide) (by decide)

theorem s3_main_v50 (W : Valuation τ sig (Elt Ideal)) :
    after (hostOps3 (F := Ideal)) W (Proc.devRef .tc main_v50) = (broadcastInDim S1000000x1 ![0] bcast_S1000000_S1000000x1_0 : (IVec S1000000 32) → (IVec S1000000x1 32)) (after (hostOps3 (F := Ideal)) W (Proc.devRef .tc main_v49)) :=
  read_unary writes3 7 W rfl (by decide) (by decide)

theorem s3_main_v51 (W : Valuation τ sig (Elt Ideal)) :
    after (hostOps3 (F := Ideal)) W (Proc.devRef .tc main_v51) = ((fun x i => Host.gather gather_S100000x256_S1000000x1_S1000000x256_1_0_n_n_0_1_1256 x i) : (FVec Ideal S100000x256 .f32) → (IVec S1000000x1 32) → (FVec Ideal S1000000x256 .f32)) (after (hostOps3 (F := Ideal)) W (Proc.devRef .tc main_v44)) (after (hostOps3 (F := Ideal)) W (Proc.devRef .tc main_v50)) :=
  read_binary writes3 8 W rfl (by decide) (by decide) (by decide)

theorem s3_main_cst_15 (W : Valuation τ sig (Elt Ideal)) :
    after (hostOps3 (F := Ideal)) W (Proc.devRef .tc main_cst_15) = (constant (F := Ideal) S_ .f32 0x00000000#32 : FVec Ideal S_ .f32) :=
  read_nullary writes3 9 W rfl (by decide)

theorem s3_main_v52 (W : Valuation τ sig (Elt Ideal)) :
    after (hostOps3 (F := Ideal)) W (Proc.devRef .tc main_v52) = (broadcastInDim S20000x256 ![] bcast_S_S20000x256 : (FVec Ideal S_ .f32) → (FVec Ideal S20000x256 .f32)) (after (hostOps3 (F := Ideal)) W (Proc.devRef .tc main_cst_15)) :=
  read_unary writes3 10 W rfl (by decide) (by decide)

theorem s3_main_v53 (W : Valuation τ sig (Elt Ideal)) :
    after (hostOps3 (F := Ideal)) W (Proc.devRef .tc main_v53) = (broadcastInDim S1000000x1 ![0] bcast_S1000000_S1000000x1_0 : (IVec S1000000 32) → (IVec S1000000x1 32)) (after (hostOps3 (F := Ideal)) W (Proc.devRef .tc main_arg2)) :=
  read_unary writes3 11 W rfl (by decide) (by decide)

theorem s3_main_v54 (W : Valuation τ sig (Elt Ideal)) :
    after (hostOps3 (F := Ideal)) W (Proc.devRef .tc main_v54) = ((fun x i u => Host.scatterAdd (F := Ideal) scatter_S20000x256_S1000000x1_S1000000x256_1_0_0_1 x i u) : (FVec Ideal S20000x256 .f32) → (IVec S1000000x1 32) → (FVec Ideal S1000000x256 .f32) → (FVec Ideal S20000x256 .f32)) (after (hostOps3 (F := Ideal)) W (Proc.devRef .tc main_v52)) (after (hostOps3 (F := Ideal)) W (Proc.devRef .tc main_v53)) (after (hostOps3 (F := Ideal)) W (Proc.devRef .tc main_v51)) :=
  read_ternary writes3 12 W rfl (by decide) (by decide) (by decide) (by decide)

theorem s3_main_v55 (W : Valuation τ sig (Elt Ideal)) :
    after (hostOps3 (F := Ideal)) W (Proc.devRef .tc main_v55) = (broadcastInDim S20000x1 ![0] bcast_S20000_S20000x1_0 : (FVec Ideal S20000 .f32) → (FVec Ideal S20000x1 .f32)) (after (hostOps3 (F := Ideal)) W (Proc.devRef .tc main_v16)) :=
  read_unary writes3 13 W rfl (by decide) (by decide)

theorem s3_main_v56 (W : Valuation τ sig (Elt Ideal)) :
    after (hostOps3 (F := Ideal)) W (Proc.devRef .tc main_v56) = (broadcastInDim S20000x256 ![0, 1] bcast_S20000x1_S20000x256_0_1 : (FVec Ideal S20000x1 .f32) → (FVec Ideal S20000x256 .f32)) (after (hostOps3 (F := Ideal)) W (Proc.devRef .tc main_v55)) :=
  read_unary writes3 14 W rfl (by decide) (by decide)

theorem s3_main_v57 (W : Valuation τ sig (Elt Ideal)) :
    after (hostOps3 (F := Ideal)) W (Proc.devRef .tc main_v57) = (mulf (F := Ideal) : (FVec Ideal S20000x256 .f32) → (FVec Ideal S20000x256 .f32) → (FVec Ideal S20000x256 .f32)) (after (hostOps3 (F := Ideal)) W (Proc.devRef .tc main_v56)) (after (hostOps3 (F := Ideal)) W (Proc.devRef .tc main_v54)) :=
  read_binary writes3 15 W rfl (by decide) (by decide) (by decide)

theorem s3_main_c_16 (W : Valuation τ sig (Elt Ideal)) :
    after (hostOps3 (F := Ideal)) W (Proc.devRef .tc main_c_16) = (constantI S_ 32 0#32 : IVec S_ 32) :=
  read_nullary writes3 16 W rfl (by decide)

theorem s3_main_v58 (W : Valuation τ sig (Elt Ideal)) :
    after (hostOps3 (F := Ideal)) W (Proc.devRef .tc main_v58) = (broadcastInDim S1000000 ![] bcast_S_S1000000 : (IVec S_ 32) → (IVec S1000000 32)) (after (hostOps3 (F := Ideal)) W (Proc.devRef .tc main_c_16)) :=
  read_unary writes3 17 W rfl (by decide) (by decide)

theorem s3_main_v59 (W : Valuation τ sig (Elt Ideal)) :
    after (hostOps3 (F := Ideal)) W (Proc.devRef .tc main_v59) = (cmpi .slt : (IVec S1000000 32) → (IVec S1000000 32) → (IVec S1000000 1)) (after (hostOps3 (F := Ideal)) W (Proc.devRef .tc main_arg2)) (after (hostOps3 (F := Ideal)) W (Proc.devRef .tc main_v58)) :=
  read_binary writes3 18 W rfl (by decide) (by decide) (by decide)

theorem s3_main_c_17 (W : Valuation τ sig (Elt Ideal)) :
    after (hostOps3 (F := Ideal)) W (Proc.devRef .tc main_c_17) = (constantI S_ 32 20000#32 : IVec S_ 32) :=
  read_nullary writes3 19 W rfl (by decide)

theorem s3_main_v60 (W : Valuation τ sig (Elt Ideal)) :
    after (hostOps3 (F := Ideal)) W (Proc.devRef .tc main_v60) = (broadcastInDim S1000000 ![] bcast_S_S1000000 : (IVec S_ 32) → (IVec S1000000 32)) (after (hostOps3 (F := Ideal)) W (Proc.devRef .tc main_c_17)) :=
  read_unary writes3 20 W rfl (by decide) (by decide)

theorem s3_main_v61 (W : Valuation τ sig (Elt Ideal)) :
    after (hostOps3 (F := Ideal)) W (Proc.devRef .tc main_v61) = (addi : (IVec S1000000 32) → (IVec S1000000 32) → (IVec S1000000 32)) (after (hostOps3 (F := Ideal)) W (Proc.devRef .tc main_arg2)) (after (hostOps3 (F := Ideal)) W (Proc.devRef .tc main_v60)) :=
  read_binary writes3 21 W rfl (by decide) (by decide) (by decide)

theorem s3_main_v62 (W : Valuation τ sig (Elt Ideal)) :
    after (hostOps3 (F := Ideal)) W (Proc.devRef .tc main_v62) = (select : (IVec S1000000 1) → (IVec S1000000 32) → (IVec S1000000 32) → (IVec S1000000 32)) (after (hostOps3 (F := Ideal)) W (Proc.devRef .tc main_v59)) (after (hostOps3 (F := Ideal)) W (Proc.devRef .tc main_v61)) (after (hostOps3 (F := Ideal)) W (Proc.devRef .tc main_arg2)) :=
  read_ternary writes3 22 W rfl (by decide) (by decide) (by decide) (by decide)

theorem s3_main_v63 (W : Valuation τ sig (Elt Ideal)) :
    after (hostOps3 (F := Ideal)) W (Proc.devRef .tc main_v63) = (broadcastInDim S1000000x1 ![0] bcast_S1000000_S1000000x1_0 : (IVec S1000000 32) → (IVec S1000000x1 32)) (after (hostOps3 (F := Ideal)) W (Proc.devRef .tc main_v62)) :=
  read_unary writes3 23 W rfl (by decide) (by decide)

theorem s3_main_v64 (W : Valuation τ sig (Elt Ideal)) :
    after (hostOps3 (F := Ideal)) W (Proc.devRef .tc main_v64) = ((fun x i => Host.gather gather_S20000x256_S1000000x1_S1000000x256_1_0_n_n_0_1_1256 x i) : (FVec Ideal S20000x256 .f32) → (IVec S1000000x1 32) → (FVec Ideal S1000000x256 .f32)) (after (hostOps3 (F := Ideal)) W (Proc.devRef .tc main_v57)) (after (hostOps3 (F := Ideal)) W (Proc.devRef .tc main_v63)) :=
  read_binary writes3 24 W rfl (by decide) (by decide) (by decide)

theorem s3_main_cst_18 (W : Valuation τ sig (Elt Ideal)) :
    after (hostOps3 (F := Ideal)) W (Proc.devRef .tc main_cst_18) = (constant (F := Ideal) S_ .f32 0x00000000#32 : FVec Ideal S_ .f32) :=
  read_nullary writes3 25 W rfl (by decide)

theorem s3_main_v65 (W : Valuation τ sig (Elt Ideal)) :
    after (hostOps3 (F := Ideal)) W (Proc.devRef .tc main_v65) = (broadcastInDim S100000x256 ![] bcast_S_S100000x256 : (FVec Ideal S_ .f32) → (FVec Ideal S100000x256 .f32)) (after (hostOps3 (F := Ideal)) W (Proc.devRef .tc main_cst_18)) :=
  read_unary writes3 26 W rfl (by decide) (by decide)

theorem s3_main_v66 (W : Valuation τ sig (Elt Ideal)) :
    after (hostOps3 (F := Ideal)) W (Proc.devRef .tc main_v66) = (broadcastInDim S1000000x1 ![0] bcast_S1000000_S1000000x1_0 : (IVec S1000000 32) → (IVec S1000000x1 32)) (after (hostOps3 (F := Ideal)) W (Proc.devRef .tc main_arg1)) :=
  read_unary writes3 27 W rfl (by decide) (by decide)

theorem s3_main_v67 (W : Valuation τ sig (Elt Ideal)) :
    after (hostOps3 (F := Ideal)) W (Proc.devRef .tc main_v67) = ((fun x i u => Host.scatterAdd (F := Ideal) scatter_S100000x256_S1000000x1_S1000000x256_1_0_0_1 x i u) : (FVec Ideal S100000x256 .f32) → (IVec S1000000x1 32) → (FVec Ideal S1000000x256 .f32) → (FVec Ideal S100000x256 .f32)) (after (hostOps3 (F := Ideal)) W (Proc.devRef .tc main_v65)) (after (hostOps3 (F := Ideal)) W (Proc.devRef .tc main_v66)) (after (hostOps3 (F := Ideal)) W (Proc.devRef .tc main_v64)) :=
  read_ternary writes3 28 W rfl (by decide) (by decide) (by decide) (by decide)

/-! What the stretch does not write it keeps. -/

theorem k3_main_arg1 (W : Valuation τ sig (Elt Ideal)) :
    after (hostOps3 (F := Ideal)) W (Proc.devRef .tc main_arg1) = W (Proc.devRef .tc main_arg1) :=
  after_keep_from writes3 0 (by decide) W

theorem k3_main_arg2 (W : Valuation τ sig (Elt Ideal)) :
    after (hostOps3 (F := Ideal)) W (Proc.devRef .tc main_arg2) = W (Proc.devRef .tc main_arg2) :=
  after_keep_from writes3 0 (by decide) W

theorem k3_main_arg6 (W : Valuation τ sig (Elt Ideal)) :
    after (hostOps3 (F := Ideal)) W (Proc.devRef .tc main_arg6) = W (Proc.devRef .tc main_arg6) :=
  after_keep_from writes3 0 (by decide) W

theorem k3_main_v11 (W : Valuation τ sig (Elt Ideal)) :
    after (hostOps3 (F := Ideal)) W (Proc.devRef .tc main_v11) = W (Proc.devRef .tc main_v11) :=
  after_keep_from writes3 0 (by decide) W

theorem k3_main_v16 (W : Valuation τ sig (Elt Ideal)) :
    after (hostOps3 (F := Ideal)) W (Proc.devRef .tc main_v16) = W (Proc.devRef .tc main_v16) :=
  after_keep_from writes3 0 (by decide) W

theorem k3_main_v44 (W : Valuation τ sig (Elt Ideal)) :
    after (hostOps3 (F := Ideal)) W (Proc.devRef .tc main_v44) = W (Proc.devRef .tc main_v44) :=
  after_keep_from writes3 0 (by decide) W

theorem h3_keep_main_arg1 (W : Valuation τ sig (Elt Ideal)) : StableHlo.after (hostOps3 (F := Ideal)) W (Proc.devRef .tc main_arg1) = (W (Proc.devRef .tc main_arg1)) :=
  after_keep_from writes3 0 (by decide) W

theorem h3_keep_main_arg2 (W : Valuation τ sig (Elt Ideal)) : StableHlo.after (hostOps3 (F := Ideal)) W (Proc.devRef .tc main_arg2) = (W (Proc.devRef .tc main_arg2)) :=
  after_keep_from writes3 0 (by decide) W

theorem h3_keep_main_arg7 (W : Valuation τ sig (Elt Ideal)) : StableHlo.after (hostOps3 (F := Ideal)) W (Proc.devRef .tc main_arg7) = (W (Proc.devRef .tc main_arg7)) :=
  after_keep_from writes3 0 (by decide) W

theorem h3_keep_main_arg8 (W : Valuation τ sig (Elt Ideal)) : StableHlo.after (hostOps3 (F := Ideal)) W (Proc.devRef .tc main_arg8) = (W (Proc.devRef .tc main_arg8)) :=
  after_keep_from writes3 0 (by decide) W

theorem h3_keep_main_v11 (W : Valuation τ sig (Elt Ideal)) : StableHlo.after (hostOps3 (F := Ideal)) W (Proc.devRef .tc main_v11) = (W (Proc.devRef .tc main_v11)) :=
  after_keep_from writes3 0 (by decide) W

theorem h3_keep_main_v16 (W : Valuation τ sig (Elt Ideal)) : StableHlo.after (hostOps3 (F := Ideal)) W (Proc.devRef .tc main_v16) = (W (Proc.devRef .tc main_v16)) :=
  after_keep_from writes3 0 (by decide) W

/-- The two-stage aggregation over the incidence list. -/
theorem h3_v67 (W : Valuation τ sig (Elt Ideal)) : StableHlo.after (hostOps3 (F := Ideal)) W (Proc.devRef .tc main_v67) = Cert.RefSpec.agg256 (W (Proc.devRef .tc main_v44)) (W (Proc.devRef .tc main_arg1)) (W (Proc.devRef .tc main_arg2)) (W (Proc.devRef .tc main_v16)) := by
  rw [s3_main_v67 W, s3_main_v66 W, s3_main_v65 W, s3_main_cst_18 W, s3_main_v64 W, s3_main_v63 W,
    s3_main_v62 W, s3_main_v61 W, s3_main_v60 W, s3_main_c_17 W, s3_main_v59 W, s3_main_v58 W,
    s3_main_c_16 W, s3_main_v57 W, s3_main_v56 W, s3_main_v55 W, s3_main_v54 W, s3_main_v53 W,
    s3_main_v52 W, s3_main_cst_15 W, s3_main_v51 W, s3_main_v50 W, s3_main_v49 W, s3_main_v48 W,
    s3_main_v47 W, s3_main_c_14 W, s3_main_v46 W, s3_main_v45 W, s3_main_c_13 W, k3_main_arg1 W,
    k3_main_arg2 W, k3_main_v16 W, k3_main_v44 W]
  rw [scatter_S100000x256_S1000000x1_S1000000x256_1_0_0_1_eq, gather_S20000x256_S1000000x1_S1000000x256_1_0_n_n_0_1_1256_eq, scatter_S20000x256_S1000000x1_S1000000x256_1_0_0_1_eq, gather_S100000x256_S1000000x1_S1000000x256_1_0_n_n_0_1_1256_eq]
  rfl

/-- The node reciprocals as a column. -/
theorem h3_v68 (W : Valuation τ sig (Elt Ideal)) : StableHlo.after (hostOps3 (F := Ideal)) W (Proc.devRef .tc main_v68) = Cert.RefSpec.col (W (Proc.devRef .tc main_v11)) := by
  rw [read_reshape (x := main_v11) (y := main_v68) writes3 29 W rfl (by decide) (by decide), k3_main_v11 W]
  rfl

/-- The bias as a row. -/
theorem h3_v69 (W : Valuation τ sig (Elt Ideal)) : StableHlo.after (hostOps3 (F := Ideal)) W (Proc.devRef .tc main_v69) = Cert.RefSpec.row256 (W (Proc.devRef .tc main_arg6)) := by
  rw [read_reshape (x := main_arg6) (y := main_v69) writes3 30 W rfl (by decide) (by decide), k3_main_arg6 W]
  rfl

end Cert.KernelIdeal.HostRead

end
-- ==== Proof.KernelHost5.lean ====
/-
  The kernel program's host operations between its fifth and sixth kernels, read one at a time at the extended
  reals: the reference's own two-stage aggregation of the third layer's product, at forty channels, and the node
  reciprocals and the bias reshaped to a column and a row.
-/
import proofs.«178120_j2594160246969_1_alg».proof.Proof.KernelHostRecs

noncomputable section

namespace Cert.KernelIdeal.HostRead

open Cert.KernelIdeal Cert.KernelIdeal.Gen Idealize.ShloMosaic Idealize.ShloMosaic.TcCoe Idealize.SL.Sem Idealize.ShloMosaic.StableHlo

/-- The buffer each operation of the stretch writes, in order. -/
abbrev dsts5 : List (Ref sig .tc) :=
  [ main_c_19, main_v72, main_v73, main_c_20, main_v74, main_v75, main_v76, main_v77,
    main_v78, main_cst_21, main_v79, main_v80, main_v81, main_v82, main_v83, main_v84,
    main_c_22, main_v85, main_v86, main_c_23, main_v87, main_v88, main_v89, main_v90,
    main_v91, main_cst_24, main_v92, main_v93, main_v94, main_v95, main_v96 ]

theorem writes5 : StableHlo.WritesAre (hostOps5 (F := Ideal)) dsts5 := by
  unfold StableHlo.WritesAre
  repeat first | exact List.Forall₂.nil | refine List.Forall₂.cons (Finset.Subset.refl _) ?_

theorem s5_main_c_19 (W : Valuation τ sig (Elt Ideal)) :
    after (hostOps5 (F := Ideal)) W (Proc.devRef .tc main_c_19) = (constantI S_ 32 0#32 : IVec S_ 32) :=
  read_nullary writes5 0 W rfl (by decide)

theorem s5_main_v72 (W : Valuation τ sig (Elt Ideal)) :
    after (hostOps5 (F := Ideal)) W (Proc.devRef .tc main_v72) = (broadcastInDim S1000000 ![] bcast_S_S1000000 : (IVec S_ 32) → (IVec S1000000 32)) (after (hostOps5 (F := Ideal)) W (Proc.devRef .tc main_c_19)) :=
  read_unary writes5 1 W rfl (by decide) (by decide)

theorem s5_main_v73 (W : Valuation τ sig (Elt Ideal)) :
    after (hostOps5 (F := Ideal)) W (Proc.devRef .tc main_v73) = (cmpi .slt : (IVec S1000000 32) → (IVec S1000000 32) → (IVec S1000000 1)) (after (hostOps5 (F := Ideal)) W (Proc.devRef .tc main_arg1)) (after (hostOps5 (F := Ideal)) W (Proc.devRef .tc main_v72)) :=
  read_binary writes5 2 W rfl (by decide) (by decide) (by decide)

theorem s5_main_c_20 (W : Valuation τ sig (Elt Ideal)) :
    after (hostOps5 (F := Ideal)) W (Proc.devRef .tc main_c_20) = (constantI S_ 32 100000#32 : IVec S_ 32) :=
  read_nullary writes5 3 W rfl (by decide)

theorem s5_main_v74 (W : Valuation τ sig (Elt Ideal)) :
    after (hostOps5 (F := Ideal)) W (Proc.devRef .tc main_v74) = (broadcastInDim S1000000 ![] bcast_S_S1000000 : (IVec S_ 32) → (IVec S1000000 32)) (after (hostOps5 (F := Ideal)) W (Proc.devRef .tc main_c_20)) :=
  read_unary writes5 4 W rfl (by decide) (by decide)

theorem s5_main_v75 (W : Valuation τ sig (Elt Ideal)) :
    after (hostOps5 (F := Ideal)) W (Proc.devRef .tc main_v75) = (addi : (IVec S1000000 32) → (IVec S1000000 32) → (IVec S1000000 32)) (after (hostOps5 (F := Ideal)) W (Proc.devRef .tc main_arg1)) (after (hostOps5 (F := Ideal)) W (Proc.devRef .tc main_v74)) :=
  read_binary writes5 5 W rfl (by decide) (by decide) (by decide)

theorem s5_main_v76 (W : Valuation τ sig (Elt Ideal)) :
    after (hostOps5 (F := Ideal)) W (Proc.devRef .tc main_v76) = (select : (IVec S1000000 1) → (IVec S1000000 32) → (IVec S1000000 32) → (IVec S1000000 32)) (after (hostOps5 (F := Ideal)) W (Proc.devRef .tc main_v73)) (after (hostOps5 (F := Ideal)) W (Proc.devRef .tc main_v75)) (after (hostOps5 (F := Ideal)) W (Proc.devRef .tc main_arg1)) :=
  read_ternary writes5 6 W rfl (by decide) (by decide) (by decide) (by decide)

theorem s5_main_v77 (W : Valuation τ sig (Elt Ideal)) :
    after (hostOps5 (F := Ideal)) W (Proc.devRef .tc main_v77) = (broadcastInDim S1000000x1 ![0] bcast_S1000000_S1000000x1_0 : (IVec S1000000 32) → (IVec S1000000x1 32)) (after (hostOps5 (F := Ideal)) W (Proc.devRef .tc main_v76)) :=
  read_unary writes5 7 W rfl (by decide) (by decide)

theorem s5_main_v78 (W : Valuation τ sig (Elt Ideal)) :
    after (hostOps5 (F := Ideal)) W (Proc.devRef .tc main_v78) = ((fun x i => Host.gather gather_S100000x40_S1000000x1_S1000000x40_1_0_n_n_0_1_140 x i) : (FVec Ideal S100000x40 .f32) → (IVec S1000000x1 32) → (FVec Ideal S1000000x40 .f32)) (after (hostOps5 (F := Ideal)) W (Proc.devRef .tc main_v71)) (after (hostOps5 (F := Ideal)) W (Proc.devRef .tc main_v77)) :=
  read_binary writes5 8 W rfl (by decide) (by decide) (by decide)

theorem s5_main_cst_21 (W : Valuation τ sig (Elt Ideal)) :
    after (hostOps5 (F := Ideal)) W (Proc.devRef .tc main_cst_21) = (constant (F := Ideal) S_ .f32 0x00000000#32 : FVec Ideal S_ .f32) :=
  read_nullary writes5 9 W rfl (by decide)

theorem s5_main_v79 (W : Valuation τ sig (Elt Ideal)) :
    after (hostOps5 (F := Ideal)) W (Proc.devRef .tc main_v79) = (broadcastInDim S20000x40 ![] bcast_S_S20000x40 : (FVec Ideal S_ .f32) → (FVec Ideal S20000x40 .f32)) (after (hostOps5 (F := Ideal)) W (Proc.devRef .tc main_cst_21)) :=
  read_unary writes5 10 W rfl (by decide) (by decide)

theorem s5_main_v80 (W : Valuation τ sig (Elt Ideal)) :
    after (hostOps5 (F := Ideal)) W (Proc.devRef .tc main_v80) = (broadcastInDim S1000000x1 ![0] bcast_S1000000_S1000000x1_0 : (IVec S1000000 32) → (IVec S1000000x1 32)) (after (hostOps5 (F := Ideal)) W (Proc.devRef .tc main_arg2)) :=
  read_unary writes5 11 W rfl (by decide) (by decide)

theorem s5_main_v81 (W : Valuation τ sig (Elt Ideal)) :
    after (hostOps5 (F := Ideal)) W (Proc.devRef .tc main_v81) = ((fun x i u => Host.scatterAdd (F := Ideal) scatter_S20000x40_S1000000x1_S1000000x40_1_0_0_1 x i u) : (FVec Ideal S20000x40 .f32) → (IVec S1000000x1 32) → (FVec Ideal S1000000x40 .f32) → (FVec Ideal S20000x40 .f32)) (after (hostOps5 (F := Ideal)) W (Proc.devRef .tc main_v79)) (after (hostOps5 (F := Ideal)) W (Proc.devRef .tc main_v80)) (after (hostOps5 (F := Ideal)) W (Proc.devRef .tc main_v78)) :=
  read_ternary writes5 12 W rfl (by decide) (by decide) (by decide) (by decide)

theorem s5_main_v82 (W : Valuation τ sig (Elt Ideal)) :
    after (hostOps5 (F := Ideal)) W (Proc.devRef .tc main_v82) = (broadcastInDim S20000x1 ![0] bcast_S20000_S20000x1_0 : (FVec Ideal S20000 .f32) → (FVec Ideal S20000x1 .f32)) (after (hostOps5 (F := Ideal)) W (Proc.devRef .tc main_v16)) :=
  read_unary writes5 13 W rfl (by decide) (by decide)

theorem s5_main_v83 (W : Valuation τ sig (Elt Ideal)) :
    after (hostOps5 (F := Ideal)) W (Proc.devRef .tc main_v83) = (broadcastInDim S20000x40 ![0, 1] bcast_S20000x1_S20000x40_0_1 : (FVec Ideal S20000x1 .f32) → (FVec Ideal S20000x40 .f32)) (after (hostOps5 (F := Ideal)) W (Proc.devRef .tc main_v82)) :=
  read_unary writes5 14 W rfl (by decide) (by decide)

theorem s5_main_v84 (W : Valuation τ sig (Elt Ideal)) :
    after (hostOps5 (F := Ideal)) W (Proc.devRef .tc main_v84) = (mulf (F := Ideal) : (FVec Ideal S20000x40 .f32) → (FVec Ideal S20000x40 .f32) → (FVec Ideal S20000x40 .f32)) (after (hostOps5 (F := Ideal)) W (Proc.devRef .tc main_v83)) (after (hostOps5 (F := Ideal)) W (Proc.devRef .tc main_v81)) :=
  read_binary writes5 15 W rfl (by decide) (by decide) (by decide)

theorem s5_main_c_22 (W : Valuation τ sig (Elt Ideal)) :
    after (hostOps5 (F := Ideal)) W (Proc.devRef .tc main_c_22) = (constantI S_ 32 0#32 : IVec S_ 32) :=
  read_nullary writes5 16 W rfl (by decide)

theorem s5_main_v85 (W : Valuation τ sig (Elt Ideal)) :
    after (hostOps5 (F := Ideal)) W (Proc.devRef .tc main_v85) = (broadcastInDim S1000000 ![] bcast_S_S1000000 : (IVec S_ 32) → (IVec S1000000 32)) (after (hostOps5 (F := Ideal)) W (Proc.devRef .tc main_c_22)) :=
  read_unary writes5 17 W rfl (by decide) (by decide)

theorem s5_main_v86 (W : Valuation τ sig (Elt Ideal)) :
    after (hostOps5 (F := Ideal)) W (Proc.devRef .tc main_v86) = (cmpi .slt : (IVec S1000000 32) → (IVec S1000000 32) → (IVec S1000000 1)) (after (hostOps5 (F := Ideal)) W (Proc.devRef .tc main_arg2)) (after (hostOps5 (F := Ideal)) W (Proc.devRef .tc main_v85)) :=
  read_binary writes5 18 W rfl (by decide) (by decide) (by decide)

theorem s5_main_c_23 (W : Valuation τ sig (Elt Ideal)) :
    after (hostOps5 (F := Ideal)) W (Proc.devRef .tc main_c_23) = (constantI S_ 32 20000#32 : IVec S_ 32) :=
  read_nullary writes5 19 W rfl (by decide)

theorem s5_main_v87 (W : Valuation τ sig (Elt Ideal)) :
    after (hostOps5 (F := Ideal)) W (Proc.devRef .tc main_v87) = (broadcastInDim S1000000 ![] bcast_S_S1000000 : (IVec S_ 32) → (IVec S1000000 32)) (after (hostOps5 (F := Ideal)) W (Proc.devRef .tc main_c_23)) :=
  read_unary writes5 20 W rfl (by decide) (by decide)

theorem s5_main_v88 (W : Valuation τ sig (Elt Ideal)) :
    after (hostOps5 (F := Ideal)) W (Proc.devRef .tc main_v88) = (addi : (IVec S1000000 32) → (IVec S1000000 32) → (IVec S1000000 32)) (after (hostOps5 (F := Ideal)) W (Proc.devRef .tc main_arg2)) (after (hostOps5 (F := Ideal)) W (Proc.devRef .tc main_v87)) :=
  read_binary writes5 21 W rfl (by decide) (by decide) (by decide)

theorem s5_main_v89 (W : Valuation τ sig (Elt Ideal)) :
    after (hostOps5 (F := Ideal)) W (Proc.devRef .tc main_v89) = (select : (IVec S1000000 1) → (IVec S1000000 32) → (IVec S1000000 32) → (IVec S1000000 32)) (after (hostOps5 (F := Ideal)) W (Proc.devRef .tc main_v86)) (after (hostOps5 (F := Ideal)) W (Proc.devRef .tc main_v88)) (after (hostOps5 (F := Ideal)) W (Proc.devRef .tc main_arg2)) :=
  read_ternary writes5 22 W rfl (by decide) (by decide) (by decide) (by decide)

theorem s5_main_v90 (W : Valuation τ sig (Elt Ideal)) :
    after (hostOps5 (F := Ideal)) W (Proc.devRef .tc main_v90) = (broadcastInDim S1000000x1 ![0] bcast_S1000000_S1000000x1_0 : (IVec S1000000 32) → (IVec S1000000x1 32)) (after (hostOps5 (F := Ideal)) W (Proc.devRef .tc main_v89)) :=
  read_unary writes5 23 W rfl (by decide) (by decide)

theorem s5_main_v91 (W : Valuation τ sig (Elt Ideal)) :
    after (hostOps5 (F := Ideal)) W (Proc.devRef .tc main_v91) = ((fun x i => Host.gather gather_S20000x40_S1000000x1_S1000000x40_1_0_n_n_0_1_140 x i) : (FVec Ideal S20000x40 .f32) → (IVec S1000000x1 32) → (FVec Ideal S1000000x40 .f32)) (after (hostOps5 (F := Ideal)) W (Proc.devRef .tc main_v84)) (after (hostOps5 (F := Ideal)) W (Proc.devRef .tc main_v90)) :=
  read_binary writes5 24 W rfl (by decide) (by decide) (by decide)

theorem s5_main_cst_24 (W : Valuation τ sig (Elt Ideal)) :
    after (hostOps5 (F := Ideal)) W (Proc.devRef .tc main_cst_24) = (constant (F := Ideal) S_ .f32 0x00000000#32 : FVec Ideal S_ .f32) :=
  read_nullary writes5 25 W rfl (by decide)

theorem s5_main_v92 (W : Valuation τ sig (Elt Ideal)) :
    after (hostOps5 (F := Ideal)) W (Proc.devRef .tc main_v92) = (broadcastInDim S100000x40 ![] bcast_S_S100000x40 : (FVec Ideal S_ .f32) → (FVec Ideal S100000x40 .f32)) (after (hostOps5 (F := Ideal)) W (Proc.devRef .tc main_cst_24)) :=
  read_unary writes5 26 W rfl (by decide) (by decide)

theorem s5_main_v93 (W : Valuation τ sig (Elt Ideal)) :
    after (hostOps5 (F := Ideal)) W (Proc.devRef .tc main_v93) = (broadcastInDim S1000000x1 ![0] bcast_S1000000_S1000000x1_0 : (IVec S1000000 32) → (IVec S1000000x1 32)) (after (hostOps5 (F := Ideal)) W (Proc.devRef .tc main_arg1)) :=
  read_unary writes5 27 W rfl (by decide) (by decide)

theorem s5_main_v94 (W : Valuation τ sig (Elt Ideal)) :
    after (hostOps5 (F := Ideal)) W (Proc.devRef .tc main_v94) = ((fun x i u => Host.scatterAdd (F := Ideal) scatter_S100000x40_S1000000x1_S1000000x40_1_0_0_1 x i u) : (FVec Ideal S100000x40 .f32) → (IVec S1000000x1 32) → (FVec Ideal S1000000x40 .f32) → (FVec Ideal S100000x40 .f32)) (after (hostOps5 (F := Ideal)) W (Proc.devRef .tc main_v92)) (after (hostOps5 (F := Ideal)) W (Proc.devRef .tc main_v93)) (after (hostOps5 (F := Ideal)) W (Proc.devRef .tc main_v91)) :=
  read_ternary writes5 28 W rfl (by decide) (by decide) (by decide) (by decide)

/-! What the stretch does not write it keeps. -/

theorem k5_main_arg1 (W : Valuation τ sig (Elt Ideal)) :
    after (hostOps5 (F := Ideal)) W (Proc.devRef .tc main_arg1) = W (Proc.devRef .tc main_arg1) :=
  after_keep_from writes5 0 (by decide) W

theorem k5_main_arg2 (W : Valuation τ sig (Elt Ideal)) :
    after (hostOps5 (F := Ideal)) W (Proc.devRef .tc main_arg2) = W (Proc.devRef .tc main_arg2) :=
  after_keep_from writes5 0 (by decide) W

theorem k5_main_arg8 (W : Valuation τ sig (Elt Ideal)) :
    after (hostOps5 (F := Ideal)) W (Proc.devRef .tc main_arg8) = W (Proc.devRef .tc main_arg8) :=
  after_keep_from writes5 0 (by decide) W

theorem k5_main_v11 (W : Valuation τ sig (Elt Ideal)) :
    after (hostOps5 (F := Ideal)) W (Proc.devRef .tc main_v11) = W (Proc.devRef .tc main_v11) :=
  after_keep_from writes5 0 (by decide) W

theorem k5_main_v16 (W : Valuation τ sig (Elt Ideal)) :
    after (hostOps5 (F := Ideal)) W (Proc.devRef .tc main_v16) = W (Proc.devRef .tc main_v16) :=
  after_keep_from writes5 0 (by decide) W

theorem k5_main_v71 (W : Valuation τ sig (Elt Ideal)) :
    after (hostOps5 (F := Ideal)) W (Proc.devRef .tc main_v71) = W (Proc.devRef .tc main_v71) :=
  after_keep_from writes5 0 (by decide) W

/-- The two-stage aggregation over the incidence list. -/
theorem h5_v94 (W : Valuation τ sig (Elt Ideal)) : StableHlo.after (hostOps5 (F := Ideal)) W (Proc.devRef .tc main_v94) = Cert.RefSpec.agg40 (W (Proc.devRef .tc main_v71)) (W (Proc.devRef .tc main_arg1)) (W (Proc.devRef .tc main_arg2)) (W (Proc.devRef .tc main_v16)) := by
  rw [s5_main_v94 W, s5_main_v93 W, s5_main_v92 W, s5_main_cst_24 W, s5_main_v91 W, s5_main_v90 W,
    s5_main_v89 W, s5_main_v88 W, s5_main_v87 W, s5_main_c_23 W, s5_main_v86 W, s5_main_v85 W,
    s5_main_c_22 W, s5_main_v84 W, s5_main_v83 W, s5_main_v82 W, s5_main_v81 W, s5_main_v80 W,
    s5_main_v79 W, s5_main_cst_21 W, s5_main_v78 W, s5_main_v77 W, s5_main_v76 W, s5_main_v75 W,
    s5_main_v74 W, s5_main_c_20 W, s5_main_v73 W, s5_main_v72 W, s5_main_c_19 W, k5_main_arg1 W,
    k5_main_arg2 W, k5_main_v16 W, k5_main_v71 W]
  rw [scatter_S100000x40_S1000000x1_S1000000x40_1_0_0_1_eq, gather_S20000x40_S1000000x1_S1000000x40_1_0_n_n_0_1_140_eq, scatter_S20000x40_S1000000x1_S1000000x40_1_0_0_1_eq, gather_S100000x40_S1000000x1_S1000000x40_1_0_n_n_0_1_140_eq]
  rfl

/-- The node reciprocals as a column. -/
theorem h5_v95 (W : Valuation τ sig (Elt Ideal)) : StableHlo.after (hostOps5 (F := Ideal)) W (Proc.devRef .tc main_v95) = Cert.RefSpec.col (W (Proc.devRef .tc main_v11)) := by
  rw [read_reshape (x := main_v11) (y := main_v95) writes5 29 W rfl (by decide) (by decide), k5_main_v11 W]
  rfl

/-- The bias as a row. -/
theorem h5_v96 (W : Valuation τ sig (Elt Ideal)) : StableHlo.after (hostOps5 (F := Ideal)) W (Proc.devRef .tc main_v96) = Cert.RefSpec.row40 (W (Proc.devRef .tc main_arg8)) := by
  rw [read_reshape (x := main_arg8) (y := main_v96) writes5 30 W rfl (by decide) (by decide), k5_main_arg8 W]
  rfl

end Cert.KernelIdeal.HostRead

end
-- ==== Proof.KernelHost.lean ====
/-
  The kernel program's host stretches read stage by stage: the four modules, one per stretch between kernels, together.
-/
import proofs.«178120_j2594160246969_1_alg».proof.Proof.KernelHost0
import proofs.«178120_j2594160246969_1_alg».proof.Proof.KernelHost1
import proofs.«178120_j2594160246969_1_alg».proof.Proof.KernelHost3
import proofs.«178120_j2594160246969_1_alg».proof.Proof.KernelHost5
-- ==== Proof.Region0.lean ====
/-
  Region 0: the first layer's feature product, computed on twenty blocks of 5000 rows, read as one whole-array
  function of the arrays the region finds.

  Every point t of the grid loads rows [5000 t, 5000 t + 5000) of the node features (all 128 columns) and the whole
  128×256 weight, and stores their matrix product as rows [5000 t, 5000 t + 5000) of the output. Entry (p, n) of a
  product depends on row p of the left operand only, so the block written at point t is that block of the product
  of the whole arrays; the twenty blocks cover every row (row r lies in block r / 5000), so after the last point the
  output array is the product x · w.
-/
import proofs.«178120_j2594160246969_1_alg».proof.Proof.Gen.KernelIdeal.Frame
import proofs.«178120_j2594160246969_1_alg».proof.Proof.LibGcnSteps

set_option maxRecDepth 16384

noncomputable section

namespace Cert.KernelIdeal.RegionValue

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The zero offsets of a whole-block access, however spelt. -/
theorem zero_off0 : (![0, 0] : Fin 2 → Nat) = fun _ => 0 := funext fun a => by fin_cases a <;> rfl

/-- The body's stored value is the product of its two loaded blocks. -/
theorem pay0 (x0 : Vec Ideal S5000x128 .f32) (x1 : Vec Ideal S128x256 .f32) :
    k0_pay1 x0 x1 = Cert.LibGcnSteps.prod (M := 5000) (K := 128) (N := 256) x0 x1 :=
  Cert.LibGcnSteps.prod_tile dot_S5000x128_S128x256_S5000x256_1_0_0_1_n_n rfl x0 x1 bitsLt_bf16_f32

/-- The index maps over the grid: the row-indexed windows sit at block (t, 0), the weight at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row q of a block that holds rows [5000 r, 5000 r + 5000) of x, times w, is row 5000 r + q of x · w. -/
theorem block_prod0 (X : FVec Ideal ⟨2, ![100000, 128]⟩ .f32) (W : FVec Ideal ⟨2, ![128, 256]⟩ .f32)
    (x0 : FVec Ideal ⟨2, ![5000, 128]⟩ .f32) (x1 : FVec Ideal ⟨2, ![128, 256]⟩ .f32)
    (p : Fin 100000) (q : Fin 5000) (n : Fin 256)
    (h0 : ∀ k : Fin 128, x0 (ix2 q k) = X (ix2 p k)) (h1 : x1 = W) :
    Cert.LibGcnSteps.prod x0 x1 (ix2 q n) = Cert.LibGcnSteps.prod X W (ix2 p n) := by
  subst h1
  exact Cert.LibGcnSteps.prod_rows X x0 x1 p q n h0

/-- What point t writes back is block t of the product of the arrays as the region finds them. -/
theorem flushed0_eq (c : Dev nD) (t : Fin cfg0.N) :
    (dat0 (F := Ideal) V c).flushed 2 t
      = ((cfg0.win 2).blk t).view.read (Elt Ideal)
          (Cert.LibGcnSteps.prod (M := 100000) (K := 128) (N := 256) (V c main_arg0) (V c main_arg3)) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S128x256) zero_off0]
  rw [pay0]
  obtain ⟨e0, e1, e2, e3, e4, e5⟩ := idx_facts0 t
  have ht : t.val < 20 := lt_of_lt_of_eq t.isLt (N_0 : cfg0.N = 20)
  funext y
  obtain ⟨q, n, rfl⟩ : ∃ (q : Fin 5000) (n : Fin 256), y = ix2 q n := ⟨y 0, y 1, eq_ix2 y⟩
  have hemb : ((cfg0.win 2).blk t).view.emb (ix2 q n) = (ix2 ⟨5000 * t.val + q.val, by omega⟩ n : S100000x256.Idx) := by
    funext a; apply Fin.ext
    match a with
    | ⟨0, _⟩ => show win0_2.index t (0 : Fin 2) * 5000 + 1 * q.val = 5000 * t.val + q.val; omega
    | ⟨1, _⟩ => show win0_2.index t (1 : Fin 2) * 256 + 1 * n.val = n.val; omega
  show Cert.LibGcnSteps.prod (iblk0 V c 0 t) (iblk0 V c 1 t) (ix2 q n)
      = Cert.LibGcnSteps.prod (M := 100000) (K := 128) (N := 256) (V c main_arg0) (V c main_arg3) (((cfg0.win 2).blk t).view.emb (ix2 q n))
  rw [hemb]
  refine block_prod0 (V c main_arg0) (V c main_arg3) (iblk0 V c 0 t) (iblk0 V c 1 t) ⟨5000 * t.val + q.val, by omega⟩ q n ?_ ?_
  · intro k
    show V c main_arg0 (((cfg0.win 0).blk t).view.emb (ix2 q k)) = V c main_arg0 (ix2 ⟨5000 * t.val + q.val, by omega⟩ k)
    refine congrArg _ ?_
    funext a; apply Fin.ext
    match a with
    | ⟨0, _⟩ => show win0_0.index t (0 : Fin 2) * 5000 + 1 * q.val = 5000 * t.val + q.val; omega
    | ⟨1, _⟩ => show win0_0.index t (1 : Fin 2) * 128 + 1 * k.val = k.val; omega
  · funext j
    show V c main_arg3 (((cfg0.win 1).blk t).view.emb j) = V c main_arg3 j
    refine congrArg _ ?_
    funext a; apply Fin.ext
    match a with
    | ⟨0, _⟩ => show win0_1.index t (0 : Fin 2) * 128 + 1 * (j 0).val = (j 0).val; omega
    | ⟨1, _⟩ => show win0_1.index t (1 : Fin 2) * 256 + 1 * (j 1).val = (j 1).val; omega

/-- An index of the output array is in point t's block iff each coordinate is in the block's range on its axis. -/
theorem mem_blk0 (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v17).slice (win0_2.rect t)).set ↔ _
  rw [View.set_slice_whole, Rect.mem_set_unit]
  exact Iff.rfl

/-- Every index of the output array is in some point's block: row r is in block r / 5000. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hlt : (i 0).val / 5000 < cfg0.N := by rw [show cfg0.N = 20 from N_0]; omega
  obtain ⟨e0, e1, e2, e3, e4, e5⟩ := idx_facts0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 256 ≤ (i 1).val ∧ (i 1).val < win0_2.index ⟨(i 0).val / 5000, hlt⟩ (1 : Fin 2) * 256 + 256
    rw [e5]; omega

/-- After the twenty points the output array is the product of the node features and the weight as the region
    finds them. -/
theorem final0 (c : Dev nD) :
    (dat0 (F := Ideal) V c).arrAt 2 cfg0.N
      = Cert.LibGcnSteps.prod (M := 100000) (K := 128) (N := 256) (V c main_arg0) (V c main_arg3) :=
  (dat0 (F := Ideal) V c).arrAt_eq_of_cover 2 _ (fun t _ => flushed0_eq V c t) cover0

end Cert.KernelIdeal.RegionValue

end
-- ==== Proof.Region1.lean ====
/-
  Region 1: the first layer's closing step — scale every row by its degree factor, add the bias row, apply the
  exponential linear unit — computed on twenty blocks of 5000 rows, read as one whole-array function of the arrays
  the region finds.

  Every point t of the grid loads rows [5000 t, 5000 t + 5000) of the aggregated matrix (all 256 columns) and of the
  100000×1 column of row factors, and the whole 1×256 bias row, and stores elu (a · d + b) as rows
  [5000 t, 5000 t + 5000) of the output. Entry (p, n) of the step depends on row p of the matrix and of the column
  only, so the block written at point t is that block of the step on the whole arrays; the twenty blocks cover every
  row (row r lies in block r / 5000), so after the last point the output array is the step on the whole arrays.
-/
import proofs.«178120_j2594160246969_1_alg».proof.Proof.Gen.KernelIdeal.Frame
import proofs.«178120_j2594160246969_1_alg».proof.Proof.LibHyperLayer

set_option maxRecDepth 16384

noncomputable section

namespace Cert.KernelIdeal.RegionValue

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The zero offsets of a whole-block access, however spelt. -/
theorem zero_off1 : (![0, 0] : Fin 2 → Nat) = fun _ => 0 := funext fun a => by fin_cases a <;> rfl

/-- The body's stored value is the closing step on its three loaded blocks. -/
theorem pay1 (x0 : Vec Ideal S5000x256 .f32) (x1 : Vec Ideal S5000x1 .f32) (x2 : Vec Ideal S1x256 .f32) :
    k1_pay1 x0 x1 x2 = Cert.LibHyperLayer.scaleBiasElu (M := 5000) (N := 256) x0 x1 x2 :=
  Cert.LibHyperLayer.scaleBiasElu_tile (R := 5000) (N := 256) x0 x1 x2 shapeCasts_S5000x256_S5000x256
    shapeCasts_S5000x1_S5000x1 shapeCasts_S1x256_S1x256 broadcasts_S5000x1_S5000x256 broadcasts_S1x256_S5000x256

/-- The index maps over the grid: the row-indexed windows sit at block (t, 0), the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row q of the step on a block holding rows [5000 r, 5000 r + 5000) of a and d is row 5000 r + q of the step on a, d. -/
theorem block_step1 (A : FVec Ideal ⟨2, ![100000, 256]⟩ .f32) (D : FVec Ideal ⟨2, ![100000, 1]⟩ .f32)
    (B : FVec Ideal ⟨2, ![1, 256]⟩ .f32)
    (x0 : FVec Ideal ⟨2, ![5000, 256]⟩ .f32) (x1 : FVec Ideal ⟨2, ![5000, 1]⟩ .f32) (x2 : FVec Ideal ⟨2, ![1, 256]⟩ .f32)
    (p : Fin 100000) (q : Fin 5000) (n : Fin 256)
    (h0 : x0 (ix2 q n) = A (ix2 p n)) (h1 : x1 (ix2 q 0) = D (ix2 p 0)) (h2 : x2 = B) :
    Cert.LibHyperLayer.scaleBiasElu x0 x1 x2 (ix2 q n) = Cert.LibHyperLayer.scaleBiasElu A D B (ix2 p n) := by
  subst h2
  exact Cert.LibHyperLayer.scaleBiasElu_rows A x0 D x1 x2 p q n h0 h1

/-- What point t writes back is block t of the step on the arrays as the region finds them. -/
theorem flushed1_eq (c : Dev nD) (t : Fin cfg1.N) :
    (dat1 (F := Ideal) V c).flushed 3 t
      = ((cfg1.win 3).blk t).view.read (Elt Ideal)
          (Cert.LibHyperLayer.scaleBiasElu (M := 100000) (N := 256) (V c main_v40) (V c main_v41) (V c main_v42)) := by
  show (cfg1.win 3).cut (grid1.coords t) ((dat1 V c).after 3 t) = _
  rw [after1_3]
  unfold out1_3
  rw [View.canon_unit_zero zero_off1]
  simp only [View.ld_unit_zero (S := S5000x256) zero_off1, View.ld_unit_zero (S := S5000x1) zero_off1,
    View.ld_unit_zero (S := S1x256) zero_off1]
  rw [pay1]
  obtain ⟨e0, e1, e2, e3, e4, e5, e6, e7⟩ := idx_facts1 t
  have ht : t.val < 20 := lt_of_lt_of_eq t.isLt (N_1 : cfg1.N = 20)
  funext y
  obtain ⟨q, n, rfl⟩ : ∃ (q : Fin 5000) (n : Fin 256), y = ix2 q n := ⟨y 0, y 1, eq_ix2 y⟩
  have hemb : ((cfg1.win 3).blk t).view.emb (ix2 q n) = (ix2 ⟨5000 * t.val + q.val, by omega⟩ n : S100000x256.Idx) := by
    funext a; apply Fin.ext
    match a with
    | ⟨0, _⟩ => show win1_3.index t (0 : Fin 2) * 5000 + 1 * q.val = 5000 * t.val + q.val; omega
    | ⟨1, _⟩ => show win1_3.index t (1 : Fin 2) * 256 + 1 * n.val = n.val; omega
  show Cert.LibHyperLayer.scaleBiasElu (iblk1 V c 0 t) (iblk1 V c 1 t) (iblk1 V c 2 t) (ix2 q n)
      = Cert.LibHyperLayer.scaleBiasElu (M := 100000) (N := 256) (V c main_v40) (V c main_v41) (V c main_v42)
          (((cfg1.win 3).blk t).view.emb (ix2 q n))
  rw [hemb]
  refine block_step1 (V c main_v40) (V c main_v41) (V c main_v42) (iblk1 V c 0 t) (iblk1 V c 1 t) (iblk1 V c 2 t)
    ⟨5000 * t.val + q.val, by omega⟩ q n ?_ ?_ ?_
  · show V c main_v40 (((cfg1.win 0).blk t).view.emb (ix2 q n)) = V c main_v40 (ix2 ⟨5000 * t.val + q.val, by omega⟩ n)
    refine congrArg _ ?_
    funext a; apply Fin.ext
    match a with
    | ⟨0, _⟩ => show win1_0.index t (0 : Fin 2) * 5000 + 1 * q.val = 5000 * t.val + q.val; omega
    | ⟨1, _⟩ => show win1_0.index t (1 : Fin 2) * 256 + 1 * n.val = n.val; omega
  · show V c main_v41 (((cfg1.win 1).blk t).view.emb (ix2 q 0)) = V c main_v41 (ix2 ⟨5000 * t.val + q.val, by omega⟩ 0)
    refine congrArg _ ?_
    funext a; apply Fin.ext
    match a with
    | ⟨0, _⟩ => show win1_1.index t (0 : Fin 2) * 5000 + 1 * q.val = 5000 * t.val + q.val; omega
    | ⟨1, _⟩ => show win1_1.index t (1 : Fin 2) * 1 + 1 * (0 : Fin 1).val = (0 : Fin 1).val; omega
  · funext j
    show V c main_v42 (((cfg1.win 2).blk t).view.emb j) = V c main_v42 j
    refine congrArg _ ?_
    funext a; apply Fin.ext
    match a with
    | ⟨0, _⟩ => show win1_2.index t (0 : Fin 2) * 1 + 1 * (j 0).val = (j 0).val; omega
    | ⟨1, _⟩ => show win1_2.index t (1 : Fin 2) * 256 + 1 * (j 1).val = (j 1).val; omega

/-- An index of the output array is in point t's block iff each coordinate is in the block's range on its axis. -/
theorem mem_blk1 (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v43).slice (win1_3.rect t)).set ↔ _
  rw [View.set_slice_whole, Rect.mem_set_unit]
  exact Iff.rfl

/-- Every index of the output array is in some point's block: row r is in block r / 5000. -/
theorem cover1 (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hlt : (i 0).val / 5000 < cfg1.N := by rw [show cfg1.N = 20 from N_1]; omega
  obtain ⟨e0, e1, e2, e3, e4, e5, e6, e7⟩ := idx_facts1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hlt⟩ (1 : Fin 2) * 256 ≤ (i 1).val ∧ (i 1).val < win1_3.index ⟨(i 0).val / 5000, hlt⟩ (1 : Fin 2) * 256 + 256
    rw [e7]; omega

/-- After the twenty points the output array is the closing step on the aggregated matrix, the column of row
    factors and the bias row as the region finds them. -/
theorem final1 (c : Dev nD) :
    (dat1 (F := Ideal) V c).arrAt 3 cfg1.N
      = Cert.LibHyperLayer.scaleBiasElu (M := 100000) (N := 256) (V c main_v40) (V c main_v41) (V c main_v42) :=
  (dat1 (F := Ideal) V c).arrAt_eq_of_cover 3 _ (fun t _ => flushed1_eq V c t) cover1

end Cert.KernelIdeal.RegionValue

end
-- ==== Proof.Region2.lean ====
/-
  Region 2: the second layer's feature product, computed on twenty blocks of 5000 rows, read as one whole-array
  function of the arrays the region finds.

  Every point t of the grid loads rows [5000 t, 5000 t + 5000) of the first layer's output (all 256 columns) and the
  whole 256×256 weight, and stores their matrix product as rows [5000 t, 5000 t + 5000) of the output. Entry (p, n)
  of a product depends on row p of the left operand only, so the block written at point t is that block of the
  product of the whole arrays; the twenty blocks cover every row (row r lies in block r / 5000), so after the last
  point the output array is the product x · w.
-/
import proofs.«178120_j2594160246969_1_alg».proof.Proof.Gen.KernelIdeal.Frame
import proofs.«178120_j2594160246969_1_alg».proof.Proof.LibGcnSteps

set_option maxRecDepth 16384

noncomputable section

namespace Cert.KernelIdeal.RegionValue

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The zero offsets of a whole-block access, however spelt. -/
theorem zero_off2 : (![0, 0] : Fin 2 → Nat) = fun _ => 0 := funext fun a => by fin_cases a <;> rfl

/-- The body's stored value is the product of its two loaded blocks (the cast of the left block to its own shape is the identity). -/
theorem pay2 (x0 : Vec Ideal S5000x256 .f32) (x1 : Vec Ideal S256x256 .f32) :
    k2_pay1 x0 x1 = Cert.LibGcnSteps.prod (M := 5000) (K := 256) (N := 256) x0 x1 := by
  show matmul dot_S5000x256_S256x256_S5000x256_1_0_0_1_n_n none
      (truncf .bf16 (shapeCast S5000x256 x0 shapeCasts_S5000x256_S5000x256) bitsLt_bf16_f32) (truncf .bf16 x1 bitsLt_bf16_f32)
      (constant (F := Ideal) S5000x256 .f32 0x00000000#32) = _
  rw [shapeCast_self]
  exact Cert.LibGcnSteps.prod_tile dot_S5000x256_S256x256_S5000x256_1_0_0_1_n_n rfl x0 x1 bitsLt_bf16_f32

/-- The index maps over the grid: the row-indexed windows sit at block (t, 0), the weight at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row q of a block that holds rows [5000 r, 5000 r + 5000) of x, times w, is row 5000 r + q of x · w. -/
theorem block_prod2 (X : FVec Ideal ⟨2, ![100000, 256]⟩ .f32) (W : FVec Ideal ⟨2, ![256, 256]⟩ .f32)
    (x0 : FVec Ideal ⟨2, ![5000, 256]⟩ .f32) (x1 : FVec Ideal ⟨2, ![256, 256]⟩ .f32)
    (p : Fin 100000) (q : Fin 5000) (n : Fin 256)
    (h0 : ∀ k : Fin 256, x0 (ix2 q k) = X (ix2 p k)) (h1 : x1 = W) :
    Cert.LibGcnSteps.prod x0 x1 (ix2 q n) = Cert.LibGcnSteps.prod X W (ix2 p n) := by
  subst h1
  exact Cert.LibGcnSteps.prod_rows X x0 x1 p q n h0

/-- What point t writes back is block t of the product of the arrays as the region finds them. -/
theorem flushed2_eq (c : Dev nD) (t : Fin cfg2.N) :
    (dat2 (F := Ideal) V c).flushed 2 t
      = ((cfg2.win 2).blk t).view.read (Elt Ideal)
          (Cert.LibGcnSteps.prod (M := 100000) (K := 256) (N := 256) (V c main_v43) (V c main_arg5)) := by
  show (cfg2.win 2).cut (grid2.coords t) ((dat2 V c).after 2 t) = _
  rw [after2_2]
  unfold out2_2
  rw [View.canon_unit_zero zero_off2]
  simp only [View.ld_unit_zero (S := S5000x256) zero_off2, View.ld_unit_zero (S := S256x256) zero_off2]
  rw [pay2]
  obtain ⟨e0, e1, e2, e3, e4, e5⟩ := idx_facts2 t
  have ht : t.val < 20 := lt_of_lt_of_eq t.isLt (N_2 : cfg2.N = 20)
  funext y
  obtain ⟨q, n, rfl⟩ : ∃ (q : Fin 5000) (n : Fin 256), y = ix2 q n := ⟨y 0, y 1, eq_ix2 y⟩
  have hemb : ((cfg2.win 2).blk t).view.emb (ix2 q n) = (ix2 ⟨5000 * t.val + q.val, by omega⟩ n : S100000x256.Idx) := by
    funext a; apply Fin.ext
    match a with
    | ⟨0, _⟩ => show win2_2.index t (0 : Fin 2) * 5000 + 1 * q.val = 5000 * t.val + q.val; omega
    | ⟨1, _⟩ => show win2_2.index t (1 : Fin 2) * 256 + 1 * n.val = n.val; omega
  show Cert.LibGcnSteps.prod (iblk2 V c 0 t) (iblk2 V c 1 t) (ix2 q n)
      = Cert.LibGcnSteps.prod (M := 100000) (K := 256) (N := 256) (V c main_v43) (V c main_arg5) (((cfg2.win 2).blk t).view.emb (ix2 q n))
  rw [hemb]
  refine block_prod2 (V c main_v43) (V c main_arg5) (iblk2 V c 0 t) (iblk2 V c 1 t) ⟨5000 * t.val + q.val, by omega⟩ q n ?_ ?_
  · intro k
    show V c main_v43 (((cfg2.win 0).blk t).view.emb (ix2 q k)) = V c main_v43 (ix2 ⟨5000 * t.val + q.val, by omega⟩ k)
    refine congrArg _ ?_
    funext a; apply Fin.ext
    match a with
    | ⟨0, _⟩ => show win2_0.index t (0 : Fin 2) * 5000 + 1 * q.val = 5000 * t.val + q.val; omega
    | ⟨1, _⟩ => show win2_0.index t (1 : Fin 2) * 256 + 1 * k.val = k.val; omega
  · funext j
    show V c main_arg5 (((cfg2.win 1).blk t).view.emb j) = V c main_arg5 j
    refine congrArg _ ?_
    funext a; apply Fin.ext
    match a with
    | ⟨0, _⟩ => show win2_1.index t (0 : Fin 2) * 256 + 1 * (j 0).val = (j 0).val; omega
    | ⟨1, _⟩ => show win2_1.index t (1 : Fin 2) * 256 + 1 * (j 1).val = (j 1).val; omega

/-- An index of the output array is in point t's block iff each coordinate is in the block's range on its axis. -/
theorem mem_blk2 (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v44).slice (win2_2.rect t)).set ↔ _
  rw [View.set_slice_whole, Rect.mem_set_unit]
  exact Iff.rfl

/-- Every index of the output array is in some point's block: row r is in block r / 5000. -/
theorem cover2 (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  have hlt : (i 0).val / 5000 < cfg2.N := by rw [show cfg2.N = 20 from N_2]; omega
  obtain ⟨e0, e1, e2, e3, e4, e5⟩ := idx_facts2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 256 ≤ (i 1).val ∧ (i 1).val < win2_2.index ⟨(i 0).val / 5000, hlt⟩ (1 : Fin 2) * 256 + 256
    rw [e5]; omega

/-- After the twenty points the output array is the product of the row-indexed matrix and the weight as the region
    finds them. -/
theorem final2 (c : Dev nD) :
    (dat2 (F := Ideal) V c).arrAt 2 cfg2.N
      = Cert.LibGcnSteps.prod (M := 100000) (K := 256) (N := 256) (V c main_v43) (V c main_arg5) :=
  (dat2 (F := Ideal) V c).arrAt_eq_of_cover 2 _ (fun t _ => flushed2_eq V c t) cover2

end Cert.KernelIdeal.RegionValue

end
-- ==== Proof.Region3.lean ====
/-
  Region 3: the second layer's closing step — scale every row by its degree factor, add the bias row, apply the
  exponential linear unit — computed on twenty blocks of 5000 rows, read as one whole-array function of the arrays
  the region finds.

  Every point t of the grid loads rows [5000 t, 5000 t + 5000) of the aggregated matrix (all 256 columns) and of the
  100000×1 column of row factors, and the whole 1×256 bias row, and stores elu (a · d + b) as rows
  [5000 t, 5000 t + 5000) of the output. Entry (p, n) of the step depends on row p of the matrix and of the column
  only, so the block written at point t is that block of the step on the whole arrays; the twenty blocks cover every
  row (row r lies in block r / 5000), so after the last point the output array is the step on the whole arrays.
-/
import proofs.«178120_j2594160246969_1_alg».proof.Proof.Gen.KernelIdeal.Frame
import proofs.«178120_j2594160246969_1_alg».proof.Proof.LibHyperLayer

set_option maxRecDepth 16384

noncomputable section

namespace Cert.KernelIdeal.RegionValue

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The zero offsets of a whole-block access, however spelt. -/
theorem zero_off3 : (![0, 0] : Fin 2 → Nat) = fun _ => 0 := funext fun a => by fin_cases a <;> rfl

/-- The body's stored value is the closing step on its three loaded blocks. -/
theorem pay3 (x0 : Vec Ideal S5000x256 .f32) (x1 : Vec Ideal S5000x1 .f32) (x2 : Vec Ideal S1x256 .f32) :
    k3_pay1 x0 x1 x2 = Cert.LibHyperLayer.scaleBiasElu (M := 5000) (N := 256) x0 x1 x2 :=
  Cert.LibHyperLayer.scaleBiasElu_tile (R := 5000) (N := 256) x0 x1 x2 shapeCasts_S5000x256_S5000x256
    shapeCasts_S5000x1_S5000x1 shapeCasts_S1x256_S1x256 broadcasts_S5000x1_S5000x256 broadcasts_S1x256_S5000x256

/-- The index maps over the grid: the row-indexed windows sit at block (t, 0), the bias row at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row q of the step on a block holding rows [5000 r, 5000 r + 5000) of a and d is row 5000 r + q of the step on a, d. -/
theorem block_step3 (A : FVec Ideal ⟨2, ![100000, 256]⟩ .f32) (D : FVec Ideal ⟨2, ![100000, 1]⟩ .f32)
    (B : FVec Ideal ⟨2, ![1, 256]⟩ .f32)
    (x0 : FVec Ideal ⟨2, ![5000, 256]⟩ .f32) (x1 : FVec Ideal ⟨2, ![5000, 1]⟩ .f32) (x2 : FVec Ideal ⟨2, ![1, 256]⟩ .f32)
    (p : Fin 100000) (q : Fin 5000) (n : Fin 256)
    (h0 : x0 (ix2 q n) = A (ix2 p n)) (h1 : x1 (ix2 q 0) = D (ix2 p 0)) (h2 : x2 = B) :
    Cert.LibHyperLayer.scaleBiasElu x0 x1 x2 (ix2 q n) = Cert.LibHyperLayer.scaleBiasElu A D B (ix2 p n) := by
  subst h2
  exact Cert.LibHyperLayer.scaleBiasElu_rows A x0 D x1 x2 p q n h0 h1

/-- What point t writes back is block t of the step on the arrays as the region finds them. -/
theorem flushed3_eq (c : Dev nD) (t : Fin cfg3.N) :
    (dat3 (F := Ideal) V c).flushed 3 t
      = ((cfg3.win 3).blk t).view.read (Elt Ideal)
          (Cert.LibHyperLayer.scaleBiasElu (M := 100000) (N := 256) (V c main_v67) (V c main_v68) (V c main_v69)) := by
  show (cfg3.win 3).cut (grid3.coords t) ((dat3 V c).after 3 t) = _
  rw [after3_3]
  unfold out3_3
  rw [View.canon_unit_zero zero_off3]
  simp only [View.ld_unit_zero (S := S5000x256) zero_off3, View.ld_unit_zero (S := S5000x1) zero_off3,
    View.ld_unit_zero (S := S1x256) zero_off3]
  rw [pay3]
  obtain ⟨e0, e1, e2, e3, e4, e5, e6, e7⟩ := idx_facts3 t
  have ht : t.val < 20 := lt_of_lt_of_eq t.isLt (N_3 : cfg3.N = 20)
  funext y
  obtain ⟨q, n, rfl⟩ : ∃ (q : Fin 5000) (n : Fin 256), y = ix2 q n := ⟨y 0, y 1, eq_ix2 y⟩
  have hemb : ((cfg3.win 3).blk t).view.emb (ix2 q n) = (ix2 ⟨5000 * t.val + q.val, by omega⟩ n : S100000x256.Idx) := by
    funext a; apply Fin.ext
    match a with
    | ⟨0, _⟩ => show win3_3.index t (0 : Fin 2) * 5000 + 1 * q.val = 5000 * t.val + q.val; omega
    | ⟨1, _⟩ => show win3_3.index t (1 : Fin 2) * 256 + 1 * n.val = n.val; omega
  show Cert.LibHyperLayer.scaleBiasElu (iblk3 V c 0 t) (iblk3 V c 1 t) (iblk3 V c 2 t) (ix2 q n)
      = Cert.LibHyperLayer.scaleBiasElu (M := 100000) (N := 256) (V c main_v67) (V c main_v68) (V c main_v69)
          (((cfg3.win 3).blk t).view.emb (ix2 q n))
  rw [hemb]
  refine block_step3 (V c main_v67) (V c main_v68) (V c main_v69) (iblk3 V c 0 t) (iblk3 V c 1 t) (iblk3 V c 2 t)
    ⟨5000 * t.val + q.val, by omega⟩ q n ?_ ?_ ?_
  · show V c main_v67 (((cfg3.win 0).blk t).view.emb (ix2 q n)) = V c main_v67 (ix2 ⟨5000 * t.val + q.val, by omega⟩ n)
    refine congrArg _ ?_
    funext a; apply Fin.ext
    match a with
    | ⟨0, _⟩ => show win3_0.index t (0 : Fin 2) * 5000 + 1 * q.val = 5000 * t.val + q.val; omega
    | ⟨1, _⟩ => show win3_0.index t (1 : Fin 2) * 256 + 1 * n.val = n.val; omega
  · show V c main_v68 (((cfg3.win 1).blk t).view.emb (ix2 q 0)) = V c main_v68 (ix2 ⟨5000 * t.val + q.val, by omega⟩ 0)
    refine congrArg _ ?_
    funext a; apply Fin.ext
    match a with
    | ⟨0, _⟩ => show win3_1.index t (0 : Fin 2) * 5000 + 1 * q.val = 5000 * t.val + q.val; omega
    | ⟨1, _⟩ => show win3_1.index t (1 : Fin 2) * 1 + 1 * (0 : Fin 1).val = (0 : Fin 1).val; omega
  · funext j
    show V c main_v69 (((cfg3.win 2).blk t).view.emb j) = V c main_v69 j
    refine congrArg _ ?_
    funext a; apply Fin.ext
    match a with
    | ⟨0, _⟩ => show win3_2.index t (0 : Fin 2) * 1 + 1 * (j 0).val = (j 0).val; omega
    | ⟨1, _⟩ => show win3_2.index t (1 : Fin 2) * 256 + 1 * (j 1).val = (j 1).val; omega

/-- An index of the output array is in point t's block iff each coordinate is in the block's range on its axis. -/
theorem mem_blk3 (t : Fin cfg3.N) (i : S100000x256.Idx) :
    i ∈ ((cfg3.win 3).blk t).view.set ↔ ∀ a : Fin 2, win3_3.index t a * S5000x256.size a ≤ (i a).val ∧ (i a).val < win3_3.index t a * S5000x256.size a + S5000x256.size a := by
  show i ∈ ((View.whole main_v70).slice (win3_3.rect t)).set ↔ _
  rw [View.set_slice_whole, Rect.mem_set_unit]
  exact Iff.rfl

/-- Every index of the output array is in some point's block: row r is in block r / 5000. -/
theorem cover3 (i : S100000x256.Idx) :
    ∃ t : Fin cfg3.N, (cfg3.win 3).flush t = true ∧ i ∈ ((cfg3.win 3).blk t).view.set := by
  have hi0 : (i 0).val < 100000 := (i 0).isLt
  have hi1 : (i 1).val < 256 := (i 1).isLt
  have hlt : (i 0).val / 5000 < cfg3.N := by rw [show cfg3.N = 20 from N_3]; omega
  obtain ⟨e0, e1, e2, e3, e4, e5, e6, e7⟩ := idx_facts3 ⟨(i 0).val / 5000, hlt⟩
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win3_3.index ⟨(i 0).val / 5000, hlt⟩ (1 : Fin 2) * 256 ≤ (i 1).val ∧ (i 1).val < win3_3.index ⟨(i 0).val / 5000, hlt⟩ (1 : Fin 2) * 256 + 256
    rw [e7]; omega

/-- After the twenty points the output array is the closing step on the aggregated matrix, the column of row factors and
    the bias row as the region finds them. -/
theorem final3 (c : Dev nD) :
    (dat3 (F := Ideal) V c).arrAt 3 cfg3.N
      = Cert.LibHyperLayer.scaleBiasElu (M := 100000) (N := 256) (V c main_v67) (V c main_v68) (V c main_v69) :=
  (dat3 (F := Ideal) V c).arrAt_eq_of_cover 3 _ (fun t _ => flushed3_eq V c t) cover3

end Cert.KernelIdeal.RegionValue

end
-- ==== Proof.Region4.lean ====
/-
  Region 4: the third layer's feature product, computed on twenty blocks of 5000 rows, read as one whole-array
  function of the arrays the region finds.

  Every point t of the grid loads rows [5000 t, 5000 t + 5000) of the second layer's output (all 256 columns) and the
  whole 256×40 weight, and stores their matrix product as rows [5000 t, 5000 t + 5000) of the output. Entry (p, n)
  of a product depends on row p of the left operand only, so the block written at point t is that block of the
  product of the whole arrays; the twenty blocks cover every row (row r lies in block r / 5000), so after the last
  point the output array is the product x · w.
-/
import proofs.«178120_j2594160246969_1_alg».proof.Proof.Gen.KernelIdeal.Frame
import proofs.«178120_j2594160246969_1_alg».proof.Proof.LibGcnSteps

set_option maxRecDepth 16384

noncomputable section

namespace Cert.KernelIdeal.RegionValue

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The zero offsets of a whole-block access, however spelt. -/
theorem zero_off4 : (![0, 0] : Fin 2 → Nat) = fun _ => 0 := funext fun a => by fin_cases a <;> rfl

/-- The body's stored value is the product of its two loaded blocks (the cast of the left block to its own shape is the identity). -/
theorem pay4 (x0 : Vec Ideal S5000x256 .f32) (x1 : Vec Ideal S256x40 .f32) :
    k4_pay1 x0 x1 = Cert.LibGcnSteps.prod (M := 5000) (K := 256) (N := 40) x0 x1 := by
  show matmul dot_S5000x256_S256x40_S5000x40_1_0_0_1_n_n none
      (truncf .bf16 (shapeCast S5000x256 x0 shapeCasts_S5000x256_S5000x256) bitsLt_bf16_f32) (truncf .bf16 x1 bitsLt_bf16_f32)
      (constant (F := Ideal) S5000x40 .f32 0x00000000#32) = _
  rw [shapeCast_self]
  exact Cert.LibGcnSteps.prod_tile dot_S5000x256_S256x40_S5000x40_1_0_0_1_n_n rfl x0 x1 bitsLt_bf16_f32

/-- The index maps over the grid: the row-indexed windows sit at block (t, 0), the weight at block (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row q of a block that holds rows [5000 r, 5000 r + 5000) of x, times w, is row 5000 r + q of x · w. -/
theorem block_prod4 (X : FVec Ideal ⟨2, ![100000, 256]⟩ .f32) (W : FVec Ideal ⟨2, ![256, 40]⟩ .f32)
    (x0 : FVec Ideal ⟨2, ![5000, 256]⟩ .f32) (x1 : FVec Ideal ⟨2, ![256, 40]⟩ .f32)
    (p : Fin 100000) (q : Fin 5000) (n : Fin 40)
    (h0 : ∀ k : Fin 256, x0 (ix2 q k) = X (ix2 p k)) (h1 : x1 = W) :
    Cert.LibGcnSteps.prod x0 x1 (ix2 q n) = Cert.LibGcnSteps.prod X W (ix2 p n) := by
  subst h1
  exact Cert.LibGcnSteps.prod_rows X x0 x1 p q n h0

/-- What point t writes back is block t of the product of the arrays as the region finds them. -/
theorem flushed4_eq (c : Dev nD) (t : Fin cfg4.N) :
    (dat4 (F := Ideal) V c).flushed 2 t
      = ((cfg4.win 2).blk t).view.read (Elt Ideal)
          (Cert.LibGcnSteps.prod (M := 100000) (K := 256) (N := 40) (V c main_v70) (V c main_arg7)) := by
  show (cfg4.win 2).cut (grid4.coords t) ((dat4 V c).after 2 t) = _
  rw [after4_2]
  unfold out4_2
  rw [View.canon_unit_zero zero_off4]
  simp only [View.ld_unit_zero (S := S5000x256) zero_off4, View.ld_unit_zero (S := S256x40) zero_off4]
  rw [pay4]
  obtain ⟨e0, e1, e2, e3, e4, e5⟩ := idx_facts4 t
  have ht : t.val < 20 := lt_of_lt_of_eq t.isLt (N_4 : cfg4.N = 20)
  funext y
  obtain ⟨q, n, rfl⟩ : ∃ (q : Fin 5000) (n : Fin 40), y = ix2 q n := ⟨y 0, y 1, eq_ix2 y⟩
  have hemb : ((cfg4.win 2).blk t).view.emb (ix2 q n) = (ix2 ⟨5000 * t.val + q.val, by omega⟩ n : S100000x40.Idx) := by
    funext a; apply Fin.ext
    match a with
    | ⟨0, _⟩ => show win4_2.index t (0 : Fin 2) * 5000 + 1 * q.val = 5000 * t.val + q.val; omega
    | ⟨1, _⟩ => show win4_2.index t (1 : Fin 2) * 40 + 1 * n.val = n.val; omega
  show Cert.LibGcnSteps.prod (iblk4 V c 0 t) (iblk4 V c 1 t) (ix2 q n)
      = Cert.LibGcnSteps.prod (M := 100000) (K := 256) (N := 40) (V c main_v70) (V c main_arg7) (((cfg4.win 2).blk t).view.emb (ix2 q n))
  rw [hemb]
  refine block_prod4 (V c main_v70) (V c main_arg7) (iblk4 V c 0 t) (iblk4 V c 1 t) ⟨5000 * t.val + q.val, by omega⟩ q n ?_ ?_
  · intro k
    show V c main_v70 (((cfg4.win 0).blk t).view.emb (ix2 q k)) = V c main_v70 (ix2 ⟨5000 * t.val + q.val, by omega⟩ k)
    refine congrArg _ ?_
    funext a; apply Fin.ext
    match a with
    | ⟨0, _⟩ => show win4_0.index t (0 : Fin 2) * 5000 + 1 * q.val = 5000 * t.val + q.val; omega
    | ⟨1, _⟩ => show win4_0.index t (1 : Fin 2) * 256 + 1 * k.val = k.val; omega
  · funext j
    show V c main_arg7 (((cfg4.win 1).blk t).view.emb j) = V c main_arg7 j
    refine congrArg _ ?_
    funext a; apply Fin.ext
    match a with
    | ⟨0, _⟩ => show win4_1.index t (0 : Fin 2) * 256 + 1 * (j 0).val = (j 0).val; omega
    | ⟨1, _⟩ => show win4_1.index t (1 : Fin 2) * 40 + 1 * (j 1).val = (j 1).val; omega

/-- An index of the output array is in point t's block iff each coordinate is in the block's range on its axis. -/
theorem mem_blk4 (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v71).slice (win4_2.rect t)).set ↔ _
  rw [View.set_slice_whole, Rect.mem_set_unit]
  exact Iff.rfl

/-- Every index of the output array is in some point's block: row r is in block r / 5000. -/
theorem cover4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  have hlt : (i 0).val / 5000 < cfg4.N := by rw [show cfg4.N = 20 from N_4]; omega
  obtain ⟨e0, e1, e2, e3, e4, e5⟩ := idx_facts4 ⟨(i 0).val / 5000, hlt⟩
  refine ⟨⟨(i 0).val / 5000, hlt⟩, flush4_2 _, ?_⟩
  rw [mem_blk4]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hlt⟩ (1 : Fin 2) * 40 ≤ (i 1).val ∧ (i 1).val < win4_2.index ⟨(i 0).val / 5000, hlt⟩ (1 : Fin 2) * 40 + 40
    rw [e5]; omega

/-- After the twenty points the output array is the product of the row-indexed matrix and the weight as the region
    finds them. -/
theorem final4 (c : Dev nD) :
    (dat4 (F := Ideal) V c).arrAt 2 cfg4.N
      = Cert.LibGcnSteps.prod (M := 100000) (K := 256) (N := 40) (V c main_v70) (V c main_arg7) :=
  (dat4 (F := Ideal) V c).arrAt_eq_of_cover 2 _ (fun t _ => flushed4_eq V c t) cover4

end Cert.KernelIdeal.RegionValue

end
-- ==== Proof.Region5.lean ====
/-
  Region 5: the last layer's closing step — scale every row by its degree factor and add the bias row, with no
  activation — computed on twenty blocks of 5000 rows, read as one whole-array function of the arrays the region
  finds.

  Every point t of the grid loads rows [5000 t, 5000 t + 5000) of the aggregated matrix (all 40 columns) and of the
  100000×1 column of row factors, and the whole 1×40 bias row, and stores a · d + b as rows [5000 t, 5000 t + 5000)
  of the output. Entry (p, n) of the step depends on row p of the matrix and of the column only, so the block written
  at point t is that block of the step on the whole arrays; the twenty blocks cover every row (row r lies in block
  r / 5000), so after the last point the output array is the step on the whole arrays.
-/
import proofs.«178120_j2594160246969_1_alg».proof.Proof.Gen.KernelIdeal.Frame
import proofs.«178120_j2594160246969_1_alg».proof.Proof.LibHyperLayer

set_option maxRecDepth 16384

noncomputable section

namespace Cert.KernelIdeal.RegionValue

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- The zero offsets of a whole-block access, however spelt. -/
theorem zero_off5 : (![0, 0] : Fin 2 → Nat) = fun _ => 0 := funext fun a => by fin_cases a <;> rfl

/-- The body's stored value is the scaling and the bias on its three loaded blocks. -/
theorem pay5 (x0 : Vec Ideal S5000x40 .f32) (x1 : Vec Ideal S5000x1 .f32) (x2 : Vec Ideal S1x40 .f32) :
    k5_pay1 x0 x1 x2 = Cert.LibHyperLayer.scaleBias (M := 5000) (N := 40) x0 x1 x2 :=
  Cert.LibHyperLayer.scaleBias_tile (R := 5000) (N := 40) x0 x1 x2 shapeCasts_S5000x40_S5000x40
    shapeCasts_S5000x1_S5000x1 shapeCasts_S1x40_S1x40 broadcasts_S5000x1_S5000x40 broadcasts_S1x40_S5000x40

/-- The index maps over the grid: the row-indexed windows sit at block (t, 0), the bias row at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row q of the step on a block holding rows [5000 r, 5000 r + 5000) of a and d is row 5000 r + q of the step on a, d. -/
theorem block_step5 (A : FVec Ideal ⟨2, ![100000, 40]⟩ .f32) (D : FVec Ideal ⟨2, ![100000, 1]⟩ .f32)
    (B : FVec Ideal ⟨2, ![1, 40]⟩ .f32)
    (x0 : FVec Ideal ⟨2, ![5000, 40]⟩ .f32) (x1 : FVec Ideal ⟨2, ![5000, 1]⟩ .f32) (x2 : FVec Ideal ⟨2, ![1, 40]⟩ .f32)
    (p : Fin 100000) (q : Fin 5000) (n : Fin 40)
    (h0 : x0 (ix2 q n) = A (ix2 p n)) (h1 : x1 (ix2 q 0) = D (ix2 p 0)) (h2 : x2 = B) :
    Cert.LibHyperLayer.scaleBias x0 x1 x2 (ix2 q n) = Cert.LibHyperLayer.scaleBias A D B (ix2 p n) := by
  subst h2
  exact Cert.LibHyperLayer.scaleBias_rows A x0 D x1 x2 p q n h0 h1

/-- What point t writes back is block t of the step on the arrays as the region finds them. -/
theorem flushed5_eq (c : Dev nD) (t : Fin cfg5.N) :
    (dat5 (F := Ideal) V c).flushed 3 t
      = ((cfg5.win 3).blk t).view.read (Elt Ideal)
          (Cert.LibHyperLayer.scaleBias (M := 100000) (N := 40) (V c main_v94) (V c main_v95) (V c main_v96)) := by
  show (cfg5.win 3).cut (grid5.coords t) ((dat5 V c).after 3 t) = _
  rw [after5_3]
  unfold out5_3
  rw [View.canon_unit_zero zero_off5]
  simp only [View.ld_unit_zero (S := S5000x40) zero_off5, View.ld_unit_zero (S := S5000x1) zero_off5,
    View.ld_unit_zero (S := S1x40) zero_off5]
  rw [pay5]
  obtain ⟨e0, e1, e2, e3, e4, e5, e6, e7⟩ := idx_facts5 t
  have ht : t.val < 20 := lt_of_lt_of_eq t.isLt (N_5 : cfg5.N = 20)
  funext y
  obtain ⟨q, n, rfl⟩ : ∃ (q : Fin 5000) (n : Fin 40), y = ix2 q n := ⟨y 0, y 1, eq_ix2 y⟩
  have hemb : ((cfg5.win 3).blk t).view.emb (ix2 q n) = (ix2 ⟨5000 * t.val + q.val, by omega⟩ n : S100000x40.Idx) := by
    funext a; apply Fin.ext
    match a with
    | ⟨0, _⟩ => show win5_3.index t (0 : Fin 2) * 5000 + 1 * q.val = 5000 * t.val + q.val; omega
    | ⟨1, _⟩ => show win5_3.index t (1 : Fin 2) * 40 + 1 * n.val = n.val; omega
  show Cert.LibHyperLayer.scaleBias (iblk5 V c 0 t) (iblk5 V c 1 t) (iblk5 V c 2 t) (ix2 q n)
      = Cert.LibHyperLayer.scaleBias (M := 100000) (N := 40) (V c main_v94) (V c main_v95) (V c main_v96)
          (((cfg5.win 3).blk t).view.emb (ix2 q n))
  rw [hemb]
  refine block_step5 (V c main_v94) (V c main_v95) (V c main_v96) (iblk5 V c 0 t) (iblk5 V c 1 t) (iblk5 V c 2 t)
    ⟨5000 * t.val + q.val, by omega⟩ q n ?_ ?_ ?_
  · show V c main_v94 (((cfg5.win 0).blk t).view.emb (ix2 q n)) = V c main_v94 (ix2 ⟨5000 * t.val + q.val, by omega⟩ n)
    refine congrArg _ ?_
    funext a; apply Fin.ext
    match a with
    | ⟨0, _⟩ => show win5_0.index t (0 : Fin 2) * 5000 + 1 * q.val = 5000 * t.val + q.val; omega
    | ⟨1, _⟩ => show win5_0.index t (1 : Fin 2) * 40 + 1 * n.val = n.val; omega
  · show V c main_v95 (((cfg5.win 1).blk t).view.emb (ix2 q 0)) = V c main_v95 (ix2 ⟨5000 * t.val + q.val, by omega⟩ 0)
    refine congrArg _ ?_
    funext a; apply Fin.ext
    match a with
    | ⟨0, _⟩ => show win5_1.index t (0 : Fin 2) * 5000 + 1 * q.val = 5000 * t.val + q.val; omega
    | ⟨1, _⟩ => show win5_1.index t (1 : Fin 2) * 1 + 1 * (0 : Fin 1).val = (0 : Fin 1).val; omega
  · funext j
    show V c main_v96 (((cfg5.win 2).blk t).view.emb j) = V c main_v96 j
    refine congrArg _ ?_
    funext a; apply Fin.ext
    match a with
    | ⟨0, _⟩ => show win5_2.index t (0 : Fin 2) * 1 + 1 * (j 0).val = (j 0).val; omega
    | ⟨1, _⟩ => show win5_2.index t (1 : Fin 2) * 40 + 1 * (j 1).val = (j 1).val; omega

/-- An index of the output array is in point t's block iff each coordinate is in the block's range on its axis. -/
theorem mem_blk5 (t : Fin cfg5.N) (i : S100000x40.Idx) :
    i ∈ ((cfg5.win 3).blk t).view.set ↔ ∀ a : Fin 2, win5_3.index t a * S5000x40.size a ≤ (i a).val ∧ (i a).val < win5_3.index t a * S5000x40.size a + S5000x40.size a := by
  show i ∈ ((View.whole main_v97).slice (win5_3.rect t)).set ↔ _
  rw [View.set_slice_whole, Rect.mem_set_unit]
  exact Iff.rfl

/-- Every index of the output array is in some point's block: row r is in block r / 5000. -/
theorem cover5 (i : S100000x40.Idx) :
    ∃ t : Fin cfg5.N, (cfg5.win 3).flush t = true ∧ i ∈ ((cfg5.win 3).blk t).view.set := by
  have hi0 : (i 0).val < 100000 := (i 0).isLt
  have hi1 : (i 1).val < 40 := (i 1).isLt
  have hlt : (i 0).val / 5000 < cfg5.N := by rw [show cfg5.N = 20 from N_5]; omega
  obtain ⟨e0, e1, e2, e3, e4, e5, e6, e7⟩ := idx_facts5 ⟨(i 0).val / 5000, hlt⟩
  refine ⟨⟨(i 0).val / 5000, hlt⟩, flush5_3 _, ?_⟩
  rw [mem_blk5]
  intro a
  match a with
  | ⟨0, _⟩ =>
    show win5_3.index ⟨(i 0).val / 5000, hlt⟩ (0 : Fin 2) * 5000 ≤ (i 0).val ∧ (i 0).val < win5_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win5_3.index ⟨(i 0).val / 5000, hlt⟩ (1 : Fin 2) * 40 ≤ (i 1).val ∧ (i 1).val < win5_3.index ⟨(i 0).val / 5000, hlt⟩ (1 : Fin 2) * 40 + 40
    rw [e7]; omega

/-- After the twenty points the output array is the scaling and the bias on the aggregated matrix, the column of row factors and
    the bias row as the region finds them. -/
theorem final5 (c : Dev nD) :
    (dat5 (F := Ideal) V c).arrAt 3 cfg5.N
      = Cert.LibHyperLayer.scaleBias (M := 100000) (N := 40) (V c main_v94) (V c main_v95) (V c main_v96) :=
  (dat5 (F := Ideal) V c).arrAt_eq_of_cover 3 _ (fun t _ => flushed5_eq V c t) cover5

end Cert.KernelIdeal.RegionValue

end
-- ==== Proof.Chain.lean ====
/-
  The kernel program's buffers, boundary by boundary, at the extended reals. Before the first region the host operations
  leave the node and hyperedge degree reciprocals; each product region leaves the product of its operands, each host
  stretch between regions the aggregation of that product (with the reciprocal column and the bias row reshaped for the
  next region), each closing region the scaled, biased and (in the first two layers) unit-activated aggregate. The host
  operations are the reference's own, so each stretch's result is stated with the reference network's named steps; a
  buffer that a segment does not write keeps its contents across it. At the last boundary the result buffer holds the
  reference network of the nine arguments' launch contents.
-/
import proofs.«178120_j2594160246969_1_alg».proof.Proof.Gen.KernelIdeal.Frame
import proofs.«178120_j2594160246969_1_alg».proof.Proof.Gen.ReferenceIdeal
import proofs.«178120_j2594160246969_1_alg».proof.Proof.RefSpec
import proofs.«178120_j2594160246969_1_alg».proof.Proof.KernelHost
import proofs.«178120_j2594160246969_1_alg».proof.Proof.Region0
import proofs.«178120_j2594160246969_1_alg».proof.Proof.Region1
import proofs.«178120_j2594160246969_1_alg».proof.Proof.Region2
import proofs.«178120_j2594160246969_1_alg».proof.Proof.Region3
import proofs.«178120_j2594160246969_1_alg».proof.Proof.Region4
import proofs.«178120_j2594160246969_1_alg».proof.Proof.Region5

set_option maxRecDepth 16384

noncomputable section

namespace Cert.KernelIdeal.Chain

open Cert.KernelIdeal Cert.KernelIdeal.Gen Cert.KernelIdeal.RegionValue Cert.KernelIdeal.HostRead
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's entry: the arguments as launched, the two degree reciprocals -/
theorem W4_main_arg0 : W4 m ρ c (Proc.devRef .tc main_arg0) = (m ((c : Thread nD τ).loc main_arg0)) := h0_main_arg0 (W0 m ρ c)
theorem W4_main_arg1 : W4 m ρ c (Proc.devRef .tc main_arg1) = (m ((c : Thread nD τ).loc main_arg1)) := h0_main_arg1 (W0 m ρ c)
theorem W4_main_arg2 : W4 m ρ c (Proc.devRef .tc main_arg2) = (m ((c : Thread nD τ).loc main_arg2)) := h0_main_arg2 (W0 m ρ c)
theorem W4_main_arg3 : W4 m ρ c (Proc.devRef .tc main_arg3) = (m ((c : Thread nD τ).loc main_arg3)) := h0_main_arg3 (W0 m ρ c)
theorem W4_main_arg4 : W4 m ρ c (Proc.devRef .tc main_arg4) = (m ((c : Thread nD τ).loc main_arg4)) := h0_main_arg4 (W0 m ρ c)
theorem W4_main_arg5 : W4 m ρ c (Proc.devRef .tc main_arg5) = (m ((c : Thread nD τ).loc main_arg5)) := h0_main_arg5 (W0 m ρ c)
theorem W4_main_arg6 : W4 m ρ c (Proc.devRef .tc main_arg6) = (m ((c : Thread nD τ).loc main_arg6)) := h0_main_arg6 (W0 m ρ c)
theorem W4_main_arg7 : W4 m ρ c (Proc.devRef .tc main_arg7) = (m ((c : Thread nD τ).loc main_arg7)) := h0_main_arg7 (W0 m ρ c)
theorem W4_main_arg8 : W4 m ρ c (Proc.devRef .tc main_arg8) = (m ((c : Thread nD τ).loc main_arg8)) := h0_main_arg8 (W0 m ρ c)
theorem W4_main_v11 : W4 m ρ c (Proc.devRef .tc main_v11) = (Cert.RefSpec.dinv (m ((c : Thread nD τ).loc main_arg1))) := h0_dinv (W0 m ρ c)
theorem W4_main_v16 : W4 m ρ c (Proc.devRef .tc main_v16) = (Cert.RefSpec.binv (m ((c : Thread nD τ).loc main_arg2))) := h0_binv (W0 m ρ c)

/-! ## Region 0's exit: the first product -/
theorem W5_main_v17 : W5 m ρ c (Proc.devRef .tc main_v17) = (Cert.LibGcnSteps.prod (M := 100000) (K := 128) (N := 256) (m ((c : Thread nD τ).loc main_arg0)) (m ((c : Thread nD τ).loc main_arg3))) := by
  refine (W5_arr m ρ c 2).trans ((final0 (V4 m ρ) c).trans ?_)
  show Cert.LibGcnSteps.prod (M := 100000) (K := 128) (N := 256) (W4 m ρ c (Proc.devRef .tc main_arg0)) (W4 m ρ c (Proc.devRef .tc main_arg3)) = _
  rw [W4_main_arg0, W4_main_arg3]
theorem W5_main_arg1 : W5 m ρ c (Proc.devRef .tc main_arg1) = (m ((c : Thread nD τ).loc main_arg1)) := (W5_of_ne m ρ c main_arg1 (by decide)).trans (W4_main_arg1 m ρ c)
theorem W5_main_arg2 : W5 m ρ c (Proc.devRef .tc main_arg2) = (m ((c : Thread nD τ).loc main_arg2)) := (W5_of_ne m ρ c main_arg2 (by decide)).trans (W4_main_arg2 m ρ c)
theorem W5_main_arg4 : W5 m ρ c (Proc.devRef .tc main_arg4) = (m ((c : Thread nD τ).loc main_arg4)) := (W5_of_ne m ρ c main_arg4 (by decide)).trans (W4_main_arg4 m ρ c)
theorem W5_main_arg5 : W5 m ρ c (Proc.devRef .tc main_arg5) = (m ((c : Thread nD τ).loc main_arg5)) := (W5_of_ne m ρ c main_arg5 (by decide)).trans (W4_main_arg5 m ρ c)
theorem W5_main_arg6 : W5 m ρ c (Proc.devRef .tc main_arg6) = (m ((c : Thread nD τ).loc main_arg6)) := (W5_of_ne m ρ c main_arg6 (by decide)).trans (W4_main_arg6 m ρ c)
theorem W5_main_arg7 : W5 m ρ c (Proc.devRef .tc main_arg7) = (m ((c : Thread nD τ).loc main_arg7)) := (W5_of_ne m ρ c main_arg7 (by decide)).trans (W4_main_arg7 m ρ c)
theorem W5_main_arg8 : W5 m ρ c (Proc.devRef .tc main_arg8) = (m ((c : Thread nD τ).loc main_arg8)) := (W5_of_ne m ρ c main_arg8 (by decide)).trans (W4_main_arg8 m ρ c)
theorem W5_main_v11 : W5 m ρ c (Proc.devRef .tc main_v11) = (Cert.RefSpec.dinv (m ((c : Thread nD τ).loc main_arg1))) := (W5_of_ne m ρ c main_v11 (by decide)).trans (W4_main_v11 m ρ c)
theorem W5_main_v16 : W5 m ρ c (Proc.devRef .tc main_v16) = (Cert.RefSpec.binv (m ((c : Thread nD τ).loc main_arg2))) := (W5_of_ne m ρ c main_v16 (by decide)).trans (W4_main_v16 m ρ c)

/-! ## Region 1's entry: the first aggregation, the reciprocal column, the bias row -/
theorem W6_main_v40 : W6 m ρ c (Proc.devRef .tc main_v40) = Cert.RefSpec.agg256 (Cert.LibGcnSteps.prod (M := 100000) (K := 128) (N := 256) (m ((c : Thread nD τ).loc main_arg0)) (m ((c : Thread nD τ).loc main_arg3))) (m ((c : Thread nD τ).loc main_arg1)) (m ((c : Thread nD τ).loc main_arg2)) (Cert.RefSpec.binv (m ((c : Thread nD τ).loc main_arg2))) := by
  refine (h1_v40 (W5 m ρ c)).trans ?_
  rw [W5_main_v17, W5_main_arg1, W5_main_arg2, W5_main_v16]
theorem W6_main_v41 : W6 m ρ c (Proc.devRef .tc main_v41) = Cert.RefSpec.col (Cert.RefSpec.dinv (m ((c : Thread nD τ).loc main_arg1))) := by
  refine (h1_v41 (W5 m ρ c)).trans ?_
  rw [W5_main_v11]
theorem W6_main_v42 : W6 m ρ c (Proc.devRef .tc main_v42) = Cert.RefSpec.row256 (m ((c : Thread nD τ).loc main_arg4)) := by
  refine (h1_v42 (W5 m ρ c)).trans ?_
  rw [W5_main_arg4]
theorem W6_main_arg1 : W6 m ρ c (Proc.devRef .tc main_arg1) = (m ((c : Thread nD τ).loc main_arg1)) := (h1_keep_main_arg1 (W5 m ρ c)).trans (W5_main_arg1 m ρ c)
theorem W6_main_arg2 : W6 m ρ c (Proc.devRef .tc main_arg2) = (m ((c : Thread nD τ).loc main_arg2)) := (h1_keep_main_arg2 (W5 m ρ c)).trans (W5_main_arg2 m ρ c)
theorem W6_main_arg5 : W6 m ρ c (Proc.devRef .tc main_arg5) = (m ((c : Thread nD τ).loc main_arg5)) := (h1_keep_main_arg5 (W5 m ρ c)).trans (W5_main_arg5 m ρ c)
theorem W6_main_arg6 : W6 m ρ c (Proc.devRef .tc main_arg6) = (m ((c : Thread nD τ).loc main_arg6)) := (h1_keep_main_arg6 (W5 m ρ c)).trans (W5_main_arg6 m ρ c)
theorem W6_main_arg7 : W6 m ρ c (Proc.devRef .tc main_arg7) = (m ((c : Thread nD τ).loc main_arg7)) := (h1_keep_main_arg7 (W5 m ρ c)).trans (W5_main_arg7 m ρ c)
theorem W6_main_arg8 : W6 m ρ c (Proc.devRef .tc main_arg8) = (m ((c : Thread nD τ).loc main_arg8)) := (h1_keep_main_arg8 (W5 m ρ c)).trans (W5_main_arg8 m ρ c)
theorem W6_main_v11 : W6 m ρ c (Proc.devRef .tc main_v11) = (Cert.RefSpec.dinv (m ((c : Thread nD τ).loc main_arg1))) := (h1_keep_main_v11 (W5 m ρ c)).trans (W5_main_v11 m ρ c)
theorem W6_main_v16 : W6 m ρ c (Proc.devRef .tc main_v16) = (Cert.RefSpec.binv (m ((c : Thread nD τ).loc main_arg2))) := (h1_keep_main_v16 (W5 m ρ c)).trans (W5_main_v16 m ρ c)

/-! ## Region 1's exit: the first layer -/
theorem W7_main_v43 : W7 m ρ c (Proc.devRef .tc main_v43) = (Cert.RefSpec.layer1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W7_arr m ρ c 3).trans ((final1 (V6 m ρ) c).trans ?_)
  show Cert.LibHyperLayer.scaleBiasElu (M := 100000) (N := 256) (W6 m ρ c (Proc.devRef .tc main_v40)) (W6 m ρ c (Proc.devRef .tc main_v41)) (W6 m ρ c (Proc.devRef .tc main_v42)) = _
  rw [W6_main_v40, W6_main_v41, W6_main_v42]
  rfl
theorem W7_main_arg1 : W7 m ρ c (Proc.devRef .tc main_arg1) = (m ((c : Thread nD τ).loc main_arg1)) := (W7_of_ne m ρ c main_arg1 (by decide)).trans (W6_main_arg1 m ρ c)
theorem W7_main_arg2 : W7 m ρ c (Proc.devRef .tc main_arg2) = (m ((c : Thread nD τ).loc main_arg2)) := (W7_of_ne m ρ c main_arg2 (by decide)).trans (W6_main_arg2 m ρ c)
theorem W7_main_arg5 : W7 m ρ c (Proc.devRef .tc main_arg5) = (m ((c : Thread nD τ).loc main_arg5)) := (W7_of_ne m ρ c main_arg5 (by decide)).trans (W6_main_arg5 m ρ c)
theorem W7_main_arg6 : W7 m ρ c (Proc.devRef .tc main_arg6) = (m ((c : Thread nD τ).loc main_arg6)) := (W7_of_ne m ρ c main_arg6 (by decide)).trans (W6_main_arg6 m ρ c)
theorem W7_main_arg7 : W7 m ρ c (Proc.devRef .tc main_arg7) = (m ((c : Thread nD τ).loc main_arg7)) := (W7_of_ne m ρ c main_arg7 (by decide)).trans (W6_main_arg7 m ρ c)
theorem W7_main_arg8 : W7 m ρ c (Proc.devRef .tc main_arg8) = (m ((c : Thread nD τ).loc main_arg8)) := (W7_of_ne m ρ c main_arg8 (by decide)).trans (W6_main_arg8 m ρ c)
theorem W7_main_v11 : W7 m ρ c (Proc.devRef .tc main_v11) = (Cert.RefSpec.dinv (m ((c : Thread nD τ).loc main_arg1))) := (W7_of_ne m ρ c main_v11 (by decide)).trans (W6_main_v11 m ρ c)
theorem W7_main_v16 : W7 m ρ c (Proc.devRef .tc main_v16) = (Cert.RefSpec.binv (m ((c : Thread nD τ).loc main_arg2))) := (W7_of_ne m ρ c main_v16 (by decide)).trans (W6_main_v16 m ρ c)

/-! ## Region 2's exit: the second product -/
theorem W8_main_v44 : W8 m ρ c (Proc.devRef .tc main_v44) = (Cert.LibGcnSteps.prod (M := 100000) (K := 256) (N := 256) (Cert.RefSpec.layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) := by
  refine (W8_arr m ρ c 2).trans ((final2 (V7 m ρ) c).trans ?_)
  show Cert.LibGcnSteps.prod (M := 100000) (K := 256) (N := 256) (W7 m ρ c (Proc.devRef .tc main_v43)) (W7 m ρ c (Proc.devRef .tc main_arg5)) = _
  rw [W7_main_v43, W7_main_arg5]
theorem W8_main_arg1 : W8 m ρ c (Proc.devRef .tc main_arg1) = (m ((c : Thread nD τ).loc main_arg1)) := (W8_of_ne m ρ c main_arg1 (by decide)).trans (W7_main_arg1 m ρ c)
theorem W8_main_arg2 : W8 m ρ c (Proc.devRef .tc main_arg2) = (m ((c : Thread nD τ).loc main_arg2)) := (W8_of_ne m ρ c main_arg2 (by decide)).trans (W7_main_arg2 m ρ c)
theorem W8_main_arg6 : W8 m ρ c (Proc.devRef .tc main_arg6) = (m ((c : Thread nD τ).loc main_arg6)) := (W8_of_ne m ρ c main_arg6 (by decide)).trans (W7_main_arg6 m ρ c)
theorem W8_main_arg7 : W8 m ρ c (Proc.devRef .tc main_arg7) = (m ((c : Thread nD τ).loc main_arg7)) := (W8_of_ne m ρ c main_arg7 (by decide)).trans (W7_main_arg7 m ρ c)
theorem W8_main_arg8 : W8 m ρ c (Proc.devRef .tc main_arg8) = (m ((c : Thread nD τ).loc main_arg8)) := (W8_of_ne m ρ c main_arg8 (by decide)).trans (W7_main_arg8 m ρ c)
theorem W8_main_v11 : W8 m ρ c (Proc.devRef .tc main_v11) = (Cert.RefSpec.dinv (m ((c : Thread nD τ).loc main_arg1))) := (W8_of_ne m ρ c main_v11 (by decide)).trans (W7_main_v11 m ρ c)
theorem W8_main_v16 : W8 m ρ c (Proc.devRef .tc main_v16) = (Cert.RefSpec.binv (m ((c : Thread nD τ).loc main_arg2))) := (W8_of_ne m ρ c main_v16 (by decide)).trans (W7_main_v16 m ρ c)

/-! ## Region 3's entry: the second aggregation -/
theorem W9_main_v67 : W9 m ρ c (Proc.devRef .tc main_v67) = Cert.RefSpec.agg256 (Cert.LibGcnSteps.prod (M := 100000) (K := 256) (N := 256) (Cert.RefSpec.layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (m ((c : Thread nD τ).loc main_arg1)) (m ((c : Thread nD τ).loc main_arg2)) (Cert.RefSpec.binv (m ((c : Thread nD τ).loc main_arg2))) := by
  refine (h3_v67 (W8 m ρ c)).trans ?_
  rw [W8_main_v44, W8_main_arg1, W8_main_arg2, W8_main_v16]
theorem W9_main_v68 : W9 m ρ c (Proc.devRef .tc main_v68) = Cert.RefSpec.col (Cert.RefSpec.dinv (m ((c : Thread nD τ).loc main_arg1))) := by
  refine (h3_v68 (W8 m ρ c)).trans ?_
  rw [W8_main_v11]
theorem W9_main_v69 : W9 m ρ c (Proc.devRef .tc main_v69) = Cert.RefSpec.row256 (m ((c : Thread nD τ).loc main_arg6)) := by
  refine (h3_v69 (W8 m ρ c)).trans ?_
  rw [W8_main_arg6]
theorem W9_main_arg1 : W9 m ρ c (Proc.devRef .tc main_arg1) = (m ((c : Thread nD τ).loc main_arg1)) := (h3_keep_main_arg1 (W8 m ρ c)).trans (W8_main_arg1 m ρ c)
theorem W9_main_arg2 : W9 m ρ c (Proc.devRef .tc main_arg2) = (m ((c : Thread nD τ).loc main_arg2)) := (h3_keep_main_arg2 (W8 m ρ c)).trans (W8_main_arg2 m ρ c)
theorem W9_main_arg7 : W9 m ρ c (Proc.devRef .tc main_arg7) = (m ((c : Thread nD τ).loc main_arg7)) := (h3_keep_main_arg7 (W8 m ρ c)).trans (W8_main_arg7 m ρ c)
theorem W9_main_arg8 : W9 m ρ c (Proc.devRef .tc main_arg8) = (m ((c : Thread nD τ).loc main_arg8)) := (h3_keep_main_arg8 (W8 m ρ c)).trans (W8_main_arg8 m ρ c)
theorem W9_main_v11 : W9 m ρ c (Proc.devRef .tc main_v11) = (Cert.RefSpec.dinv (m ((c : Thread nD τ).loc main_arg1))) := (h3_keep_main_v11 (W8 m ρ c)).trans (W8_main_v11 m ρ c)
theorem W9_main_v16 : W9 m ρ c (Proc.devRef .tc main_v16) = (Cert.RefSpec.binv (m ((c : Thread nD τ).loc main_arg2))) := (h3_keep_main_v16 (W8 m ρ c)).trans (W8_main_v16 m ρ c)

/-! ## Region 3's exit: the second layer -/
theorem W10_main_v70 : W10 m ρ c (Proc.devRef .tc main_v70) = (Cert.RefSpec.layer2 (Cert.RefSpec.layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) := by
  refine (W10_arr m ρ c 3).trans ((final3 (V9 m ρ) c).trans ?_)
  show Cert.LibHyperLayer.scaleBiasElu (M := 100000) (N := 256) (W9 m ρ c (Proc.devRef .tc main_v67)) (W9 m ρ c (Proc.devRef .tc main_v68)) (W9 m ρ c (Proc.devRef .tc main_v69)) = _
  rw [W9_main_v67, W9_main_v68, W9_main_v69]
  rfl
theorem W10_main_arg1 : W10 m ρ c (Proc.devRef .tc main_arg1) = (m ((c : Thread nD τ).loc main_arg1)) := (W10_of_ne m ρ c main_arg1 (by decide)).trans (W9_main_arg1 m ρ c)
theorem W10_main_arg2 : W10 m ρ c (Proc.devRef .tc main_arg2) = (m ((c : Thread nD τ).loc main_arg2)) := (W10_of_ne m ρ c main_arg2 (by decide)).trans (W9_main_arg2 m ρ c)
theorem W10_main_arg7 : W10 m ρ c (Proc.devRef .tc main_arg7) = (m ((c : Thread nD τ).loc main_arg7)) := (W10_of_ne m ρ c main_arg7 (by decide)).trans (W9_main_arg7 m ρ c)
theorem W10_main_arg8 : W10 m ρ c (Proc.devRef .tc main_arg8) = (m ((c : Thread nD τ).loc main_arg8)) := (W10_of_ne m ρ c main_arg8 (by decide)).trans (W9_main_arg8 m ρ c)
theorem W10_main_v11 : W10 m ρ c (Proc.devRef .tc main_v11) = (Cert.RefSpec.dinv (m ((c : Thread nD τ).loc main_arg1))) := (W10_of_ne m ρ c main_v11 (by decide)).trans (W9_main_v11 m ρ c)
theorem W10_main_v16 : W10 m ρ c (Proc.devRef .tc main_v16) = (Cert.RefSpec.binv (m ((c : Thread nD τ).loc main_arg2))) := (W10_of_ne m ρ c main_v16 (by decide)).trans (W9_main_v16 m ρ c)

/-! ## Region 4's exit: the third product -/
theorem W11_main_v71 : W11 m ρ c (Proc.devRef .tc main_v71) = (Cert.LibGcnSteps.prod (M := 100000) (K := 256) (N := 40) (Cert.RefSpec.layer2 (Cert.RefSpec.layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg7))) := by
  refine (W11_arr m ρ c 2).trans ((final4 (V10 m ρ) c).trans ?_)
  show Cert.LibGcnSteps.prod (M := 100000) (K := 256) (N := 40) (W10 m ρ c (Proc.devRef .tc main_v70)) (W10 m ρ c (Proc.devRef .tc main_arg7)) = _
  rw [W10_main_v70, W10_main_arg7]
theorem W11_main_arg1 : W11 m ρ c (Proc.devRef .tc main_arg1) = (m ((c : Thread nD τ).loc main_arg1)) := (W11_of_ne m ρ c main_arg1 (by decide)).trans (W10_main_arg1 m ρ c)
theorem W11_main_arg2 : W11 m ρ c (Proc.devRef .tc main_arg2) = (m ((c : Thread nD τ).loc main_arg2)) := (W11_of_ne m ρ c main_arg2 (by decide)).trans (W10_main_arg2 m ρ c)
theorem W11_main_arg8 : W11 m ρ c (Proc.devRef .tc main_arg8) = (m ((c : Thread nD τ).loc main_arg8)) := (W11_of_ne m ρ c main_arg8 (by decide)).trans (W10_main_arg8 m ρ c)
theorem W11_main_v11 : W11 m ρ c (Proc.devRef .tc main_v11) = (Cert.RefSpec.dinv (m ((c : Thread nD τ).loc main_arg1))) := (W11_of_ne m ρ c main_v11 (by decide)).trans (W10_main_v11 m ρ c)
theorem W11_main_v16 : W11 m ρ c (Proc.devRef .tc main_v16) = (Cert.RefSpec.binv (m ((c : Thread nD τ).loc main_arg2))) := (W11_of_ne m ρ c main_v16 (by decide)).trans (W10_main_v16 m ρ c)

/-! ## Region 5's entry: the third aggregation -/
theorem W12_main_v94 : W12 m ρ c (Proc.devRef .tc main_v94) = Cert.RefSpec.agg40 (Cert.LibGcnSteps.prod (M := 100000) (K := 256) (N := 40) (Cert.RefSpec.layer2 (Cert.RefSpec.layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) (m ((c : Thread nD τ).loc main_arg5)) (m ((c : Thread nD τ).loc main_arg6))) (m ((c : Thread nD τ).loc main_arg7))) (m ((c : Thread nD τ).loc main_arg1)) (m ((c : Thread nD τ).loc main_arg2)) (Cert.RefSpec.binv (m ((c : Thread nD τ).loc main_arg2))) := by
  refine (h5_v94 (W11 m ρ c)).trans ?_
  rw [W11_main_v71, W11_main_arg1, W11_main_arg2, W11_main_v16]
theorem W12_main_v95 : W12 m ρ c (Proc.devRef .tc main_v95) = Cert.RefSpec.col (Cert.RefSpec.dinv (m ((c : Thread nD τ).loc main_arg1))) := by
  refine (h5_v95 (W11 m ρ c)).trans ?_
  rw [W11_main_v11]
theorem W12_main_v96 : W12 m ρ c (Proc.devRef .tc main_v96) = Cert.RefSpec.row40 (m ((c : Thread nD τ).loc main_arg8)) := by
  refine (h5_v96 (W11 m ρ c)).trans ?_
  rw [W11_main_arg8]

/-! ## The last region's exit: the network -/
/-- The result buffer at the last boundary is the reference network of the nine arguments' launch contents. -/
theorem out_eq : W13 m ρ c (Proc.devRef .tc main_v97) = Cert.RefSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W13_arr m ρ c 3).trans ((final5 (V12 m ρ) c).trans ?_)
  show Cert.LibHyperLayer.scaleBias (M := 100000) (N := 40) (W12 m ρ c (Proc.devRef .tc main_v94)) (W12 m ρ c (Proc.devRef .tc main_v95)) (W12 m ρ c (Proc.devRef .tc main_v96)) = _
  rw [W12_main_v94, W12_main_v95, W12_main_v96]
  rfl

end Cert.KernelIdeal.Chain

end
-- ==== Proof.lean ====
/-
  The proof of `Cert.Claim`: three layers of a hypergraph convolution over 100000 nodes and 1000000 incidences
  (node, hyperedge), computed two ways, end with the same 100000×40 array on the extended reals.

  One layer takes the node features x to  elu (d ⊙ A (x · w) + b):  the product with the weight w; the aggregation A —
  add the rows of the incidences' nodes into their hyperedges, scale every hyperedge by the reciprocal of its degree,
  add the rows of the incidences' hyperedges back into their nodes —; every node's row scaled by the reciprocal d of
  its degree; the bias row b added; and, in the first two layers, the exponential linear unit (z where z > 0,
  e^z − 1 elsewhere). The degrees count the incidences that name a node or a hyperedge; a reciprocal is taken where
  the degree is positive and is zero elsewhere.

  The reference computes every step on whole arrays. The kernel program computes the product and the closing step
  (scale, bias, unit) of every layer on twenty blocks of 5000 rows and the degrees, reciprocals and aggregations on
  whole arrays, by the very operations the reference applies. Entry (p, n) of the product and of the closing step
  depends on row p of the row-indexed operands only, so the twenty blocks written are the blocks of the whole-array
  step and together they are that step. The two spellings of each step then agree entry by entry:
    the product is Σ_k x(p, k) · w(k, n) in both, the same sum in the same order (the blocks round their operands to
      a narrower format first, which on the extended reals is the identity);
    the scaled row plus the bias is a · d + b in one program and d · a + b in the other: the product commutes;
    the unit is select (z > 0) z (e^z − 1) in one and select (z > 0) z (1 · expm1 (select (z > 0) 0 z)) in the other:
      expm1 z = e^z − 1, 1 · y = y, and where z > 0 fails the inner select is z;
    the degrees, the reciprocals and the aggregations are the same operations applied to equal operands, and are
      carried as named functions, never opened.
  No sum is rearranged and no entry is asked to be finite.

  Assembled here: the three frames (the two kernel programs' generated frames; the reference's run with its result
  dropped), the idealization ledger (empty), and the equality of the two results from the two runs read back —
  the kernel program's result buffer holds the network of the nine arguments (Proof/KernelRun.lean, Proof/Chain.lean),
  and so does the reference's (Proof/RefRead.lean), the network being one term of the arguments (Proof/RefSpec.lean).
-/
import proofs.«178120_j2594160246969_1_alg».proof.Defs
import proofs.«178120_j2594160246969_1_alg».proof.Proof.Gen.Kernel
import proofs.«178120_j2594160246969_1_alg».proof.Proof.Gen.Kernel.Skeleton
import proofs.«178120_j2594160246969_1_alg».proof.Proof.Gen.Kernel.Launch
import proofs.«178120_j2594160246969_1_alg».proof.Proof.Gen.Kernel.Points
import proofs.«178120_j2594160246969_1_alg».proof.Proof.Gen.Kernel.Frame
import proofs.«178120_j2594160246969_1_alg».proof.Proof.Gen.KernelIdeal
import proofs.«178120_j2594160246969_1_alg».proof.Proof.Gen.KernelIdeal.Skeleton
import proofs.«178120_j2594160246969_1_alg».proof.Proof.Gen.KernelIdeal.Launch
import proofs.«178120_j2594160246969_1_alg».proof.Proof.Gen.KernelIdeal.Points
import proofs.«178120_j2594160246969_1_alg».proof.Proof.Gen.KernelIdeal.Frame
import proofs.«178120_j2594160246969_1_alg».proof.Proof.Gen.ReferenceIdeal
import proofs.«178120_j2594160246969_1_alg».proof.Proof.Gen.Pre_finite_inputs
import proofs.«178120_j2594160246969_1_alg».proof.Proof.KernelRun
import proofs.«178120_j2594160246969_1_alg».proof.Proof.RefRead
import proofs.«178120_j2594160246969_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- So does the reference: its run read back, the result dropped. -/
theorem frame_ri : Cert.frame_ReferenceIdeal := fun m ρ _ =>
  (θ_run Cert.ReferenceIdeal.defs _ _).mono (fun _ h c => (h c).2) (Cert.ReferenceIdeal.HandRead.run m ρ)

/-- The idealization rewrote no operation: nothing to preserve. -/
theorem preserves : Cert.preserves_Kernel_KernelIdeal := trivial

/-- From memories that agree on the nine arguments both programs end with the network of those arguments in their
    result buffers, the arguments unchanged. -/
theorem algebraic : Cert.algebraic_KernelIdeal_ReferenceIdeal := by
  intro m ρ m' ρ' _ hagree
  refine ⟨fun c => Cert.RefSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.out_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.HandRead.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
